-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg10
  let main_cst_18 : FVec F S_ .f32 := constant S_ .f32 0x7F800000#32
  let main_v50 : FVec F S256x1 .f32 := broadcastInDim S256x1 ![] bcast_S_S256x1 main_cst_18
  fn_part3 (F := F) main_arg11 main_v48 main_v49 main_v50

def fn_part1 {F : FTy → Type} [FloatOps F] (main_arg4 : FVec F S128x128 .f32) (main_arg5 : FVec F S128x128 .f32) (main_arg6 : FVec F S128x256 .f32) (main_arg7 : FVec F S256 .f32) (main_arg8 : FVec F S256x256 .f32) (main_arg9 : FVec F S256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x4096 .f32) (main_arg1 : FVec F S4096x4096 .f32) (main_arg2 : FVec F S4096x128 .f32) (main_arg3 : FVec F S128x128 .f32) (main_arg4 : FVec F S128x128 .f32) (main_arg5 : FVec F S128x128 .f32) (main_arg6 : FVec F S128x256 .f32) (main_arg7 : FVec F S256 .f32) (main_arg8 : FVec F S256x256 .f32) (main_arg9 : FVec F S256 .f32) (main_arg10 : FVec F S256x1 .f32) (main_arg11 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S4096x4096 : Shape := ⟨2, ![4096, 4096]⟩
abbrev S4096x128 : Shape := ⟨2, ![4096, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S8192x4096 : Shape := ⟨2, ![8192, 4096]⟩
abbrev S8192x128 : Shape := ⟨2, ![8192, 128]⟩
abbrev S8192x1 : Shape := ⟨2, ![8192, 1]⟩
abbrev S512x4096 : Shape := ⟨2, ![512, 4096]⟩
abbrev S512x128 : Shape := ⟨2, ![512, 128]⟩
abbrev S512x1 : Shape := ⟨2, ![512, 1]⟩
abbrev S512 : Shape := ⟨1, ![512]⟩
abbrev S512x256 : Shape := ⟨2, ![512, 256]⟩
abbrev S4096x1 : Shape := ⟨2, ![4096, 1]⟩

abbrev nBuf : Space → Nat
  | .hbm => 26
  | .vmem => 74
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S4096x128, .bf16⟩
  | .hbm, ⟨17, _⟩ => ⟨S8192x4096, .bf16⟩
  | .hbm, ⟨18, _⟩ => ⟨S8192x128, .bf16⟩
  | .hbm, ⟨19, _⟩ => ⟨S8192x1, .f32⟩
  | .hbm, ⟨20, _⟩ => ⟨S8192x128, .bf16⟩
  | .hbm, ⟨21, _⟩ => ⟨S8192x1, .f32⟩
  | .hbm, ⟨22, _⟩ => ⟨S8192x128, .bf16⟩
  | .hbm, ⟨23, _⟩ => ⟨S8192x1, .f32⟩
  | .hbm, ⟨24, _⟩ => ⟨S8192x1, .f32⟩
  | .hbm, ⟨25, _⟩ => ⟨S4096x1, .f32⟩
  | .local _ .vmem, ⟨0, _⟩ => ⟨S4096x128, .f32⟩
  | .local _ .vmem, ⟨1, _⟩ => ⟨S4096x128, .bf16⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S4096x128, .bf16⟩
  | .local _ .vmem, ⟨7, _⟩ => ⟨S128x128, .f32⟩
  | .local _ .vmem, ⟨8, _⟩ => ⟨S128x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S512x4096, .bf16⟩
  | .local _ .vmem, ⟨15, _⟩ => ⟨S512x4096, .bf16⟩
  | .local _ .vmem, ⟨16, _⟩ => ⟨S512x128, .bf16⟩
  | .local _ .vmem, ⟨17, _⟩ => ⟨S512x128, .bf16⟩
  | .local _ .vmem, ⟨18, _⟩ => ⟨S512x1, .f32⟩
  | .local _ .vmem, ⟨19, _⟩ => ⟨S512x1, .f32⟩
  | .local _ .vmem, ⟨20, _⟩ => ⟨S512x4096, .bf16⟩
  | .local _ .vmem, ⟨21, _⟩ => ⟨S512x4096, .bf16⟩
  | .local _ .vmem, ⟨22, _⟩ => ⟨S4096x128, .bf16⟩
  | .local _ .vmem, ⟨23, _⟩ => ⟨S4096x128, .bf16⟩
  | .local _ .vmem, ⟨24, _⟩ => ⟨S128x128, .f32⟩
  | .local _ .vmem, ⟨25, _⟩ => ⟨S128x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x1, .f32⟩
  | .local _ .vmem, ⟨31, _⟩ => ⟨S512x1, .f32⟩
  | .local _ .vmem, ⟨32, _⟩ => ⟨S512x1, .f32⟩
  | .local _ .vmem, ⟨33, _⟩ => ⟨S512x128, .bf16⟩
  | .local _ .vmem, ⟨34, _⟩ => ⟨S512x128, .bf16⟩
  | .local _ .vmem, ⟨35, _⟩ => ⟨S512x1, .f32⟩
  | .local _ .vmem, ⟨36, _⟩ => ⟨S512x1, .f32⟩
  | .local _ .vmem, ⟨37, _⟩ => ⟨S512x4096, .bf16⟩
  | .local _ .vmem, ⟨38, _⟩ => ⟨S512x4096, .bf16⟩
  | .local _ .vmem, ⟨39, _⟩ => ⟨S4096x128, .bf16⟩
  | .local _ .vmem, ⟨40, _⟩ => ⟨S4096x128, .bf16⟩
  | .local _ .vmem, ⟨41, _⟩ => ⟨S128x128, .f32⟩
  | .local _ .vmem, ⟨42, _⟩ => ⟨S128x256, .f32⟩
  | .local _ .vmem, ⟨43, _⟩ => ⟨S1x256, .f32⟩
  | .local _ .vmem, ⟨44, _⟩ => ⟨S256x256, .f32⟩
  | .local _ .vmem, ⟨45, _⟩ => ⟨S1x256, .f32⟩
  | .local _ .vmem, ⟨46, _⟩ => ⟨S1x256, .f32⟩
  | .local _ .vmem, ⟨47, _⟩ => ⟨S1x1, .f32⟩
  | .local _ .vmem, ⟨48, _⟩ => ⟨S512x1, .f32⟩
  | .local _ .vmem, ⟨49, _⟩ => ⟨S512x1, .f32⟩
  | .local _ .vmem, ⟨50, _⟩ => ⟨S512x128, .bf16⟩
  | .local _ .vmem, ⟨51, _⟩ => ⟨S512x128, .bf16⟩
  | .local _ .vmem, ⟨52, _⟩ => ⟨S512x1, .f32⟩
  | .local _ .vmem, ⟨53, _⟩ => ⟨S512x1, .f32⟩
  | .local _ .vmem, ⟨54, _⟩ => ⟨S512x4096, .bf16⟩
  | .local _ .vmem, ⟨55, _⟩ => ⟨S512x4096, .bf16⟩
  | .local _ .vmem, ⟨56, _⟩ => ⟨S4096x128, .bf16⟩
  | .local _ .vmem, ⟨57, _⟩ => ⟨S4096x128, .bf16⟩
  | .local _ .vmem, ⟨58, _⟩ => ⟨S128x256, .f32⟩
  | .local _ .vmem, ⟨59, _⟩ => ⟨S1x256, .f32⟩
  | .local _ .vmem, ⟨60, _⟩ => ⟨S256x256, .f32⟩
  | .local _ .vmem, ⟨61, _⟩ => ⟨S1x256, .f32⟩
  | .local _ .vmem, ⟨62, _⟩ => ⟨S1x256, .f32⟩
  | .local _ .vmem, ⟨63, _⟩ => ⟨S1x1, .f32⟩
  | .local _ .vmem, ⟨64, _⟩ => ⟨S512x1, .f32⟩
  | .local _ .vmem, ⟨65, _⟩ => ⟨S512x1, .f32⟩
  | .local _ .vmem, ⟨66, _⟩ => ⟨S512x1, .f32⟩
  | .local _ .vmem, ⟨67, _⟩ => ⟨S512x1, .f32⟩
  | .local _ .vmem, ⟨68, _⟩ => ⟨S512x1, .f32⟩
  | .local _ .vmem, ⟨69, _⟩ => ⟨S512x1, .f32⟩
  | .local _ .vmem, ⟨70, _⟩ => ⟨S512x1, .f32⟩
  | .local _ .vmem, ⟨71, _⟩ => ⟨S512x1, .f32⟩
  | .local _ .vmem, ⟨72, _⟩ => ⟨S512x1, .f32⟩
  | .local _ .vmem, ⟨73, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6_0 : Ref sig .tc := ⟨.hbm, 20, rfl⟩
abbrev main_v6_1 : Ref sig .tc := ⟨.hbm, 21, rfl⟩
abbrev main_v7_0 : Ref sig .tc := ⟨.hbm, 22, rfl⟩
abbrev main_v7_1 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg10_1 : Ref sig .tc := ⟨.vmem, 15, rfl⟩
abbrev cc1_stg11_0 : Ref sig .tc := ⟨.vmem, 16, rfl⟩
abbrev cc1_stg11_1 : Ref sig .tc := ⟨.vmem, 17, rfl⟩
abbrev cc1_stg12_0 : Ref sig .tc := ⟨.vmem, 18, rfl⟩
abbrev cc1_stg12_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc2_stg10_0 : Ref sig .tc := ⟨.vmem, 33, rfl⟩
abbrev cc2_stg10_1 : Ref sig .tc := ⟨.vmem, 34, rfl⟩
abbrev cc2_stg11_0 : Ref sig .tc := ⟨.vmem, 35, rfl⟩
abbrev cc2_stg11_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc3_stg11_0 : Ref sig .tc := ⟨.vmem, 52, rfl⟩
abbrev cc3_stg11_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc4_stg8_0 : Ref sig .tc := ⟨.vmem, 64, rfl⟩
abbrev cc4_stg8_1 : Ref sig .tc := ⟨.vmem, 65, rfl⟩
abbrev cc4_stg9_0 : Ref sig .tc := ⟨.vmem, 66, rfl⟩
abbrev cc4_stg9_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg1_1 : Ref sig .tc := ⟨.vmem, 71, rfl⟩
abbrev cc5_stg2_0 : Ref sig .tc := ⟨.vmem, 72, rfl⟩
abbrev cc5_stg2_1 : Ref sig .tc := ⟨.vmem, 73, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem10_1 : DmaSem sig := 15
abbrev cc1_sem11_0 : DmaSem sig := 16
abbrev cc1_sem11_1 : DmaSem sig := 17
abbrev cc1_sem12_0 : DmaSem sig := 18
abbrev cc1_sem12_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem9_1 : DmaSem sig := 32
abbrev cc2_sem10_0 : DmaSem sig := 33
abbrev cc2_sem10_1 : DmaSem sig := 34
abbrev cc2_sem11_0 : DmaSem sig := 35
abbrev cc2_sem11_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem9_1 : DmaSem sig := 49
abbrev cc3_sem10_0 : DmaSem sig := 50
abbrev cc3_sem10_1 : DmaSem sig := 51
abbrev cc3_sem11_0 : DmaSem sig := 52
abbrev cc3_sem11_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem8_0 : DmaSem sig := 64
abbrev cc4_sem8_1 : DmaSem sig := 65
abbrev cc4_sem9_0 : DmaSem sig := 66
abbrev cc4_sem9_1 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem2_1 : DmaSem sig := 73

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S512x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_10 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_11 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S512x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S512x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S512x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_10 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_11 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S512x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S512x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S512x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_9 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 2 → Memref sig .tc .vmem S512x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S512x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  shapeCasts_S256_S1x256 : S256.ShapeCasts S1x256
  shapeCasts_S256x1_S1x256 : S256x1.ShapeCasts S1x256
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  packedbf16_S4096x128_S4096x128_0_0 : (Rect.unit (s := S4096x128) ![0, 0] S4096x128.size inb_S4096x128_S4096x128_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S512x4096_S512x4096 : S512x4096.ShapeCasts S512x4096
  shapeCasts_S4096x128_S4096x128 : S4096x128.ShapeCasts S4096x128
  reduces_S512x128_S512 : S512x128.Reduces [1] S512
  shapeCasts_S512_S512x1 : S512.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  reduces_S512x256_S512 : S512x256.Reduces [1] S512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S512x1_S512x1 : S512x1.ShapeCasts S512x1
  dot_S512x4096_S4096x128_S512x128_1_0_0_1_n_n_wf : DotDims.WF S512x4096 S4096x128 S512x128 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .bf16 = 32 ∨ (Rect.block (s := S4096x128) S4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x4096.size a ≤ S8192x4096.size a
  hwx1_10 : ∀ i : grid1.Coords, EltTy.bits .bf16 = 32 ∨ (Rect.block (s := S8192x4096) S512x4096.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x128.size a ≤ S8192x128.size a
  hwx1_11 : ∀ i : grid1.Coords, EltTy.bits .bf16 = 32 ∨ (Rect.block (s := S8192x128) S512x128.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x1.size a ≤ S8192x1.size a
  hwx1_12 : ∀ i : grid1.Coords, EltTy.bits .f32 = 32 ∨ (Rect.block (s := S8192x1) S512x1.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S8192x128.size a
  hwx2_1 : ∀ i : grid2.Coords, EltTy.bits .bf16 = 32 ∨ (Rect.block (s := S8192x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x1.size a ≤ S8192x1.size a
  hwx2_9 : ∀ i : grid2.Coords, EltTy.bits .f32 = 32 ∨ (Rect.block (s := S8192x1) S512x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x128.size a ≤ S8192x128.size a
  hwx2_10 : ∀ i : grid2.Coords, EltTy.bits .bf16 = 32 ∨ (Rect.block (s := S8192x128) S512x128.size (cc2_transform_10 i) (hinb2_10 i)).WholeWords (EltTy.packing .bf16)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512x1.size a ≤ S8192x1.size a
  hwx2_11 : ∀ i : grid2.Coords, EltTy.bits .f32 = 32 ∨ (Rect.block (s := S8192x1) S512x1.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .bf16 = 32 ∨ (Rect.block (s := S8192x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S8192x128.size a
  hwx3_1 : ∀ i : grid3.Coords, EltTy.bits .bf16 = 32 ∨ (Rect.block (s := S8192x128) S4096x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1.size a ≤ S8192x1.size a
  hwx3_9 : ∀ i : grid3.Coords, EltTy.bits .f32 = 32 ∨ (Rect.block (s := S8192x1) S512x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x128.size a ≤ S8192x128.size a
  hwx3_10 : ∀ i : grid3.Coords, EltTy.bits .bf16 = 32 ∨ (Rect.block (s := S8192x128) S512x128.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S512x1.size a ≤ S8192x1.size a
  hwx3_11 : ∀ i : grid3.Coords, EltTy.bits .f32 = 32 ∨ (Rect.block (s := S8192x1) S512x1.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S8192x4096.size a
  hwx4_0 : ∀ i : grid4.Coords, EltTy.bits .bf16 = 32 ∨ (Rect.block (s := S8192x4096) S512x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S8192x128.size a
  hwx4_1 : ∀ i : grid4.Coords, EltTy.bits .bf16 = 32 ∨ (Rect.block (s := S8192x128) S4096x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S512x1.size a ≤ S8192x1.size a
  hwx4_8 : ∀ i : grid4.Coords, EltTy.bits .f32 = 32 ∨ (Rect.block (s := S8192x1) S512x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x1.size a ≤ S8192x1.size a
  hwx4_9 : ∀ i : grid4.Coords, EltTy.bits .f32 = 32 ∨ (Rect.block (s := S8192x1) S512x1.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1.size a ≤ S8192x1.size a
  hwx5_0 : ∀ i : grid5.Coords, EltTy.bits .f32 = 32 ∨ (Rect.block (s := S8192x1) S512x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S8192x1.size a
  hwx5_1 : ∀ i : grid5.Coords, EltTy.bits .f32 = 32 ∨ (Rect.block (s := S8192x1) S512x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x1.size a ≤ S4096x1.size a
  hwx5_2 : ∀ i : grid5.Coords, EltTy.bits .f32 = 32 ∨ (Rect.block (s := S4096x1) S512x1.size (cc5_transform_2 i) (hinb5_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg2) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5_0) S512x4096.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v5_1) S512x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5_2) S512x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond1 i == 1#1) && !(k1_cond2 i == 1#1) | 11 => fun _ => false | 12 => fun _ => false | ⟨_ + 13, h⟩ => absurd h (Nat.not_lt.2 (Nat.le_add_left _ _))

abbrev win2_0 : Pipeline.Window sig grid2 :=
  Pipeline.Window.ofSpec (Memref.whole main_v5_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v3) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v5_2) S512x1.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v6_0) S512x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v6_1) S512x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v5_0) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_0) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v2) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v3) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v6_1) S512x1.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v7_0) S512x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v7_1) S512x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v5_0) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7_0) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v2) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v3) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v7_1) S512x1.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v8) S512x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v8) S512x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S512x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S512x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S4096x4096 : Shape := ⟨2, ![4096, 4096]⟩
abbrev S4096x128 : Shape := ⟨2, ![4096, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩
abbrev S1x1 : Shape := ⟨2, ![1, 1]⟩

abbrev nBuf : Space → Nat
  | .hbm => 261
  | .vmem => 0
  | .smem => 0
  | _ => 0

abbrev hbmTy0_0 (i : Nat) : BufTy := match i % 128 with
  | 0 => ⟨S4096x4096, .f32⟩
  | 1 => ⟨S4096x4096, .f32⟩
  | 2 => ⟨S4096x128, .f32⟩
  | 3 => ⟨S128x128, .f32⟩
  | 4 => ⟨S128x128, .f32⟩
  | 5 => ⟨S128x128, .f32⟩
  | 6 => ⟨S128x256, .f32⟩
  | 7 => ⟨S256, .f32⟩
  | 8 => ⟨S256x256, .f32⟩
  | 9 => ⟨S256, .f32⟩
  | 10 => ⟨S256x1, .f32⟩
  | 11 => ⟨S1, .f32⟩
  | 12 => ⟨S4096x128, .f32⟩
  | 13 => ⟨S_, .f32⟩
  | 14 => ⟨S4096x128, .f32⟩
  | 15 => ⟨S4096x128, .f32⟩
  | 16 => ⟨S4096x128, .f32⟩
  | 17 => ⟨S_, .f32⟩
  | 18 => ⟨S4096, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x128, .f32⟩
  | 25 => ⟨S4096x128, .f32⟩
  | 26 => ⟨S4096x128, .f32⟩
  | 27 => ⟨S4096x128, .f32⟩
  | 28 => ⟨S_, .f32⟩
  | 29 => ⟨S4096x128, .f32⟩
  | 30 => ⟨S4096x128, .f32⟩
  | 31 => ⟨S4096x128, .f32⟩
  | 32 => ⟨S_, .f32⟩
  | 33 => ⟨S4096, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x128, .f32⟩
  | 40 => ⟨S4096x128, .f32⟩
  | 41 => ⟨S4096x128, .f32⟩
  | 42 => ⟨S4096x128, .f32⟩
  | 43 => ⟨S_, .f32⟩
  | 44 => ⟨S4096x128, .f32⟩
  | 45 => ⟨S4096x128, .f32⟩
  | 46 => ⟨S4096x128, .f32⟩
  | 47 => ⟨S_, .f32⟩
  | 48 => ⟨S4096, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x128, .f32⟩
  | 55 => ⟨S4096x128, .f32⟩
  | 56 => ⟨S4096x128, .f32⟩
  | 57 => ⟨S4096x128, .f32⟩
  | 58 => ⟨S_, .f32⟩
  | 59 => ⟨S4096x128, .f32⟩
  | 60 => ⟨S4096x128, .f32⟩
  | 61 => ⟨S4096x256, .f32⟩
  | 62 => ⟨S1x256, .f32⟩
  | 63 => ⟨S4096x256, .f32⟩
  | 64 => ⟨S4096x256, .f32⟩
  | 65 => ⟨S_, .f32⟩
  | 66 => ⟨S4096x256, .f32⟩
  | 67 => ⟨S4096x256, .f32⟩
  | 68 => ⟨S4096x256, .f32⟩
  | 69 => ⟨S1x256, .f32⟩
  | 70 => ⟨S4096x256, .f32⟩
  | 71 => ⟨S4096x256, .f32⟩
  | 72 => ⟨S_, .f32⟩
  | 73 => ⟨S4096x256, .f32⟩
  | 74 => ⟨S4096x256, .f32⟩
  | 75 => ⟨S4096x1, .f32⟩
  | 76 => ⟨S1x1, .f32⟩
  | 77 => ⟨S4096x1, .f32⟩
  | 78 => ⟨S4096x1, .f32⟩
  | 79 => ⟨S4096x256, .f32⟩
  | 80 => ⟨S1x256, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S4096x256, .f32⟩
  | 87 => ⟨S1x256, .f32⟩
  | 88 => ⟨S4096x256, .f32⟩
  | 89 => ⟨S4096x256, .f32⟩
  | 90 => ⟨S_, .f32⟩
  | 91 => ⟨S4096x256, .f32⟩
  | 92 => ⟨S4096x256, .f32⟩
  | 93 => ⟨S4096x1, .f32⟩
  | 94 => ⟨S1x1, .f32⟩
  | 95 => ⟨S4096x1, .f32⟩
  | 96 => ⟨S4096x1, .f32⟩
  | 97 => ⟨S4096x1, .f32⟩
  | 98 => ⟨S4096x256, .f32⟩
  | 99 => ⟨S1x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S4096x256, .f32⟩
  | 106 => ⟨S1x256, .f32⟩
  | 107 => ⟨S4096x256, .f32⟩
  | 108 => ⟨S4096x256, .f32⟩
  | 109 => ⟨S_, .f32⟩
  | 110 => ⟨S4096x256, .f32⟩
  | 111 => ⟨S4096x256, .f32⟩
  | 112 => ⟨S4096x1, .f32⟩
  | 113 => ⟨S1x1, .f32⟩
  | 114 => ⟨S4096x1, .f32⟩
  | 115 => ⟨S4096x1, .f32⟩
  | 116 => ⟨S4096x1, .f32⟩
  | 117 => ⟨S4096x256, .f32⟩
  | 118 => ⟨S1x256, .f32⟩
  | 119 => ⟨S4096x256, .f32⟩
  | 120 => ⟨S4096x256, .f32⟩
  | 121 => ⟨S_, .f32⟩
  | 122 => ⟨S4096x256, .f32⟩
  | 123 => ⟨S4096x256, .f32⟩
  | 124 => ⟨S4096x256, .f32⟩
  | 125 => ⟨S1x256, .f32⟩
  | 126 => ⟨S4096x256, .f32⟩
  | 127 => ⟨S4096x256, .f32⟩
  | _ => ⟨S4096x4096, .f32⟩

abbrev hbmTy0_1 (i : Nat) : BufTy := match i % 128 with
  | 0 => ⟨S_, .f32⟩
  | 1 => ⟨S4096x256, .f32⟩
  | 2 => ⟨S4096x256, .f32⟩
  | 3 => ⟨S4096x1, .f32⟩
  | 4 => ⟨S1x1, .f32⟩
  | 5 => ⟨S4096x1, .f32⟩
  | 6 => ⟨S4096x1, .f32⟩
  | 7 => ⟨S4096x1, .f32⟩
  | 8 => ⟨S4096x128, .f32⟩
  | 9 => ⟨S_, .f32⟩
  | 10 => ⟨S4096x128, .f32⟩
  | 11 => ⟨S4096x128, .f32⟩
  | 12 => ⟨S4096x128, .f32⟩
  | 13 => ⟨S_, .f32⟩
  | 14 => ⟨S4096, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x128, .f32⟩
  | 21 => ⟨S4096x128, .f32⟩
  | 22 => ⟨S4096x128, .f32⟩
  | 23 => ⟨S4096x128, .f32⟩
  | 24 => ⟨S_, .f32⟩
  | 25 => ⟨S4096x128, .f32⟩
  | 26 => ⟨S4096x128, .f32⟩
  | 27 => ⟨S4096x128, .f32⟩
  | 28 => ⟨S_, .f32⟩
  | 29 => ⟨S4096, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x128, .f32⟩
  | 36 => ⟨S4096x128, .f32⟩
  | 37 => ⟨S4096x128, .f32⟩
  | 38 => ⟨S4096x128, .f32⟩
  | 39 => ⟨S_, .f32⟩
  | 40 => ⟨S4096x128, .f32⟩
  | 41 => ⟨S4096x128, .f32⟩
  | 42 => ⟨S4096x128, .f32⟩
  | 43 => ⟨S_, .f32⟩
  | 44 => ⟨S4096, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x128, .f32⟩
  | 51 => ⟨S4096x128, .f32⟩
  | 52 => ⟨S4096x128, .f32⟩
  | 53 => ⟨S4096x128, .f32⟩
  | 54 => ⟨S_, .f32⟩
  | 55 => ⟨S4096x128, .f32⟩
  | 56 => ⟨S4096x128, .f32⟩
  | 57 => ⟨S4096x256, .f32⟩
  | 58 => ⟨S1x256, .f32⟩
  | 59 => ⟨S4096x256, .f32⟩
  | 60 => ⟨S4096x256, .f32⟩
  | 61 => ⟨S_, .f32⟩
  | 62 => ⟨S4096x256, .f32⟩
  | 63 => ⟨S4096x256, .f32⟩
  | 64 => ⟨S4096x256, .f32⟩
  | 65 => ⟨S1x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S4096x1, .f32⟩
  | 72 => ⟨S1x1, .f32⟩
  | 73 => ⟨S4096x1, .f32⟩
  | 74 => ⟨S4096x1, .f32⟩
  | 75 => ⟨S4096x256, .f32⟩
  | 76 => ⟨S1x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S4096x256, .f32⟩
  | 83 => ⟨S1x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S4096x1, .f32⟩
  | 90 => ⟨S1x1, .f32⟩
  | 91 => ⟨S4096x1, .f32⟩
  | 92 => ⟨S4096x1, .f32⟩
  | 93 => ⟨S4096x1, .f32⟩
  | 94 => ⟨S4096x256, .f32⟩
  | 95 => ⟨S1x256, .f32⟩
  | 96 => ⟨S4096x256, .f32⟩
  | 97 => ⟨S4096x256, .f32⟩
  | 98 => ⟨S_, .f32⟩
  | 99 => ⟨S4096x256, .f32⟩
  | 100 => ⟨S4096x256, .f32⟩
  | 101 => ⟨S4096x256, .f32⟩
  | 102 => ⟨S1x256, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x1, .f32⟩
  | 109 => ⟨S1x1, .f32⟩
  | 110 => ⟨S4096x1, .f32⟩
  | 111 => ⟨S4096x1, .f32⟩
  | 112 => ⟨S4096x1, .f32⟩
  | 113 => ⟨S4096x256, .f32⟩
  | 114 => ⟨S1x256, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S4096x256, .f32⟩
  | 121 => ⟨S1x256, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S4096x1, .f32⟩
  | _ => ⟨S4096x4096, .f32⟩

abbrev hbmTy0_2 (i : Nat) : BufTy := match i % 128 with
  | 0 => ⟨S1x1, .f32⟩
  | 1 => ⟨S4096x1, .f32⟩
  | 2 => ⟨S4096x1, .f32⟩
  | 3 => ⟨S4096x1, .f32⟩
  | 4 => ⟨S4096x1, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_cst : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_cst : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call3_cst : Ref sig .tc := ⟨.hbm, 58, rfl⟩
abbrev main_call3_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call4_cst : Ref sig .tc := ⟨.hbm, 65, rfl⟩
abbrev main_call4_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call5_cst : Ref sig .tc := ⟨.hbm, 72, rfl⟩
abbrev main_call5_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call6_cst : Ref sig .tc := ⟨.hbm, 83, rfl⟩
abbrev main_call6_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call7_cst : Ref sig .tc := ⟨.hbm, 90, rfl⟩
abbrev main_call7_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call8_cst : Ref sig .tc := ⟨.hbm, 102, rfl⟩
abbrev main_call8_v0 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call9_cst : Ref sig .tc := ⟨.hbm, 109, rfl⟩
abbrev main_call9_v0 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call10_cst : Ref sig .tc := ⟨.hbm, 121, rfl⟩
abbrev main_call10_v0 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call11_cst : Ref sig .tc := ⟨.hbm, 128, rfl⟩
abbrev main_call11_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call12_cst : Ref sig .tc := ⟨.hbm, 137, rfl⟩
abbrev main_call12_v0 : Ref sig .tc := ⟨.hbm, 138, rfl⟩
abbrev main_v95 : Ref sig .tc := ⟨.hbm, 139, rfl⟩
abbrev main_v96 : Ref sig .tc := ⟨.hbm, 140, rfl⟩
abbrev main_cst_5 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_6 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call13_cst : Ref sig .tc := ⟨.hbm, 152, rfl⟩
abbrev main_call13_v0 : Ref sig .tc := ⟨.hbm, 153, rfl⟩
abbrev main_v106 : Ref sig .tc := ⟨.hbm, 154, rfl⟩
abbrev main_v107 : Ref sig .tc := ⟨.hbm, 155, rfl⟩
abbrev main_cst_7 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_8 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call14_cst : Ref sig .tc := ⟨.hbm, 167, rfl⟩
abbrev main_call14_v0 : Ref sig .tc := ⟨.hbm, 168, rfl⟩
abbrev main_v117 : Ref sig .tc := ⟨.hbm, 169, rfl⟩
abbrev main_v118 : Ref sig .tc := ⟨.hbm, 170, rfl⟩
abbrev main_cst_9 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_10 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call15_cst : Ref sig .tc := ⟨.hbm, 182, rfl⟩
abbrev main_call15_v0 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_call16_cst : Ref sig .tc := ⟨.hbm, 189, rfl⟩
abbrev main_call16_v0 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_call17_cst : Ref sig .tc := ⟨.hbm, 196, rfl⟩
abbrev main_call17_v0 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_call18_cst : Ref sig .tc := ⟨.hbm, 207, rfl⟩
abbrev main_call18_v0 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call19_cst : Ref sig .tc := ⟨.hbm, 214, rfl⟩
abbrev main_call19_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_call20_cst : Ref sig .tc := ⟨.hbm, 226, rfl⟩
abbrev main_call20_v0 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_call21_cst : Ref sig .tc := ⟨.hbm, 233, rfl⟩
abbrev main_call21_v0 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_call22_cst : Ref sig .tc := ⟨.hbm, 245, rfl⟩
abbrev main_call22_v0 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_call23_cst : Ref sig .tc := ⟨.hbm, 252, rfl⟩
abbrev main_call23_v0 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.Kernel.Region0.lean ====
/-
  Region 0 of the kernel program as printed: the gridless cast of the first weight matrix (4096 × 128) to the
  narrow float format. One input window, one output window, one grid point; the body loads the whole input block,
  changes its format and stores the whole output block. Stated at any float instance.
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 4096 × 128 rectangle. -/
abbrev r0_0 : Rect S4096x128 := Rect.unit (s := S4096x128) ![0, 0] S4096x128.size inb_S4096x128_S4096x128_0_0

/-- The output buffer after the body: the input block in the narrow format. -/
def out0_1 (x0 : Vec F S4096x128 .f32) : Vec F S4096x128 .bf16 :=
  View.canon [⟨r0_0, k0_pay1 (View.ld x0 r0_0)⟩]

theorem cover0_1 (p0 : Vec F S4096x128 .bf16) (y : S4096x128.Idx) :
    ∃ pc ∈ ([⟨r0_0, p0⟩] : List (View.Piece (Elt F) S4096x128 .bf16)), y ∈ pc.1.set :=
  View.cover_of_tiled [⟨r0_0, p0⟩] S4096x128.size (by rfl) y

set_option maxHeartbeats 1000000 in
/-- The body on whole staging memrefs: the input stays, the output ends at `out0_1` of the input. -/
theorem sound_kernel0 (c : Dev nD) (E : Set ℕ) (i : grid0.Coords) (arg1 : Memref sig .tc .vmem S4096x128 .f32) (harg1 : arg1.IsWhole) (arg2 : Memref sig .tc .vmem S4096x128 .bf16) (harg2 : arg2.IsWhole)
    (x0 : Vec F S4096x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_body i arg1 harg1 arg2 harg2) K := by
  simp only [cc0__cast_body_eq_skeleton]; unfold cc0__cast_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Conds.lean ====
/-
  Region 1 of the kernel program as printed, first part: the two branch conditions of the layer-1 body on its 2 × 8 grid.
  The body's first conditional holds exactly at the points of the first branch (grid coordinate 0 equal to 0: points
  0–7), the second exactly at the points of the second branch (points 8–15).
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional of the layer-1 body: this point belongs to the first branch. -/
abbrev cond1_0 (i : grid1.Coords) : Prop := k1_cond1 i = 1#1
/-- The second conditional of the layer-1 body: this point belongs to the second branch. -/
abbrev cond1_1 (i : grid1.Coords) : Prop := k1_cond2 i = 1#1

theorem hcond1_0 : ∀ t : Fin cfg1.N, cond1_0 (grid1.coords t) ↔ t.val < 8 :=
  (by decide +kernel : ∀ t : Fin grid1.N, cond1_0 (grid1.coords t) ↔ t.val < 8)
theorem hcond1_1 : ∀ t : Fin cfg1.N, cond1_1 (grid1.coords t) ↔ 8 ≤ t.val :=
  (by decide +kernel : ∀ t : Fin grid1.N, cond1_1 (grid1.coords t) ↔ 8 ≤ t.val)

end Cert.Kernel.Hand

end
-- ==== Proof.Kernel.Region1A.lean ====
/-
  Region 1 of the kernel program as printed: the layer-1 body run on whole staging memrefs at a point of the first
  branch. There the body first stores the first adjacency's 512 × 4096 block, changed to the narrow format, into the
  adjacency output's buffer, reads that buffer back, and goes on as a middle layer does: the product with the cast first
  weight, the clamp, the row normalization, the scoring head into the score output, and the product with the second
  layer's weight into the right-hand-side output. What each output buffer ends with is recorded as the list of pieces
  the run writes into it.
-/
import proofs.«132566_g10127532884217_week1_w1_345_7_alg».proof.Proof.Kernel.Region1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the layer-1 body leaves in its three output buffers at a point of the first branch, with the proof
    that on whole staging memrefs, the inputs at their contents and the outputs at anything, the body runs to the
    continuation holding the inputs as they were and each output's buffer with its pieces written. -/
noncomputable def kernelRun1_A (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    Σ' (L10 : List (View.Piece (Elt F) S512x4096 .bf16)) (L11 : List (View.Piece (Elt F) S512x128 .bf16)), { L12 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)) -∗ K ⟨⟩))
          ⊢ wp frame (wpE (defs₀ (F := F)) Variants.none c none) E (cc1__layer1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer1_body_eq_skeleton]; unfold cc1__layer1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact H12

end Cert.Kernel.Hand

end
-- ==== Proof.Kernel.Region1B.lean ====
/-
  Region 1 of the kernel program as printed: the layer-1 body run on whole staging memrefs at a point of the second
  branch. There the body first stores the second adjacency's 512 × 4096 block, changed to the narrow format, into the
  adjacency output's buffer, reads that buffer back, and goes on as a middle layer does: the product with the cast first
  weight, the clamp, the row normalization, the scoring head into the score output, and the product with the second
  layer's weight into the right-hand-side output. What each output buffer ends with is recorded as the list of pieces
  the run writes into it.
-/
import proofs.«132566_g10127532884217_week1_w1_345_7_alg».proof.Proof.Kernel.Region1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the layer-1 body leaves in its three output buffers at a point of the second branch, with the proof
    that on whole staging memrefs, the inputs at their contents and the outputs at anything, the body runs to the
    continuation holding the inputs as they were and each output's buffer with its pieces written. -/
noncomputable def kernelRun1_B (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    Σ' (L10 : List (View.Piece (Elt F) S512x4096 .bf16)) (L11 : List (View.Piece (Elt F) S512x128 .bf16)), { L12 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)) -∗ K ⟨⟩))
          ⊢ wp frame (wpE (defs₀ (F := F)) Variants.none c none) E (cc1__layer1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer1_body_eq_skeleton]; unfold cc1__layer1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact H12

end Cert.Kernel.Hand

end
-- ==== Proof.Kernel.Region1.lean ====
/-
  Region 1 of the kernel program as printed: the first graph-convolution layer over both branches, on a 2 × 8 grid.
  Ten input windows (the two adjacency matrices, the cast first weight, the second layer's weight and the scoring
  head's six parameter arrays) and three output windows (the narrow-format copy of the adjacency rows, the next
  layer's right-hand side, the score column). The two adjacency windows are fetched only while their branch is
  active; either way each input window's buffer holds the window's block at every point. The body has two cases,
  one per branch (Region1A, Region1B); which one a point is in is decided by its position on the grid, and the
  outputs depend on the point's own input blocks only.
-/
import proofs.«132566_g10127532884217_week1_w1_345_7_alg».proof.Proof.Kernel.Region1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x4096 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x128 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S512x1 .f32 := win1_12.stage (cfg1.slots t 12)
abbrev hs1_12 (t : Fin cfg1.N) : (ms1_12 t).IsWhole := hstage1_12 ((cfg1.slots t 12).cast nbuf1_12)

/-- The pieces a point of the first branch writes into output window 10's buffer tile its block, so they cover it. -/
theorem cover1_A_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S512x4096.size (by sl_kernel_rfl) y

/-- What a point of the first branch leaves in output window 10's buffer: its pieces, the last store winning. -/
def out1_A_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x4096 .bf16 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1

/-- The pieces a point of the first branch writes into output window 11's buffer tile its block, so they cover it. -/
theorem cover1_A_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S512x128.size (by sl_kernel_rfl) y

/-- What a point of the first branch leaves in output window 11's buffer: its pieces, the last store winning. -/
def out1_A_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x128 .bf16 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1

/-- The pieces a point of the first branch writes into output window 12's buffer tile its block, so they cover it. -/
theorem cover1_A_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 S512x1.size (by sl_kernel_rfl) y

/-- What a point of the first branch leaves in output window 12's buffer: its pieces, the last store winning. -/
def out1_A_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x1 .f32 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1

/-- The pieces a point of the second branch writes into output window 10's buffer tile its block, so they cover it. -/
theorem cover1_B_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S512x4096.size (by sl_kernel_rfl) y

/-- What a point of the second branch leaves in output window 10's buffer: its pieces, the last store winning. -/
def out1_B_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x4096 .bf16 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1

/-- The pieces a point of the second branch writes into output window 11's buffer tile its block, so they cover it. -/
theorem cover1_B_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S512x128.size (by sl_kernel_rfl) y

/-- What a point of the second branch leaves in output window 11's buffer: its pieces, the last store winning. -/
def out1_B_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x128 .bf16 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1

/-- The pieces a point of the second branch writes into output window 12's buffer tile its block, so they cover it. -/
theorem cover1_B_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 S512x1.size (by sl_kernel_rfl) y

/-- What a point of the second branch leaves in output window 12's buffer: its pieces, the last store winning. -/
def out1_B_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x1 .f32 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1

/-- What output window 10's buffer holds after the body at point `t`: the case of the point's branch, run at the
    point's memrefs and input blocks. -/
def out1_10 (c : Dev nD) (t : Fin cfg1.N) : Vec F S512x4096 .bf16 :=
  if h : t.val < 8 then
    out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_10_A (c : Dev nD) (t : Fin cfg1.N) (h : t.val < 8) :
    out1_10 V c t = out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_10_B (c : Dev nD) (t : Fin cfg1.N) (h : ¬ t.val < 8) :
    out1_10 V c t = out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- What output window 11's buffer holds after the body at point `t`: the case of the point's branch, run at the
    point's memrefs and input blocks. -/
def out1_11 (c : Dev nD) (t : Fin cfg1.N) : Vec F S512x128 .bf16 :=
  if h : t.val < 8 then
    out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_11_A (c : Dev nD) (t : Fin cfg1.N) (h : t.val < 8) :
    out1_11 V c t = out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_11_B (c : Dev nD) (t : Fin cfg1.N) (h : ¬ t.val < 8) :
    out1_11 V c t = out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- What output window 12's buffer holds after the body at point `t`: the case of the point's branch, run at the
    point's memrefs and input blocks. -/
def out1_12 (c : Dev nD) (t : Fin cfg1.N) : Vec F S512x1 .f32 :=
  if h : t.val < 8 then
    out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_12_A (c : Dev nD) (t : Fin cfg1.N) (h : t.val < 8) :
    out1_12 V c t = out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_12_B (c : Dev nD) (t : Fin cfg1.N) (h : ¬ t.val < 8) :
    out1_12 V c t = out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 V c t
    | ⟨11, _⟩ => out1_11 V c t
    | ⟨12, _⟩ => out1_12 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 V c t := by dsimp only [dat1]
theorem after1_11 (c : Dev nD) (t : Fin cfg1.N) : (dat1 V c).after 11 t = out1_11 V c t := by dsimp only [dat1]
theorem after1_12 (c : Dev nD) (t : Fin cfg1.N) : (dat1 V c).after 12 t = out1_12 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The adjacency output is stored at every point of the grid: each point is in one of the two branches. -/
theorem liveAt1_10 : ∀ t : Fin cfg1.N, cfg1.idle 10 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t
    ∗ owns (c : Thread nD τ) (st1_11 t) fullShare ((dat1 V c).after 11 t)
    ∗ owns (c : Thread nD τ) (st1_12 t) fullShare ((dat1 V c).after 12 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).leavesExact 10 t = owns (c : Thread nD τ) (st1_10 t) fullShare ((dat1 V c).after 10 t) from by
    unfold Dat.leavesExact; rw [liveAt1_10 t]]
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  by_cases h : t.val < 8
  · rw [out1_10_A V c t h, out1_11_A V c t h, out1_12_A V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_A c (grid1.coords t) _ _ _ _ _ _ _ _ _ _ _ _ _ _ _ _ _ _ _ _ _ _ _ _ _ _ ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover1_A_10 c _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (cover1_A_11 c _ _ _ _ _ _ _ _ _ _ _ _ _ _ _ _ _ _ _ _ _ _ _ _ _ _ _ _ _ _ _ _ _ _ _ _ _ _ _)
    unfold owns; iexists _; isplitr
    swap; · iexact H12
    ipureintro; exact View.read_writes_eq_canon _ _ _ (cover1_A_12 c _ _ _ _ _ _ _ _ _ _ _ _ _ _ _ _ _ _ _ _ _ _ _ _ _ _ _ _ _ _ _ _ _ _ _ _ _ _ _)
  · rw [out1_10_B V c t h, out1_11_B V c t h, out1_12_B V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_B c (grid1.coords t) _ _ _ _ _ _ _ _ _ _ _ _ _ _ _ _ _ _ _ _ _ _ _ _ _ _ (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover1_B_10 c _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (cover1_B_11 c _ _ _ _ _ _ _ _ _ _ _ _ _ _ _ _ _ _ _ _ _ _ _ _ _ _ _ _ _ _ _ _ _ _ _ _ _ _ _)
    unfold owns; iexists _; isplitr
    swap; · iexact H12
    ipureintro; exact View.read_writes_eq_canon _ _ _ (cover1_B_12 c _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
/-
  Region 2 of the kernel program as printed: one middle graph-convolution layer over both branches, on a 2 × 8 grid.
  At a grid point the body multiplies a 512-row block of the narrow-format adjacency by the branch's 4096 × 128
  right-hand side, clamps at zero, divides each row by the larger of its Euclidean norm and a small constant, adds
  the three-layer scoring head of the result to the incoming 512 × 1 score block, and stores the product of the
  normalized rows with the next layer's weight in the narrow format. Ten input windows, two output windows; every
  load and store is of a whole block. Stated at any float instance.
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, fetched there or not. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, fetched there or not. -/
theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_a : Rect S512x4096 := Rect.unit (s := S512x4096) ![0, 0] S512x4096.size inb_S512x4096_S512x4096_0_0
abbrev r2_b : Rect S4096x128 := Rect.unit (s := S4096x128) ![0, 0] S4096x128.size inb_S4096x128_S4096x128_0_0
abbrev r2_c : Rect S128x128 := Rect.unit (s := S128x128) ![0, 0] S128x128.size inb_S128x128_S128x128_0_0
abbrev r2_d : Rect S128x256 := Rect.unit (s := S128x256) ![0, 0] S128x256.size inb_S128x256_S128x256_0_0
abbrev r2_e : Rect S1x256 := Rect.unit (s := S1x256) ![0, 0] S1x256.size inb_S1x256_S1x256_0_0
abbrev r2_f : Rect S256x256 := Rect.unit (s := S256x256) ![0, 0] S256x256.size inb_S256x256_S256x256_0_0
abbrev r2_g : Rect S1x1 := Rect.unit (s := S1x1) ![0, 0] S1x1.size inb_S1x1_S1x1_0_0
abbrev r2_h : Rect S512x1 := Rect.unit (s := S512x1) ![0, 0] S512x1.size inb_S512x1_S512x1_0_0
abbrev r2_i : Rect S512x128 := Rect.unit (s := S512x128) ![0, 0] S512x128.size inb_S512x128_S512x128_0_0

/-- The next layer's right-hand-side block after the body: the normalized rows times the layer weight, narrow format. -/
def out2_10 (x0 : Vec F S512x4096 .bf16) (x1 : Vec F S4096x128 .bf16) (x2 : Vec F S128x128 .f32) : Vec F S512x128 .bf16 :=
  View.canon [⟨r2_i, k2_pay2 (k2_pay3 (View.ld x0 r2_a) (View.ld x1 r2_b)) (View.ld x2 r2_c)⟩]

/-- The score block after the body: the incoming scores plus the scoring head of the normalized rows. -/
def out2_11 (x0 : Vec F S512x4096 .bf16) (x1 : Vec F S4096x128 .bf16) (x3 : Vec F S128x256 .f32) (x4 : Vec F S1x256 .f32) (x5 : Vec F S256x256 .f32)
    (x6 : Vec F S1x256 .f32) (x7 : Vec F S1x256 .f32) (x8 : Vec F S1x1 .f32) (x9 : Vec F S512x1 .f32) : Vec F S512x1 .f32 :=
  View.canon [⟨r2_h, k2_pay1 (k2_pay4 (View.ld x9 r2_h)) (k2_pay5 (View.ld x0 r2_a) (View.ld x1 r2_b) (View.ld x3 r2_d) (View.ld x4 r2_e) (View.ld x5 r2_f) (View.ld x6 r2_e))
    (k2_pay6 (F := F)) (View.ld x7 r2_e) (View.ld x8 r2_g)⟩]

theorem cover2_10 (p0 : Vec F S512x128 .bf16) (y : S512x128.Idx) :
    ∃ pc ∈ ([⟨r2_i, p0⟩] : List (View.Piece (Elt F) S512x128 .bf16)), y ∈ pc.1.set :=
  View.cover_of_tiled [⟨r2_i, p0⟩] S512x128.size (by rfl) y

theorem cover2_11 (p0 : Vec F S512x1 .f32) (y : S512x1.Idx) :
    ∃ pc ∈ ([⟨r2_h, p0⟩] : List (View.Piece (Elt F) S512x1 .f32)), y ∈ pc.1.set :=
  View.cover_of_tiled [⟨r2_h, p0⟩] S512x1.size (by rfl) y

set_option maxHeartbeats 4000000 in
/-- The body on whole staging memrefs: the inputs stay, each output ends at its function of the inputs. -/
theorem sound_kernel2 (c : Dev nD) (E : Set ℕ) (i : grid2.Coords)
    (arg2 : Memref sig .tc .vmem S512x4096 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x128 .bf16) (harg12 : arg12.IsWhole) (arg13 : Memref sig .tc .vmem S512x1 .f32) (harg13 : arg13.IsWhole)
    (x0 : Vec F S512x4096 .bf16) (x1 : Vec F S4096x128 .bf16) (x2 : Vec F S128x128 .f32) (x3 : Vec F S128x256 .f32) (x4 : Vec F S1x256 .f32) (x5 : Vec F S256x256 .f32) (x6 : Vec F S1x256 .f32) (x7 : Vec F S1x256 .f32) (x8 : Vec F S1x1 .f32) (x9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (out2_10 x0 x1 x2) ∗ owns (c : Thread nD τ) arg13 fullShare (out2_11 x0 x1 x3 x4 x5 x6 x7 x8 x9)) -∗ K ⟨⟩))
      ⊢ wp frame (wpE (defs₀ (F := F)) Variants.none c none) E (cc2__mid_body i arg2 harg2 arg3 harg3 arg4 harg4 arg5 harg5 arg6 harg6 arg7 harg7 arg8 harg8 arg9 harg9 arg10 harg10 arg11 harg11 arg12 harg12 arg13 harg13) K := by
  simp only [cc2__mid_body_eq_skeleton]; unfold cc2__mid_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover2_10 _)
  iexists _; isplitr
  swap; · iexact H11
  ipureintro
  try dsimp only
  exact View.read_writes_eq_canon _ _ _ (cover2_11 _)

/-- The proof data of pipeline 2 on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t)
    | ⟨11, _⟩ => out2_11 (iblk2 V c 0 t) (iblk2 V c 1 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) := by dsimp only [dat2]
theorem after2_11 (c : Dev nD) (t : Fin cfg2.N) : (dat2 V c).after 11 t = out2_11 (iblk2 V c 0 t) (iblk2 V c 1 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (grid2.coords t) _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Region3.lean ====
/-
  Region 3 of the kernel program as printed: one middle graph-convolution layer over both branches, on a 2 × 8 grid.
  At a grid point the body multiplies a 512-row block of the narrow-format adjacency by the branch's 4096 × 128
  right-hand side, clamps at zero, divides each row by the larger of its Euclidean norm and a small constant, adds
  the three-layer scoring head of the result to the incoming 512 × 1 score block, and stores the product of the
  normalized rows with the next layer's weight in the narrow format. Ten input windows, two output windows; every
  load and store is of a whole block. Stated at any float instance.
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point, fetched there or not. -/
theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at every point, fetched there or not. -/
theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at every point, fetched there or not. -/
theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_a : Rect S512x4096 := Rect.unit (s := S512x4096) ![0, 0] S512x4096.size inb_S512x4096_S512x4096_0_0
abbrev r3_b : Rect S4096x128 := Rect.unit (s := S4096x128) ![0, 0] S4096x128.size inb_S4096x128_S4096x128_0_0
abbrev r3_c : Rect S128x128 := Rect.unit (s := S128x128) ![0, 0] S128x128.size inb_S128x128_S128x128_0_0
abbrev r3_d : Rect S128x256 := Rect.unit (s := S128x256) ![0, 0] S128x256.size inb_S128x256_S128x256_0_0
abbrev r3_e : Rect S1x256 := Rect.unit (s := S1x256) ![0, 0] S1x256.size inb_S1x256_S1x256_0_0
abbrev r3_f : Rect S256x256 := Rect.unit (s := S256x256) ![0, 0] S256x256.size inb_S256x256_S256x256_0_0
abbrev r3_g : Rect S1x1 := Rect.unit (s := S1x1) ![0, 0] S1x1.size inb_S1x1_S1x1_0_0
abbrev r3_h : Rect S512x1 := Rect.unit (s := S512x1) ![0, 0] S512x1.size inb_S512x1_S512x1_0_0
abbrev r3_i : Rect S512x128 := Rect.unit (s := S512x128) ![0, 0] S512x128.size inb_S512x128_S512x128_0_0

/-- The next layer's right-hand-side block after the body: the normalized rows times the layer weight, narrow format. -/
def out3_10 (x0 : Vec F S512x4096 .bf16) (x1 : Vec F S4096x128 .bf16) (x2 : Vec F S128x128 .f32) : Vec F S512x128 .bf16 :=
  View.canon [⟨r3_i, k3_pay2 (k3_pay3 (View.ld x0 r3_a) (View.ld x1 r3_b)) (View.ld x2 r3_c)⟩]

/-- The score block after the body: the incoming scores plus the scoring head of the normalized rows. -/
def out3_11 (x0 : Vec F S512x4096 .bf16) (x1 : Vec F S4096x128 .bf16) (x3 : Vec F S128x256 .f32) (x4 : Vec F S1x256 .f32) (x5 : Vec F S256x256 .f32)
    (x6 : Vec F S1x256 .f32) (x7 : Vec F S1x256 .f32) (x8 : Vec F S1x1 .f32) (x9 : Vec F S512x1 .f32) : Vec F S512x1 .f32 :=
  View.canon [⟨r3_h, k3_pay1 (k3_pay4 (View.ld x9 r3_h)) (k3_pay5 (View.ld x0 r3_a) (View.ld x1 r3_b) (View.ld x3 r3_d) (View.ld x4 r3_e) (View.ld x5 r3_f) (View.ld x6 r3_e))
    (k3_pay6 (F := F)) (View.ld x7 r3_e) (View.ld x8 r3_g)⟩]

theorem cover3_10 (p0 : Vec F S512x128 .bf16) (y : S512x128.Idx) :
    ∃ pc ∈ ([⟨r3_i, p0⟩] : List (View.Piece (Elt F) S512x128 .bf16)), y ∈ pc.1.set :=
  View.cover_of_tiled [⟨r3_i, p0⟩] S512x128.size (by rfl) y

theorem cover3_11 (p0 : Vec F S512x1 .f32) (y : S512x1.Idx) :
    ∃ pc ∈ ([⟨r3_h, p0⟩] : List (View.Piece (Elt F) S512x1 .f32)), y ∈ pc.1.set :=
  View.cover_of_tiled [⟨r3_h, p0⟩] S512x1.size (by rfl) y

set_option maxHeartbeats 4000000 in
/-- The body on whole staging memrefs: the inputs stay, each output ends at its function of the inputs. -/
theorem sound_kernel3 (c : Dev nD) (E : Set ℕ) (i : grid3.Coords)
    (arg2 : Memref sig .tc .vmem S512x4096 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x128 .bf16) (harg12 : arg12.IsWhole) (arg13 : Memref sig .tc .vmem S512x1 .f32) (harg13 : arg13.IsWhole)
    (x0 : Vec F S512x4096 .bf16) (x1 : Vec F S4096x128 .bf16) (x2 : Vec F S128x128 .f32) (x3 : Vec F S128x256 .f32) (x4 : Vec F S1x256 .f32) (x5 : Vec F S256x256 .f32) (x6 : Vec F S1x256 .f32) (x7 : Vec F S1x256 .f32) (x8 : Vec F S1x1 .f32) (x9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (out3_10 x0 x1 x2) ∗ owns (c : Thread nD τ) arg13 fullShare (out3_11 x0 x1 x3 x4 x5 x6 x7 x8 x9)) -∗ K ⟨⟩))
      ⊢ wp frame (wpE (defs₀ (F := F)) Variants.none c none) E (cc3__mid_body i arg2 harg2 arg3 harg3 arg4 harg4 arg5 harg5 arg6 harg6 arg7 harg7 arg8 harg8 arg9 harg9 arg10 harg10 arg11 harg11 arg12 harg12 arg13 harg13) K := by
  simp only [cc3__mid_body_eq_skeleton]; unfold cc3__mid_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover3_10 _)
  iexists _; isplitr
  swap; · iexact H11
  ipureintro
  try dsimp only
  exact View.read_writes_eq_canon _ _ _ (cover3_11 _)

/-- The proof data of pipeline 3 on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t)
    | ⟨11, _⟩ => out3_11 (iblk3 V c 0 t) (iblk3 V c 1 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) := by dsimp only [dat3]
theorem after3_11 (c : Dev nD) (t : Fin cfg3.N) : (dat3 V c).after 11 t = out3_11 (iblk3 V c 0 t) (iblk3 V c 1 t) (iblk3 V c 3 t) (iblk3 V c 4 t) (iblk3 V c 5 t) (iblk3 V c 6 t) (iblk3 V c 7 t) (iblk3 V c 8 t) (iblk3 V c 9 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Region4.lean ====
/-
  Region 4 of the kernel program as printed: the last graph-convolution layer over both branches, on a 2 × 8 grid.
  At a grid point the body multiplies a 512-row block of the narrow-format adjacency by the branch's 4096 × 128
  right-hand side, clamps at zero (no normalization in the last layer), and adds the three-layer scoring head of the
  result to the incoming 512 × 1 score block. Nine input windows, one output window; whole-block loads and stores.
  Stated at any float instance.
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's staging buffer holds its block at every point, fetched there or not. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's staging buffer holds its block at every point, fetched there or not. -/
theorem before4_7_of {c : Dev nD} (dat : Dat τ (Elt F) Unit ℕ (Pipeline.UD sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's staging buffer holds its block at every point, fetched there or not. -/
theorem before4_8_of {c : Dev nD} (dat : Dat τ (Elt F) Unit ℕ (Pipeline.UD sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_a : Rect S512x4096 := Rect.unit (s := S512x4096) ![0, 0] S512x4096.size inb_S512x4096_S512x4096_0_0
abbrev r4_b : Rect S4096x128 := Rect.unit (s := S4096x128) ![0, 0] S4096x128.size inb_S4096x128_S4096x128_0_0
abbrev r4_d : Rect S128x256 := Rect.unit (s := S128x256) ![0, 0] S128x256.size inb_S128x256_S128x256_0_0
abbrev r4_e : Rect S1x256 := Rect.unit (s := S1x256) ![0, 0] S1x256.size inb_S1x256_S1x256_0_0
abbrev r4_f : Rect S256x256 := Rect.unit (s := S256x256) ![0, 0] S256x256.size inb_S256x256_S256x256_0_0
abbrev r4_g : Rect S1x1 := Rect.unit (s := S1x1) ![0, 0] S1x1.size inb_S1x1_S1x1_0_0
abbrev r4_h : Rect S512x1 := Rect.unit (s := S512x1) ![0, 0] S512x1.size inb_S512x1_S512x1_0_0

/-- The score block after the body: the incoming scores plus the scoring head of the clamped product rows. -/
def out4_9 (x0 : Vec F S512x4096 .bf16) (x1 : Vec F S4096x128 .bf16) (x2 : Vec F S128x256 .f32) (x3 : Vec F S1x256 .f32) (x4 : Vec F S256x256 .f32)
    (x5 : Vec F S1x256 .f32) (x6 : Vec F S1x256 .f32) (x7 : Vec F S1x1 .f32) (x8 : Vec F S512x1 .f32) : Vec F S512x1 .f32 :=
  View.canon [⟨r4_h, k4_pay1 (k4_pay2 (View.ld x8 r4_h)) (k4_pay3 (View.ld x0 r4_a) (View.ld x1 r4_b) (View.ld x2 r4_d) (View.ld x3 r4_e) (View.ld x4 r4_f) (View.ld x5 r4_e) (View.ld x6 r4_e))
    (View.ld x7 r4_g)⟩]

theorem cover4_9 (p0 : Vec F S512x1 .f32) (y : S512x1.Idx) :
    ∃ pc ∈ ([⟨r4_h, p0⟩] : List (View.Piece (Elt F) S512x1 .f32)), y ∈ pc.1.set :=
  View.cover_of_tiled [⟨r4_h, p0⟩] S512x1.size (by rfl) y

set_option maxHeartbeats 4000000 in
/-- The body on whole staging memrefs: the inputs stay, the output ends at its function of the inputs. -/
theorem sound_kernel4 (c : Dev nD) (E : Set ℕ) (i : grid4.Coords)
    (arg2 : Memref sig .tc .vmem S512x4096 .bf16) (harg2 : arg2.IsWhole) (arg3 : Memref sig .tc .vmem S4096x128 .bf16) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole)
    (x0 : Vec F S512x4096 .bf16) (x1 : Vec F S4096x128 .bf16) (x2 : Vec F S128x256 .f32) (x3 : Vec F S1x256 .f32) (x4 : Vec F S256x256 .f32) (x5 : Vec F S1x256 .f32) (x6 : Vec F S1x256 .f32) (x7 : Vec F S1x1 .f32) (x8 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out4_9 x0 x1 x2 x3 x4 x5 x6 x7 x8)) -∗ K ⟨⟩))
      ⊢ wp frame (wpE (defs₀ (F := F)) Variants.none c none) E (cc4__last_body i arg2 harg2 arg3 harg3 arg4 harg4 arg5 harg5 arg6 harg6 arg7 harg7 arg8 harg8 arg9 harg9 arg10 harg10 arg11 harg11) K := by
  simp only [cc4__last_body_eq_skeleton]; unfold cc4__last_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The proof data of pipeline 4 on core `c`. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Region5.lean ====
/-
  Region 5 of the kernel program as printed: the product of the two branches' score columns, on a grid of 8 points.
  Both input windows read ONE array, the 8192 × 1 score column: at point `t` the first reads its block `t` (the first
  branch's rows) and the second its block `t + 8` (the second branch's rows); the output window's block `t` is their
  element-by-element product. The array being shared, each input window holds it at one half of the full share.
  Stated at any float instance.
-/
import proofs.«132566_g10127532884217_week1_w1_345_7_alg».proof.Proof.Gen.Kernel.Launch
import proofs.«132566_g10127532884217_week1_w1_345_7_alg».proof.Proof.Gen.Kernel.Skeleton
import proofs.«132566_g10127532884217_week1_w1_345_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole 512 × 1 rectangle. -/
abbrev r5_h : Rect S512x1 := Rect.unit (s := S512x1) ![0, 0] S512x1.size inb_S512x1_S512x1_0_0

/-- The output block after the body: the product of the two input blocks. -/
def out5_2 (x0 : Vec F S512x1 .f32) (x1 : Vec F S512x1 .f32) : Vec F S512x1 .f32 :=
  View.canon [⟨r5_h, k5_pay1 (View.ld x0 r5_h) (View.ld x1 r5_h)⟩]

theorem cover5_2 (p0 : Vec F S512x1 .f32) (y : S512x1.Idx) :
    ∃ pc ∈ ([⟨r5_h, p0⟩] : List (View.Piece (Elt F) S512x1 .f32)), y ∈ pc.1.set :=
  View.cover_of_tiled [⟨r5_h, p0⟩] S512x1.size (by rfl) y

set_option maxHeartbeats 1000000 in
/-- The body on whole staging memrefs: the inputs stay, the output ends at the product. -/
theorem sound_kernel5 (c : Dev nD) (E : Set ℕ) (i : grid5.Coords) (arg1 : Memref sig .tc .vmem S512x1 .f32) (harg1 : arg1.IsWhole) (arg2 : Memref sig .tc .vmem S512x1 .f32) (harg2 : arg2.IsWhole)
    (arg3 : Memref sig .tc .vmem S512x1 .f32) (harg3 : arg3.IsWhole)
    (x0 : Vec F S512x1 .f32) (x1 : Vec F S512x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__mul_body i arg1 harg1 arg2 harg2 arg3 harg3) K := by
  simp only [cc5__mul_body_eq_skeleton]; unfold cc5__mul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _)

/-- The proof data of pipeline 5 on core `c`: the two input windows hold the shared array at the two halves of the
    full share. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.RunA.lean ====
/-
  The kernel program as printed, from its launch to its return: the contents of the unscoped buffers at the boundary
  between each two items of the program (the host reshapes, then the six kernel launches), as a fold from the launch
  memory — a launch leaves each of its output arrays at what its write-backs fold to and every other buffer as it
  found it —, and the first five launches as segments of the run, each entered from one boundary's contents and left
  at the next one's. Stated at any float instance.
-/
import proofs.«132566_g10127532884217_week1_w1_345_7_alg».proof.Proof.Kernel.Region0
import proofs.«132566_g10127532884217_week1_w1_345_7_alg».proof.Proof.Kernel.Region1
import proofs.«132566_g10127532884217_week1_w1_345_7_alg».proof.Proof.Kernel.Region2
import proofs.«132566_g10127532884217_week1_w1_345_7_alg».proof.Proof.Kernel.Region3
import proofs.«132566_g10127532884217_week1_w1_345_7_alg».proof.Proof.Kernel.Region4
import proofs.«132566_g10127532884217_week1_w1_345_7_alg».proof.Proof.Kernel.Region5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes of the head's biases and last weight (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (each input as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (each input as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (each input as entered, each output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (each input as entered, each output's write-backs folded),
    every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At the last launch's exit: the result array at what that launch's write-backs fold to, every other buffer as the
    launch found it (its two input windows read one array, which it leaves as it was). -/
def W7 (c : Dev nD) : Valuation τ sig (Elt F) :=
  Function.update (W6 m ρ c) (Proc.devRef .tc main_v9) ((dat5 (V6 m ρ) c).arrAt 2 cfg5.N)
abbrev V7 : (c : Dev nD) → (b : Ref sig .tc) → Buf (Elt F) ((c : Thread nD τ).loc b) := fun c b => W7 m ρ c b
theorem W7_out (c : Dev nD) : W7 m ρ c (Proc.devRef .tc main_v9) = (dat5 (V6 m ρ) c).arrAt 2 cfg5.N := by
  unfold W7; exact Function.update_self ..
theorem W7_of_ne (c : Dev nD) (b : Ref sig .tc) (hb : b ≠ main_v9) :
    W7 m ρ c (Proc.devRef .tc b) = W6 m ρ c (Proc.devRef .tc b) := by
  unfold W7; exact Function.update_of_ne (StableHlo.devRef_ne_of_ne hb) ..

/-! ## The proof data family and the thread state -/

/-- No pipeline has a prefetched table. -/
abbrev adm : (p : Fin 6) → (pcfgs (F := F) p).Adm := fun p => (cfgs p).toPCfg_adm
/-- Every pipeline's proof data, each at its launch's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first five launches as segments -/

set_option backward.isDefEq.respectTransparency.types false in
/-- Region 0 as a segment of the program over the thread state: entered from every unscoped buffer at `W1`, left at
    `W2`. Its arrays are split out of the unscoped buffers at entry and put back at their exit contents; the generator
    register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program over the thread state: entered from every unscoped buffer at `W2`, left at
    `W3`. Its arrays are split out of the unscoped buffers at entry and put back at their exit contents; the generator
    register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program over the thread state: entered from every unscoped buffer at `W3`, left at
    `W4`. Its arrays are split out of the unscoped buffers at entry and put back at their exit contents; the generator
    register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the program over the thread state: entered from every unscoped buffer at `W4`, left at
    `W5`. Its arrays are split out of the unscoped buffers at entry and put back at their exit contents; the generator
    register goes into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of the program over the thread state: entered from every unscoped buffer at `W5`, left at
    `W6`. Its arrays are split out of the unscoped buffers at entry and put back at their exit contents; the generator
    register goes into the pipeline's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.RunB.lean ====
/-
  The kernel program as printed, from its launch to its return, second part: the last launch as a segment of the run —
  its two input windows read ONE array, the 8192 × 1 score column, which is therefore held at the two halves of the
  full share while the launch runs and put back whole at its exit —, the program as the list of its seven segments, and
  the run: every weakly fair execution terminates without a fault, and at the end every unscoped buffer holds the last
  boundary's contents. Stated at any float instance.
-/
import proofs.«132566_g10127532884217_week1_w1_345_7_alg».proof.Proof.Kernel.RunA
import proofs.«132566_g10127532884217_week1_w1_345_7_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The last launch's arrays -/

/-- The distinct buffers behind the last launch's windows: the score column and the result. -/
theorem arrBufs5_eq (c : Dev nD) (V : (b : Ref sig .tc) → Buf (Elt F) ((c : Thread nD τ).loc b)) :
    (Pipeline.arrBufs (Ix := Unit) (Name := ℕ) (U := Pipeline.UD sig nD τ) (Lvl := ℕ) spec5 c V : sProp 𝕄)
      = iprop((((c : Thread nD τ).loc main_v8) ↦{fullShare} V main_v8) ∗ (((c : Thread nD τ).loc main_v9) ↦{fullShare} V main_v9)) := by
  unfold Pipeline.arrBufs
  rw [BI.bigSep_eq_bigSepL_of_eq [main_v8, main_v9] (by decide) (by decide)]; rfl

/-- The last launch's arrays, window by window: the score column at the left half share for the first window and at the
    right half for the second, the result at the full share. -/
theorem arrays5_eq (c : Dev nD) (dat : Dat τ (Elt F) Unit ℕ (Pipeline.UD sig nD τ) ℕ cfg5 c)
    (h0 : dat.q 0 = fullShare.left) (h1 : dat.q 1 = fullShare.right)
    (F5 : (w : Fin cfg5.W) → Buf (Elt F) ((cfg5.win w).arr.view.loc (c : Thread nD τ))) :
    (dat.arrays F5 : sProp 𝕄)
      = iprop((((c : Thread nD τ).loc main_v8) ↦{fullShare.left} F5 0) ∗ (((c : Thread nD τ).loc main_v8) ↦{fullShare.right} F5 1)
          ∗ (((c : Thread nD τ).loc main_v9) ↦{fullShare} F5 2)) := by
  have hs0 : dat.share 0 = fullShare.left := by unfold Pipeline.Dat.share; rw [if_neg (by decide)]; exact h0
  have hs1 : dat.share 1 = fullShare.right := by unfold Pipeline.Dat.share; rw [if_neg (by decide)]; exact h1
  have hs2 : dat.share 2 = fullShare := by unfold Pipeline.Dat.share; rw [if_pos (by decide)]
  have e0 : (cfg5.win 0).arr.view.set = Finset.univ := (arr_whole5 0).set_eq_univ
  have e1 : (cfg5.win 1).arr.view.set = Finset.univ := (arr_whole5 1).set_eq_univ
  have e2 : (cfg5.win 2).arr.view.set = Finset.univ := (arr_whole5 2).set_eq_univ
  unfold Pipeline.Dat.arrays
  rw [bigSep_W5, e0]
  (try rw [e1])
  rw [e2, hs0, hs1, hs2]

set_option backward.isDefEq.respectTransparency.types false in
/-- The last launch as a segment of the program. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop((StableHlo.held (c : Thread nD τ) (Pipeline.ucRefs τ sig) (W7 m ρ c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec5 c (V6 m ρ c)
  hentry c := by
    rw [Pipeline.ownSems0_none]
    have hsplit : (unscopedBufs c (V6 m ρ c) : sProp 𝕄)
        = iprop(Pipeline.arrBufs spec5 c (V6 m ρ c) ∗ Pipeline.unscopedRest spec5 c (V6 m ρ c)) :=
      Pipeline.unscopedBufs_split₀ (Ix := Unit) (Name := ℕ) (U := Pipeline.UD sig nD τ) (Lvl := ℕ) cfgs 5 winFacts₀5.arr_unscoped c (V6 m ρ c)
    rw [Pipeline.unscopedBufs_held, arrBufs5_eq] at hsplit
    rw [arrays5_eq c (pdats m ρ 5 c) rfl rfl]
    iintro ⟨⟨Hub, Hp, HO⟩, -, -⟩
    ihave H := (Entails.of_eq hsplit) $$ Hub
    icases H with ⟨⟨H8, H9⟩, Hrest⟩
    ihave H8' := (pointsTo_share (PosShare.mem_left_op_right fullShare)).1 $$ H8
    icases H8' with ⟨H8l, H8r⟩
    imodintro
    isplitl [H8l H8r H9]
    · isplitl [H8l]; · iexact H8l
      isplitl [H8r]; · iexact H8r
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : (unscopedBufs c (V7 m ρ c) : sProp 𝕄)
        = iprop(Pipeline.arrBufs spec5 c (V7 m ρ c) ∗ Pipeline.unscopedRest spec5 c (V7 m ρ c)) :=
      Pipeline.unscopedBufs_split₀ (Ix := Unit) (Name := ℕ) (U := Pipeline.UD sig nD τ) (Lvl := ℕ) cfgs 5 winFacts₀5.arr_unscoped c (V7 m ρ c)
    rw [Pipeline.unscopedBufs_held, arrBufs5_eq] at hjoin
    have hrest : (Pipeline.unscopedRest (Ix := Unit) (Name := ℕ) (U := Pipeline.UD sig nD τ) (Lvl := ℕ) spec5 c (V7 m ρ c) : sProp 𝕄)
        = Pipeline.unscopedRest spec5 c (V6 m ρ c) := by
      unfold Pipeline.unscopedRest
      exact BI.bigSep_congr fun b hb => by
        rw [show V7 m ρ c b = V6 m ρ c b from W7_of_ne m ρ c b fun e =>
          (Finset.mem_sdiff.mp hb).2 (Finset.mem_image.mpr ⟨2, Finset.mem_univ _, (show Pipeline.arrRef spec5 2 = main_v9 from rfl).trans e.symm⟩)]
    have h8 : V7 m ρ c main_v8 = V6 m ρ c main_v8 := W7_of_ne m ρ c main_v8 (by decide)
    rw [arrays5_eq c (pdats m ρ 5 c) rfl rfl, (pdats m ρ 5 c).arrAt_in 0 rfl, (pdats m ρ 5 c).arrAt_in 1 rfl]
    rw [show (pdats m ρ 5 c).arrAt 2 (Pipeline.pin (pcfgs (F := F)) adm 5).N = V7 m ρ c main_v9 from (W7_out m ρ c).symm]
    rw [show (pdats m ρ 5 c).A 0 = V7 m ρ c main_v8 from h8.symm, show (pdats m ρ 5 c).A 1 = V7 m ρ c main_v8 from h8.symm]
    iintro ⟨⟨H8l, H8r, H9⟩, HO, HY, Hrest⟩
    ihave H8 := (pointsTo_share (PosShare.mem_left_op_right fullShare)).2 $$ [H8l H8r]
    · isplitl [H8l]; · iexact H8l
      iexact H8r
    imodintro
    isplitl [H8 H9 Hrest HY]
    · isplitl [H8 H9 Hrest]
      · iapply (Entails.of_eq hjoin.symm)
        isplitl [H8 H9]
        · isplitl [H8]; · iexact H8
          iexact H9
        rw [hrest]; iexact Hrest
      iexact HY
    unfold Pipeline.Dat.owesAt Pipeline.owesWithin
    icases HO with ⟨%W, -, HO⟩; iexists W; iexact HO

/-! ## The program as segments, and the run -/

/-- The last thread state without the core's `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The program's seven segments in order: the host reshapes, then the six launches. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ) ]

/-- The program IS the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.Kernel.Frame.lean ====
/-
  The frame of the kernel program as printed: each launch leaves every buffer that is not one of its output arrays as
  it found it, the host reshapes write only their own results, so each of the twelve argument arrays reaches the end
  of the run holding its launch contents. Stated at any float instance.
-/
import proofs.«132566_g10127532884217_week1_w1_345_7_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Launch 0 leaves every buffer that is not one of its output arrays as it found it: an input array comes back as entered,
    and a buffer no window stages is untouched. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    rw [W2_arr]
    exact ((dat0 (V1 m ρ) c).arrAt_in w hin _).trans (A_eq0 (V1 m ρ) c w)
  · exact W2_of_ne m ρ c b fun w e => h ⟨w, e⟩

/-- Launch 1 leaves every buffer that is not one of its output arrays as it found it: an input array comes back as entered,
    and a buffer no window stages is untouched. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    rw [W3_arr]
    exact ((dat1 (V2 m ρ) c).arrAt_in w hin _).trans (A_eq1 (V2 m ρ) c w)
  · exact W3_of_ne m ρ c b fun w e => h ⟨w, e⟩

/-- Launch 2 leaves every buffer that is not one of its output arrays as it found it: an input array comes back as entered,
    and a buffer no window stages is untouched. -/
theorem W4_keep (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [W4_arr]
    exact ((dat2 (V3 m ρ) c).arrAt_in w hin _).trans (A_eq2 (V3 m ρ) c w)
  · exact W4_of_ne m ρ c b fun w e => h ⟨w, e⟩

/-- Launch 3 leaves every buffer that is not one of its output arrays as it found it: an input array comes back as entered,
    and a buffer no window stages is untouched. -/
theorem W5_keep (c : Dev nD) (b : Ref sig .tc) (hb : ∀ w, (cfg3.win w).isOut = true → Pipeline.arrRef spec3 w ≠ b) :
    W5 m ρ c (Proc.devRef .tc b) = W4 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [W5_arr]
    exact ((dat3 (V4 m ρ) c).arrAt_in w hin _).trans (A_eq3 (V4 m ρ) c w)
  · exact W5_of_ne m ρ c b fun w e => h ⟨w, e⟩

/-- Launch 4 leaves every buffer that is not one of its output arrays as it found it: an input array comes back as entered,
    and a buffer no window stages is untouched. -/
theorem W6_keep (c : Dev nD) (b : Ref sig .tc) (hb : ∀ w, (cfg4.win w).isOut = true → Pipeline.arrRef spec4 w ≠ b) :
    W6 m ρ c (Proc.devRef .tc b) = W5 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    rw [W6_arr]
    exact ((dat4 (V5 m ρ) c).arrAt_in w hin _).trans (A_eq4 (V5 m ρ) c w)
  · exact W6_of_ne m ρ c b fun w e => h ⟨w, e⟩

/-- The host reshapes write only their four results. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- An argument array at the end of the run holds its launch contents. -/
theorem W7_arg (c : Dev nD) (b : Ref sig .tc) (h9 : b ≠ main_v9)
    (h4 : ∀ w, (cfg4.win w).isOut = true → Pipeline.arrRef spec4 w ≠ b) (h3 : ∀ w, (cfg3.win w).isOut = true → Pipeline.arrRef spec3 w ≠ b)
    (h2 : ∀ w, (cfg2.win w).isOut = true → Pipeline.arrRef spec2 w ≠ b) (h1 : ∀ w, (cfg1.win w).isOut = true → Pipeline.arrRef spec1 w ≠ b)
    (h0 : ∀ w, (cfg0.win w).isOut = true → Pipeline.arrRef spec0 w ≠ b) (hh : b ∉ hostOps0_W) :
    W7 m ρ c (Proc.devRef .tc b) = m ((c : Thread nD τ).loc b) :=
  (W7_of_ne m ρ c b h9).trans <| (W6_keep m ρ c b h4).trans <| (W5_keep m ρ c b h3).trans <| (W4_keep m ρ c b h2).trans <|
    (W3_keep m ρ c b h1).trans <| (W2_keep m ρ c b h0).trans <| (W1_keep m ρ c b hh).trans rfl

/-- THE FRAME: every weakly fair execution of the program terminates, nothing faulting, and every final state has the
    twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_arg m ρ c main_arg0 (by decide) (by decide) (by decide) (by decide) (by decide) (by decide) (by decide)),
     (h c _ (mem_uc main_arg1 (by decide))).trans (W7_arg m ρ c main_arg1 (by decide) (by decide) (by decide) (by decide) (by decide) (by decide) (by decide)),
     (h c _ (mem_uc main_arg2 (by decide))).trans (W7_arg m ρ c main_arg2 (by decide) (by decide) (by decide) (by decide) (by decide) (by decide) (by decide)),
     (h c _ (mem_uc main_arg3 (by decide))).trans (W7_arg m ρ c main_arg3 (by decide) (by decide) (by decide) (by decide) (by decide) (by decide) (by decide)),
     (h c _ (mem_uc main_arg4 (by decide))).trans (W7_arg m ρ c main_arg4 (by decide) (by decide) (by decide) (by decide) (by decide) (by decide) (by decide)),
     (h c _ (mem_uc main_arg5 (by decide))).trans (W7_arg m ρ c main_arg5 (by decide) (by decide) (by decide) (by decide) (by decide) (by decide) (by decide)),
     (h c _ (mem_uc main_arg6 (by decide))).trans (W7_arg m ρ c main_arg6 (by decide) (by decide) (by decide) (by decide) (by decide) (by decide) (by decide)),
     (h c _ (mem_uc main_arg7 (by decide))).trans (W7_arg m ρ c main_arg7 (by decide) (by decide) (by decide) (by decide) (by decide) (by decide) (by decide)),
     (h c _ (mem_uc main_arg8 (by decide))).trans (W7_arg m ρ c main_arg8 (by decide) (by decide) (by decide) (by decide) (by decide) (by decide) (by decide)),
     (h c _ (mem_uc main_arg9 (by decide))).trans (W7_arg m ρ c main_arg9 (by decide) (by decide) (by decide) (by decide) (by decide) (by decide) (by decide)),
     (h c _ (mem_uc main_arg10 (by decide))).trans (W7_arg m ρ c main_arg10 (by decide) (by decide) (by decide) (by decide) (by decide) (by decide) (by decide)),
     (h c _ (mem_uc main_arg11 (by decide))).trans (W7_arg m ρ c main_arg11 (by decide) (by decide) (by decide) (by decide) (by decide) (by decide) (by decide))⟩)
    (run_all m ρ)

end Cert.Kernel.Hand

end
-- ==== Proof.KernelIdeal.Region0.lean ====
/-
  Region 0 of the idealized kernel program: the gridless cast of the first weight matrix (4096 × 128) to the
  narrow float format. One input window, one output window, one grid point; the body loads the whole input block,
  changes its format and stores the whole output block. Stated at any float instance.
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 4096 × 128 rectangle. -/
abbrev r0_0 : Rect S4096x128 := Rect.unit (s := S4096x128) ![0, 0] S4096x128.size inb_S4096x128_S4096x128_0_0

/-- The output buffer after the body: the input block in the narrow format. -/
def out0_1 (x0 : Vec F S4096x128 .f32) : Vec F S4096x128 .bf16 :=
  View.canon [⟨r0_0, k0_pay1 (View.ld x0 r0_0)⟩]

theorem cover0_1 (p0 : Vec F S4096x128 .bf16) (y : S4096x128.Idx) :
    ∃ pc ∈ ([⟨r0_0, p0⟩] : List (View.Piece (Elt F) S4096x128 .bf16)), y ∈ pc.1.set :=
  View.cover_of_tiled [⟨r0_0, p0⟩] S4096x128.size (by rfl) y

set_option maxHeartbeats 1000000 in
/-- The body on whole staging memrefs: the input stays, the output ends at `out0_1` of the input. -/
theorem sound_kernel0 (c : Dev nD) (E : Set ℕ) (i : grid0.Coords) (arg1 : Memref sig .tc .vmem S4096x128 .f32) (harg1 : arg1.IsWhole) (arg2 : Memref sig .tc .vmem S4096x128 .bf16) (harg2 : arg2.IsWhole)
    (x0 : Vec F S4096x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_body i arg1 harg1 arg2 harg2) K := by
  simp only [cc0__cast_body_eq_skeleton]; unfold cc0__cast_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Conds.lean ====
/-
  Region 1 of the idealized kernel program, first part: the two branch conditions of the layer-1 body on its 2 × 8 grid.
  The body's first conditional holds exactly at the points of the first branch (grid coordinate 0 equal to 0: points
  0–7), the second exactly at the points of the second branch (points 8–15).
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional of the layer-1 body: this point belongs to the first branch. -/
abbrev cond1_0 (i : grid1.Coords) : Prop := k1_cond1 i = 1#1
/-- The second conditional of the layer-1 body: this point belongs to the second branch. -/
abbrev cond1_1 (i : grid1.Coords) : Prop := k1_cond2 i = 1#1

theorem hcond1_0 : ∀ t : Fin cfg1.N, cond1_0 (grid1.coords t) ↔ t.val < 8 :=
  (by decide +kernel : ∀ t : Fin grid1.N, cond1_0 (grid1.coords t) ↔ t.val < 8)
theorem hcond1_1 : ∀ t : Fin cfg1.N, cond1_1 (grid1.coords t) ↔ 8 ≤ t.val :=
  (by decide +kernel : ∀ t : Fin grid1.N, cond1_1 (grid1.coords t) ↔ 8 ≤ t.val)

end Cert.KernelIdeal.Hand

end
-- ==== Proof.KernelIdeal.Region1A.lean ====
/-
  Region 1 of the idealized kernel program: the layer-1 body run on whole staging memrefs at a point of the first
  branch. There the body first stores the first adjacency's 512 × 4096 block, changed to the narrow format, into the
  adjacency output's buffer, reads that buffer back, and goes on as a middle layer does: the product with the cast first
  weight, the clamp, the row normalization, the scoring head into the score output, and the product with the second
  layer's weight into the right-hand-side output. What each output buffer ends with is recorded as the list of pieces
  the run writes into it.
-/
import proofs.«132566_g10127532884217_week1_w1_345_7_alg».proof.Proof.KernelIdeal.Region1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the layer-1 body leaves in its three output buffers at a point of the first branch, with the proof
    that on whole staging memrefs, the inputs at their contents and the outputs at anything, the body runs to the
    continuation holding the inputs as they were and each output's buffer with its pieces written. -/
noncomputable def kernelRun1_A (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    Σ' (L10 : List (View.Piece (Elt F) S512x4096 .bf16)) (L11 : List (View.Piece (Elt F) S512x128 .bf16)), { L12 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)) -∗ K ⟨⟩))
          ⊢ wp frame (wpE (defs₀ (F := F)) Variants.none c none) E (cc1__layer1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer1_body_eq_skeleton]; unfold cc1__layer1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact H12

end Cert.KernelIdeal.Hand

end
-- ==== Proof.KernelIdeal.Region1B.lean ====
/-
  Region 1 of the idealized kernel program: the layer-1 body run on whole staging memrefs at a point of the second
  branch. There the body first stores the second adjacency's 512 × 4096 block, changed to the narrow format, into the
  adjacency output's buffer, reads that buffer back, and goes on as a middle layer does: the product with the cast first
  weight, the clamp, the row normalization, the scoring head into the score output, and the product with the second
  layer's weight into the right-hand-side output. What each output buffer ends with is recorded as the list of pieces
  the run writes into it.
-/
import proofs.«132566_g10127532884217_week1_w1_345_7_alg».proof.Proof.KernelIdeal.Region1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the layer-1 body leaves in its three output buffers at a point of the second branch, with the proof
    that on whole staging memrefs, the inputs at their contents and the outputs at anything, the body runs to the
    continuation holding the inputs as they were and each output's buffer with its pieces written. -/
noncomputable def kernelRun1_B (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    Σ' (L10 : List (View.Piece (Elt F) S512x4096 .bf16)) (L11 : List (View.Piece (Elt F) S512x128 .bf16)), { L12 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)) -∗ K ⟨⟩))
          ⊢ wp frame (wpE (defs₀ (F := F)) Variants.none c none) E (cc1__layer1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer1_body_eq_skeleton]; unfold cc1__layer1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact H12

end Cert.KernelIdeal.Hand

end
-- ==== Proof.KernelIdeal.Region1.lean ====
/-
  Region 1 of the idealized kernel program: the first graph-convolution layer over both branches, on a 2 × 8 grid.
  Ten input windows (the two adjacency matrices, the cast first weight, the second layer's weight and the scoring
  head's six parameter arrays) and three output windows (the narrow-format copy of the adjacency rows, the next
  layer's right-hand side, the score column). The two adjacency windows are fetched only while their branch is
  active; either way each input window's buffer holds the window's block at every point. The body has two cases,
  one per branch (Region1A, Region1B); which one a point is in is decided by its position on the grid, and the
  outputs depend on the point's own input blocks only.
-/
import proofs.«132566_g10127532884217_week1_w1_345_7_alg».proof.Proof.KernelIdeal.Region1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x4096 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x128 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S512x1 .f32 := win1_12.stage (cfg1.slots t 12)
abbrev hs1_12 (t : Fin cfg1.N) : (ms1_12 t).IsWhole := hstage1_12 ((cfg1.slots t 12).cast nbuf1_12)

/-- The pieces a point of the first branch writes into output window 10's buffer tile its block, so they cover it. -/
theorem cover1_A_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S512x4096.size (by sl_kernel_rfl) y

/-- What a point of the first branch leaves in output window 10's buffer: its pieces, the last store winning. -/
def out1_A_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x4096 .bf16 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1

/-- The pieces a point of the first branch writes into output window 11's buffer tile its block, so they cover it. -/
theorem cover1_A_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S512x128.size (by sl_kernel_rfl) y

/-- What a point of the first branch leaves in output window 11's buffer: its pieces, the last store winning. -/
def out1_A_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x128 .bf16 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1

/-- The pieces a point of the first branch writes into output window 12's buffer tile its block, so they cover it. -/
theorem cover1_A_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 S512x1.size (by sl_kernel_rfl) y

/-- What a point of the first branch leaves in output window 12's buffer: its pieces, the last store winning. -/
def out1_A_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x1 .f32 :=
  View.canon (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1

/-- The pieces a point of the second branch writes into output window 10's buffer tile its block, so they cover it. -/
theorem cover1_B_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 S512x4096.size (by sl_kernel_rfl) y

/-- What a point of the second branch leaves in output window 10's buffer: its pieces, the last store winning. -/
def out1_B_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x4096 .bf16 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1

/-- The pieces a point of the second branch writes into output window 11's buffer tile its block, so they cover it. -/
theorem cover1_B_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1 S512x128.size (by sl_kernel_rfl) y

/-- What a point of the second branch leaves in output window 11's buffer: its pieces, the last store winning. -/
def out1_B_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x128 .bf16 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1

/-- The pieces a point of the second branch writes into output window 12's buffer tile its block, so they cover it. -/
theorem cover1_B_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1 S512x1.size (by sl_kernel_rfl) y

/-- What a point of the second branch leaves in output window 12's buffer: its pieces, the last store winning. -/
def out1_B_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) : Vec F S512x1 .f32 :=
  View.canon (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1

/-- What output window 10's buffer holds after the body at point `t`: the case of the point's branch, run at the
    point's memrefs and input blocks. -/
def out1_10 (c : Dev nD) (t : Fin cfg1.N) : Vec F S512x4096 .bf16 :=
  if h : t.val < 8 then
    out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_10_A (c : Dev nD) (t : Fin cfg1.N) (h : t.val < 8) :
    out1_10 V c t = out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_10_B (c : Dev nD) (t : Fin cfg1.N) (h : ¬ t.val < 8) :
    out1_10 V c t = out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- What output window 11's buffer holds after the body at point `t`: the case of the point's branch, run at the
    point's memrefs and input blocks. -/
def out1_11 (c : Dev nD) (t : Fin cfg1.N) : Vec F S512x128 .bf16 :=
  if h : t.val < 8 then
    out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_11_A (c : Dev nD) (t : Fin cfg1.N) (h : t.val < 8) :
    out1_11 V c t = out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_11_B (c : Dev nD) (t : Fin cfg1.N) (h : ¬ t.val < 8) :
    out1_11 V c t = out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- What output window 12's buffer holds after the body at point `t`: the case of the point's branch, run at the
    point's memrefs and input blocks. -/
def out1_12 (c : Dev nD) (t : Fin cfg1.N) : Vec F S512x1 .f32 :=
  if h : t.val < 8 then
    out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  else
    out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem out1_12_A (c : Dev nD) (t : Fin cfg1.N) (h : t.val < 8) :
    out1_12 V c t = out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_pos h
theorem out1_12_B (c : Dev nD) (t : Fin cfg1.N) (h : ¬ t.val < 8) :
    out1_12 V c t = out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := dif_neg h

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 V c t
    | ⟨11, _⟩ => out1_11 V c t
    | ⟨12, _⟩ => out1_12 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 V c t := by dsimp only [dat1]
theorem after1_11 (c : Dev nD) (t : Fin cfg1.N) : (dat1 V c).after 11 t = out1_11 V c t := by dsimp only [dat1]
theorem after1_12 (c : Dev nD) (t : Fin cfg1.N) : (dat1 V c).after 12 t = out1_12 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The adjacency output is stored at every point of the grid: each point is in one of the two branches. -/
theorem liveAt1_10 : ∀ t : Fin cfg1.N, cfg1.idle 10 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t
    ∗ owns (c : Thread nD τ) (st1_11 t) fullShare ((dat1 V c).after 11 t)
    ∗ owns (c : Thread nD τ) (st1_12 t) fullShare ((dat1 V c).after 12 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).leavesExact 10 t = owns (c : Thread nD τ) (st1_10 t) fullShare ((dat1 V c).after 10 t) from by
    unfold Dat.leavesExact; rw [liveAt1_10 t]]
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  by_cases h : t.val < 8
  · rw [out1_10_A V c t h, out1_11_A V c t h, out1_12_A V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_A c (grid1.coords t) _ _ _ _ _ _ _ _ _ _ _ _ _ _ _ _ _ _ _ _ _ _ _ _ _ _ ((hcond1_0 t).mpr h) (fun h' => absurd ((hcond1_1 t).mp h') (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover1_A_10 c _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (cover1_A_11 c _ _ _ _ _ _ _ _ _ _ _ _ _ _ _ _ _ _ _ _ _ _ _ _ _ _ _ _ _ _ _ _ _ _ _ _ _ _ _)
    unfold owns; iexists _; isplitr
    swap; · iexact H12
    ipureintro; exact View.read_writes_eq_canon _ _ _ (cover1_A_12 c _ _ _ _ _ _ _ _ _ _ _ _ _ _ _ _ _ _ _ _ _ _ _ _ _ _ _ _ _ _ _ _ _ _ _ _ _ _ _)
  · rw [out1_10_B V c t h, out1_11_B V c t h, out1_12_B V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun1_B c (grid1.coords t) _ _ _ _ _ _ _ _ _ _ _ _ _ _ _ _ _ _ _ _ _ _ _ _ _ _ (fun h' => h ((hcond1_0 t).mp h')) ((hcond1_1 t).mpr (by omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover1_B_10 c _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (cover1_B_11 c _ _ _ _ _ _ _ _ _ _ _ _ _ _ _ _ _ _ _ _ _ _ _ _ _ _ _ _ _ _ _ _ _ _ _ _ _ _ _)
    unfold owns; iexists _; isplitr
    swap; · iexact H12
    ipureintro; exact View.read_writes_eq_canon _ _ _ (cover1_B_12 c _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
/-
  Region 2 of the idealized kernel program: one middle graph-convolution layer over both branches, on a 2 × 8 grid.
  At a grid point the body multiplies a 512-row block of the narrow-format adjacency by the branch's 4096 × 128
  right-hand side, clamps at zero, divides each row by the larger of its Euclidean norm and a small constant, adds
  the three-layer scoring head of the result to the incoming 512 × 1 score block, and stores the product of the
  normalized rows with the next layer's weight in the narrow format. Ten input windows, two output windows; every
  load and store is of a whole block. Stated at any float instance.
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, fetched there or not. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, fetched there or not. -/
theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_a : Rect S512x4096 := Rect.unit (s := S512x4096) ![0, 0] S512x4096.size inb_S512x4096_S512x4096_0_0
abbrev r2_b : Rect S4096x128 := Rect.unit (s := S4096x128) ![0, 0] S4096x128.size inb_S4096x128_S4096x128_0_0
abbrev r2_c : Rect S128x128 := Rect.unit (s := S128x128) ![0, 0] S128x128.size inb_S128x128_S128x128_0_0
abbrev r2_d : Rect S128x256 := Rect.unit (s := S128x256) ![0, 0] S128x256.size inb_S128x256_S128x256_0_0
abbrev r2_e : Rect S1x256 := Rect.unit (s := S1x256) ![0, 0] S1x256.size inb_S1x256_S1x256_0_0
abbrev r2_f : Rect S256x256 := Rect.unit (s := S256x256) ![0, 0] S256x256.size inb_S256x256_S256x256_0_0
abbrev r2_g : Rect S1x1 := Rect.unit (s := S1x1) ![0, 0] S1x1.size inb_S1x1_S1x1_0_0
abbrev r2_h : Rect S512x1 := Rect.unit (s := S512x1) ![0, 0] S512x1.size inb_S512x1_S512x1_0_0
abbrev r2_i : Rect S512x128 := Rect.unit (s := S512x128) ![0, 0] S512x128.size inb_S512x128_S512x128_0_0

/-- The next layer's right-hand-side block after the body: the normalized rows times the layer weight, narrow format. -/
def out2_10 (x0 : Vec F S512x4096 .bf16) (x1 : Vec F S4096x128 .bf16) (x2 : Vec F S128x128 .f32) : Vec F S512x128 .bf16 :=
  View.canon [⟨r2_i, k2_pay2 (k2_pay3 (View.ld x0 r2_a) (View.ld x1 r2_b)) (View.ld x2 r2_c)⟩]

/-- The score block after the body: the incoming scores plus the scoring head of the normalized rows. -/
def out2_11 (x0 : Vec F S512x4096 .bf16) (x1 : Vec F S4096x128 .bf16) (x3 : Vec F S128x256 .f32) (x4 : Vec F S1x256 .f32) (x5 : Vec F S256x256 .f32)
    (x6 : Vec F S1x256 .f32) (x7 : Vec F S1x256 .f32) (x8 : Vec F S1x1 .f32) (x9 : Vec F S512x1 .f32) : Vec F S512x1 .f32 :=
  View.canon [⟨r2_h, k2_pay1 (k2_pay4 (View.ld x9 r2_h)) (k2_pay5 (View.ld x0 r2_a) (View.ld x1 r2_b) (View.ld x3 r2_d) (View.ld x4 r2_e) (View.ld x5 r2_f) (View.ld x6 r2_e))
    (k2_pay6 (F := F)) (View.ld x7 r2_e) (View.ld x8 r2_g)⟩]

theorem cover2_10 (p0 : Vec F S512x128 .bf16) (y : S512x128.Idx) :
    ∃ pc ∈ ([⟨r2_i, p0⟩] : List (View.Piece (Elt F) S512x128 .bf16)), y ∈ pc.1.set :=
  View.cover_of_tiled [⟨r2_i, p0⟩] S512x128.size (by rfl) y

theorem cover2_11 (p0 : Vec F S512x1 .f32) (y : S512x1.Idx) :
    ∃ pc ∈ ([⟨r2_h, p0⟩] : List (View.Piece (Elt F) S512x1 .f32)), y ∈ pc.1.set :=
  View.cover_of_tiled [⟨r2_h, p0⟩] S512x1.size (by rfl) y

set_option maxHeartbeats 4000000 in
/-- The body on whole staging memrefs: the inputs stay, each output ends at its function of the inputs. -/
theorem sound_kernel2 (c : Dev nD) (E : Set ℕ) (i : grid2.Coords)
    (arg2 : Memref sig .tc .vmem S512x4096 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x128 .bf16) (harg12 : arg12.IsWhole) (arg13 : Memref sig .tc .vmem S512x1 .f32) (harg13 : arg13.IsWhole)
    (x0 : Vec F S512x4096 .bf16) (x1 : Vec F S4096x128 .bf16) (x2 : Vec F S128x128 .f32) (x3 : Vec F S128x256 .f32) (x4 : Vec F S1x256 .f32) (x5 : Vec F S256x256 .f32) (x6 : Vec F S1x256 .f32) (x7 : Vec F S1x256 .f32) (x8 : Vec F S1x1 .f32) (x9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (out2_10 x0 x1 x2) ∗ owns (c : Thread nD τ) arg13 fullShare (out2_11 x0 x1 x3 x4 x5 x6 x7 x8 x9)) -∗ K ⟨⟩))
      ⊢ wp frame (wpE (defs₀ (F := F)) Variants.none c none) E (cc2__mid_body i arg2 harg2 arg3 harg3 arg4 harg4 arg5 harg5 arg6 harg6 arg7 harg7 arg8 harg8 arg9 harg9 arg10 harg10 arg11 harg11 arg12 harg12 arg13 harg13) K := by
  simp only [cc2__mid_body_eq_skeleton]; unfold cc2__mid_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover2_10 _)
  iexists _; isplitr
  swap; · iexact H11
  ipureintro
  try dsimp only
  exact View.read_writes_eq_canon _ _ _ (cover2_11 _)

/-- The proof data of pipeline 2 on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t)
    | ⟨11, _⟩ => out2_11 (iblk2 V c 0 t) (iblk2 V c 1 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) := by dsimp only [dat2]
theorem after2_11 (c : Dev nD) (t : Fin cfg2.N) : (dat2 V c).after 11 t = out2_11 (iblk2 V c 0 t) (iblk2 V c 1 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (grid2.coords t) _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Region3.lean ====
/-
  Region 3 of the idealized kernel program: one middle graph-convolution layer over both branches, on a 2 × 8 grid.
  At a grid point the body multiplies a 512-row block of the narrow-format adjacency by the branch's 4096 × 128
  right-hand side, clamps at zero, divides each row by the larger of its Euclidean norm and a small constant, adds
  the three-layer scoring head of the result to the incoming 512 × 1 score block, and stores the product of the
  normalized rows with the next layer's weight in the narrow format. Ten input windows, two output windows; every
  load and store is of a whole block. Stated at any float instance.
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point, fetched there or not. -/
theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at every point, fetched there or not. -/
theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at every point, fetched there or not. -/
theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_a : Rect S512x4096 := Rect.unit (s := S512x4096) ![0, 0] S512x4096.size inb_S512x4096_S512x4096_0_0
abbrev r3_b : Rect S4096x128 := Rect.unit (s := S4096x128) ![0, 0] S4096x128.size inb_S4096x128_S4096x128_0_0
abbrev r3_c : Rect S128x128 := Rect.unit (s := S128x128) ![0, 0] S128x128.size inb_S128x128_S128x128_0_0
abbrev r3_d : Rect S128x256 := Rect.unit (s := S128x256) ![0, 0] S128x256.size inb_S128x256_S128x256_0_0
abbrev r3_e : Rect S1x256 := Rect.unit (s := S1x256) ![0, 0] S1x256.size inb_S1x256_S1x256_0_0
abbrev r3_f : Rect S256x256 := Rect.unit (s := S256x256) ![0, 0] S256x256.size inb_S256x256_S256x256_0_0
abbrev r3_g : Rect S1x1 := Rect.unit (s := S1x1) ![0, 0] S1x1.size inb_S1x1_S1x1_0_0
abbrev r3_h : Rect S512x1 := Rect.unit (s := S512x1) ![0, 0] S512x1.size inb_S512x1_S512x1_0_0
abbrev r3_i : Rect S512x128 := Rect.unit (s := S512x128) ![0, 0] S512x128.size inb_S512x128_S512x128_0_0

/-- The next layer's right-hand-side block after the body: the normalized rows times the layer weight, narrow format. -/
def out3_10 (x0 : Vec F S512x4096 .bf16) (x1 : Vec F S4096x128 .bf16) (x2 : Vec F S128x128 .f32) : Vec F S512x128 .bf16 :=
  View.canon [⟨r3_i, k3_pay2 (k3_pay3 (View.ld x0 r3_a) (View.ld x1 r3_b)) (View.ld x2 r3_c)⟩]

/-- The score block after the body: the incoming scores plus the scoring head of the normalized rows. -/
def out3_11 (x0 : Vec F S512x4096 .bf16) (x1 : Vec F S4096x128 .bf16) (x3 : Vec F S128x256 .f32) (x4 : Vec F S1x256 .f32) (x5 : Vec F S256x256 .f32)
    (x6 : Vec F S1x256 .f32) (x7 : Vec F S1x256 .f32) (x8 : Vec F S1x1 .f32) (x9 : Vec F S512x1 .f32) : Vec F S512x1 .f32 :=
  View.canon [⟨r3_h, k3_pay1 (k3_pay4 (View.ld x9 r3_h)) (k3_pay5 (View.ld x0 r3_a) (View.ld x1 r3_b) (View.ld x3 r3_d) (View.ld x4 r3_e) (View.ld x5 r3_f) (View.ld x6 r3_e))
    (k3_pay6 (F := F)) (View.ld x7 r3_e) (View.ld x8 r3_g)⟩]

theorem cover3_10 (p0 : Vec F S512x128 .bf16) (y : S512x128.Idx) :
    ∃ pc ∈ ([⟨r3_i, p0⟩] : List (View.Piece (Elt F) S512x128 .bf16)), y ∈ pc.1.set :=
  View.cover_of_tiled [⟨r3_i, p0⟩] S512x128.size (by rfl) y

theorem cover3_11 (p0 : Vec F S512x1 .f32) (y : S512x1.Idx) :
    ∃ pc ∈ ([⟨r3_h, p0⟩] : List (View.Piece (Elt F) S512x1 .f32)), y ∈ pc.1.set :=
  View.cover_of_tiled [⟨r3_h, p0⟩] S512x1.size (by rfl) y

set_option maxHeartbeats 4000000 in
/-- The body on whole staging memrefs: the inputs stay, each output ends at its function of the inputs. -/
theorem sound_kernel3 (c : Dev nD) (E : Set ℕ) (i : grid3.Coords)
    (arg2 : Memref sig .tc .vmem S512x4096 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x128 .bf16) (harg12 : arg12.IsWhole) (arg13 : Memref sig .tc .vmem S512x1 .f32) (harg13 : arg13.IsWhole)
    (x0 : Vec F S512x4096 .bf16) (x1 : Vec F S4096x128 .bf16) (x2 : Vec F S128x128 .f32) (x3 : Vec F S128x256 .f32) (x4 : Vec F S1x256 .f32) (x5 : Vec F S256x256 .f32) (x6 : Vec F S1x256 .f32) (x7 : Vec F S1x256 .f32) (x8 : Vec F S1x1 .f32) (x9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (out3_10 x0 x1 x2) ∗ owns (c : Thread nD τ) arg13 fullShare (out3_11 x0 x1 x3 x4 x5 x6 x7 x8 x9)) -∗ K ⟨⟩))
      ⊢ wp frame (wpE (defs₀ (F := F)) Variants.none c none) E (cc3__mid_body i arg2 harg2 arg3 harg3 arg4 harg4 arg5 harg5 arg6 harg6 arg7 harg7 arg8 harg8 arg9 harg9 arg10 harg10 arg11 harg11 arg12 harg12 arg13 harg13) K := by
  simp only [cc3__mid_body_eq_skeleton]; unfold cc3__mid_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover3_10 _)
  iexists _; isplitr
  swap; · iexact H11
  ipureintro
  try dsimp only
  exact View.read_writes_eq_canon _ _ _ (cover3_11 _)

/-- The proof data of pipeline 3 on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t)
    | ⟨11, _⟩ => out3_11 (iblk3 V c 0 t) (iblk3 V c 1 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) := by dsimp only [dat3]
theorem after3_11 (c : Dev nD) (t : Fin cfg3.N) : (dat3 V c).after 11 t = out3_11 (iblk3 V c 0 t) (iblk3 V c 1 t) (iblk3 V c 3 t) (iblk3 V c 4 t) (iblk3 V c 5 t) (iblk3 V c 6 t) (iblk3 V c 7 t) (iblk3 V c 8 t) (iblk3 V c 9 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Region4.lean ====
/-
  Region 4 of the idealized kernel program: the last graph-convolution layer over both branches, on a 2 × 8 grid.
  At a grid point the body multiplies a 512-row block of the narrow-format adjacency by the branch's 4096 × 128
  right-hand side, clamps at zero (no normalization in the last layer), and adds the three-layer scoring head of the
  result to the incoming 512 × 1 score block. Nine input windows, one output window; whole-block loads and stores.
  Stated at any float instance.
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's staging buffer holds its block at every point, fetched there or not. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's staging buffer holds its block at every point, fetched there or not. -/
theorem before4_7_of {c : Dev nD} (dat : Dat τ (Elt F) Unit ℕ (Pipeline.UD sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's staging buffer holds its block at every point, fetched there or not. -/
theorem before4_8_of {c : Dev nD} (dat : Dat τ (Elt F) Unit ℕ (Pipeline.UD sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_a : Rect S512x4096 := Rect.unit (s := S512x4096) ![0, 0] S512x4096.size inb_S512x4096_S512x4096_0_0
abbrev r4_b : Rect S4096x128 := Rect.unit (s := S4096x128) ![0, 0] S4096x128.size inb_S4096x128_S4096x128_0_0
abbrev r4_d : Rect S128x256 := Rect.unit (s := S128x256) ![0, 0] S128x256.size inb_S128x256_S128x256_0_0
abbrev r4_e : Rect S1x256 := Rect.unit (s := S1x256) ![0, 0] S1x256.size inb_S1x256_S1x256_0_0
abbrev r4_f : Rect S256x256 := Rect.unit (s := S256x256) ![0, 0] S256x256.size inb_S256x256_S256x256_0_0
abbrev r4_g : Rect S1x1 := Rect.unit (s := S1x1) ![0, 0] S1x1.size inb_S1x1_S1x1_0_0
abbrev r4_h : Rect S512x1 := Rect.unit (s := S512x1) ![0, 0] S512x1.size inb_S512x1_S512x1_0_0

/-- The score block after the body: the incoming scores plus the scoring head of the clamped product rows. -/
def out4_9 (x0 : Vec F S512x4096 .bf16) (x1 : Vec F S4096x128 .bf16) (x2 : Vec F S128x256 .f32) (x3 : Vec F S1x256 .f32) (x4 : Vec F S256x256 .f32)
    (x5 : Vec F S1x256 .f32) (x6 : Vec F S1x256 .f32) (x7 : Vec F S1x1 .f32) (x8 : Vec F S512x1 .f32) : Vec F S512x1 .f32 :=
  View.canon [⟨r4_h, k4_pay1 (k4_pay2 (View.ld x8 r4_h)) (k4_pay3 (View.ld x0 r4_a) (View.ld x1 r4_b) (View.ld x2 r4_d) (View.ld x3 r4_e) (View.ld x4 r4_f) (View.ld x5 r4_e) (View.ld x6 r4_e))
    (View.ld x7 r4_g)⟩]

theorem cover4_9 (p0 : Vec F S512x1 .f32) (y : S512x1.Idx) :
    ∃ pc ∈ ([⟨r4_h, p0⟩] : List (View.Piece (Elt F) S512x1 .f32)), y ∈ pc.1.set :=
  View.cover_of_tiled [⟨r4_h, p0⟩] S512x1.size (by rfl) y

set_option maxHeartbeats 4000000 in
/-- The body on whole staging memrefs: the inputs stay, the output ends at its function of the inputs. -/
theorem sound_kernel4 (c : Dev nD) (E : Set ℕ) (i : grid4.Coords)
    (arg2 : Memref sig .tc .vmem S512x4096 .bf16) (harg2 : arg2.IsWhole) (arg3 : Memref sig .tc .vmem S4096x128 .bf16) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole)
    (x0 : Vec F S512x4096 .bf16) (x1 : Vec F S4096x128 .bf16) (x2 : Vec F S128x256 .f32) (x3 : Vec F S1x256 .f32) (x4 : Vec F S256x256 .f32) (x5 : Vec F S1x256 .f32) (x6 : Vec F S1x256 .f32) (x7 : Vec F S1x1 .f32) (x8 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out4_9 x0 x1 x2 x3 x4 x5 x6 x7 x8)) -∗ K ⟨⟩))
      ⊢ wp frame (wpE (defs₀ (F := F)) Variants.none c none) E (cc4__last_body i arg2 harg2 arg3 harg3 arg4 harg4 arg5 harg5 arg6 harg6 arg7 harg7 arg8 harg8 arg9 harg9 arg10 harg10 arg11 harg11) K := by
  simp only [cc4__last_body_eq_skeleton]; unfold cc4__last_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The proof data of pipeline 4 on core `c`. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Region5.lean ====
/-
  Region 5 of the idealized kernel program: the product of the two branches' score columns, on a grid of 8 points.
  Both input windows read ONE array, the 8192 × 1 score column: at point `t` the first reads its block `t` (the first
  branch's rows) and the second its block `t + 8` (the second branch's rows); the output window's block `t` is their
  element-by-element product. The array being shared, each input window holds it at one half of the full share.
  Stated at any float instance.
-/
import proofs.«132566_g10127532884217_week1_w1_345_7_alg».proof.Proof.Gen.KernelIdeal.Launch
import proofs.«132566_g10127532884217_week1_w1_345_7_alg».proof.Proof.Gen.KernelIdeal.Skeleton
import proofs.«132566_g10127532884217_week1_w1_345_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole 512 × 1 rectangle. -/
abbrev r5_h : Rect S512x1 := Rect.unit (s := S512x1) ![0, 0] S512x1.size inb_S512x1_S512x1_0_0

/-- The output block after the body: the product of the two input blocks. -/
def out5_2 (x0 : Vec F S512x1 .f32) (x1 : Vec F S512x1 .f32) : Vec F S512x1 .f32 :=
  View.canon [⟨r5_h, k5_pay1 (View.ld x0 r5_h) (View.ld x1 r5_h)⟩]

theorem cover5_2 (p0 : Vec F S512x1 .f32) (y : S512x1.Idx) :
    ∃ pc ∈ ([⟨r5_h, p0⟩] : List (View.Piece (Elt F) S512x1 .f32)), y ∈ pc.1.set :=
  View.cover_of_tiled [⟨r5_h, p0⟩] S512x1.size (by rfl) y

set_option maxHeartbeats 1000000 in
/-- The body on whole staging memrefs: the inputs stay, the output ends at the product. -/
theorem sound_kernel5 (c : Dev nD) (E : Set ℕ) (i : grid5.Coords) (arg1 : Memref sig .tc .vmem S512x1 .f32) (harg1 : arg1.IsWhole) (arg2 : Memref sig .tc .vmem S512x1 .f32) (harg2 : arg2.IsWhole)
    (arg3 : Memref sig .tc .vmem S512x1 .f32) (harg3 : arg3.IsWhole)
    (x0 : Vec F S512x1 .f32) (x1 : Vec F S512x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__mul_body i arg1 harg1 arg2 harg2 arg3 harg3) K := by
  simp only [cc5__mul_body_eq_skeleton]; unfold cc5__mul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _)

/-- The proof data of pipeline 5 on core `c`: the two input windows hold the shared array at the two halves of the
    full share. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.RunA.lean ====
/-
  The idealized kernel program from its launch to its return: the contents of the unscoped buffers at the boundary
  between each two items of the program (the host reshapes, then the six kernel launches), as a fold from the launch
  memory — a launch leaves each of its output arrays at what its write-backs fold to and every other buffer as it
  found it —, and the first five launches as segments of the run, each entered from one boundary's contents and left
  at the next one's. Stated at any float instance.
-/
import proofs.«132566_g10127532884217_week1_w1_345_7_alg».proof.Proof.KernelIdeal.Region0
import proofs.«132566_g10127532884217_week1_w1_345_7_alg».proof.Proof.KernelIdeal.Region1
import proofs.«132566_g10127532884217_week1_w1_345_7_alg».proof.Proof.KernelIdeal.Region2
import proofs.«132566_g10127532884217_week1_w1_345_7_alg».proof.Proof.KernelIdeal.Region3
import proofs.«132566_g10127532884217_week1_w1_345_7_alg».proof.Proof.KernelIdeal.Region4
import proofs.«132566_g10127532884217_week1_w1_345_7_alg».proof.Proof.KernelIdeal.Region5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes of the head's biases and last weight (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (each input as entered, each output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (each input as entered, each output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (each input as entered, each output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (each input as entered, each output's write-backs folded),
    every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At the last launch's exit: the result array at what that launch's write-backs fold to, every other buffer as the
    launch found it (its two input windows read one array, which it leaves as it was). -/
def W7 (c : Dev nD) : Valuation τ sig (Elt F) :=
  Function.update (W6 m ρ c) (Proc.devRef .tc main_v9) ((dat5 (V6 m ρ) c).arrAt 2 cfg5.N)
abbrev V7 : (c : Dev nD) → (b : Ref sig .tc) → Buf (Elt F) ((c : Thread nD τ).loc b) := fun c b => W7 m ρ c b
theorem W7_out (c : Dev nD) : W7 m ρ c (Proc.devRef .tc main_v9) = (dat5 (V6 m ρ) c).arrAt 2 cfg5.N := by
  unfold W7; exact Function.update_self ..
theorem W7_of_ne (c : Dev nD) (b : Ref sig .tc) (hb : b ≠ main_v9) :
    W7 m ρ c (Proc.devRef .tc b) = W6 m ρ c (Proc.devRef .tc b) := by
  unfold W7; exact Function.update_of_ne (StableHlo.devRef_ne_of_ne hb) ..

/-! ## The proof data family and the thread state -/

/-- No pipeline has a prefetched table. -/
abbrev adm : (p : Fin 6) → (pcfgs (F := F) p).Adm := fun p => (cfgs p).toPCfg_adm
/-- Every pipeline's proof data, each at its launch's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first five launches as segments -/

set_option backward.isDefEq.respectTransparency.types false in
/-- Region 0 as a segment of the program over the thread state: entered from every unscoped buffer at `W1`, left at
    `W2`. Its arrays are split out of the unscoped buffers at entry and put back at their exit contents; the generator
    register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program over the thread state: entered from every unscoped buffer at `W2`, left at
    `W3`. Its arrays are split out of the unscoped buffers at entry and put back at their exit contents; the generator
    register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program over the thread state: entered from every unscoped buffer at `W3`, left at
    `W4`. Its arrays are split out of the unscoped buffers at entry and put back at their exit contents; the generator
    register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the program over the thread state: entered from every unscoped buffer at `W4`, left at
    `W5`. Its arrays are split out of the unscoped buffers at entry and put back at their exit contents; the generator
    register goes into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of the program over the thread state: entered from every unscoped buffer at `W5`, left at
    `W6`. Its arrays are split out of the unscoped buffers at entry and put back at their exit contents; the generator
    register goes into the pipeline's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.RunB.lean ====
/-
  The idealized kernel program from its launch to its return, second part: the last launch as a segment of the run —
  its two input windows read ONE array, the 8192 × 1 score column, which is therefore held at the two halves of the
  full share while the launch runs and put back whole at its exit —, the program as the list of its seven segments, and
  the run: every weakly fair execution terminates without a fault, and at the end every unscoped buffer holds the last
  boundary's contents. Stated at any float instance.
-/
import proofs.«132566_g10127532884217_week1_w1_345_7_alg».proof.Proof.KernelIdeal.RunA
import proofs.«132566_g10127532884217_week1_w1_345_7_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The last launch's arrays -/

/-- The distinct buffers behind the last launch's windows: the score column and the result. -/
theorem arrBufs5_eq (c : Dev nD) (V : (b : Ref sig .tc) → Buf (Elt F) ((c : Thread nD τ).loc b)) :
    (Pipeline.arrBufs (Ix := Unit) (Name := ℕ) (U := Pipeline.UD sig nD τ) (Lvl := ℕ) spec5 c V : sProp 𝕄)
      = iprop((((c : Thread nD τ).loc main_v8) ↦{fullShare} V main_v8) ∗ (((c : Thread nD τ).loc main_v9) ↦{fullShare} V main_v9)) := by
  unfold Pipeline.arrBufs
  rw [BI.bigSep_eq_bigSepL_of_eq [main_v8, main_v9] (by decide) (by decide)]; rfl

/-- The last launch's arrays, window by window: the score column at the left half share for the first window and at the
    right half for the second, the result at the full share. -/
theorem arrays5_eq (c : Dev nD) (dat : Dat τ (Elt F) Unit ℕ (Pipeline.UD sig nD τ) ℕ cfg5 c)
    (h0 : dat.q 0 = fullShare.left) (h1 : dat.q 1 = fullShare.right)
    (F5 : (w : Fin cfg5.W) → Buf (Elt F) ((cfg5.win w).arr.view.loc (c : Thread nD τ))) :
    (dat.arrays F5 : sProp 𝕄)
      = iprop((((c : Thread nD τ).loc main_v8) ↦{fullShare.left} F5 0) ∗ (((c : Thread nD τ).loc main_v8) ↦{fullShare.right} F5 1)
          ∗ (((c : Thread nD τ).loc main_v9) ↦{fullShare} F5 2)) := by
  have hs0 : dat.share 0 = fullShare.left := by unfold Pipeline.Dat.share; rw [if_neg (by decide)]; exact h0
  have hs1 : dat.share 1 = fullShare.right := by unfold Pipeline.Dat.share; rw [if_neg (by decide)]; exact h1
  have hs2 : dat.share 2 = fullShare := by unfold Pipeline.Dat.share; rw [if_pos (by decide)]
  have e0 : (cfg5.win 0).arr.view.set = Finset.univ := (arr_whole5 0).set_eq_univ
  have e1 : (cfg5.win 1).arr.view.set = Finset.univ := (arr_whole5 1).set_eq_univ
  have e2 : (cfg5.win 2).arr.view.set = Finset.univ := (arr_whole5 2).set_eq_univ
  unfold Pipeline.Dat.arrays
  rw [bigSep_W5, e0]
  (try rw [e1])
  rw [e2, hs0, hs1, hs2]

set_option backward.isDefEq.respectTransparency.types false in
/-- The last launch as a segment of the program. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop((StableHlo.held (c : Thread nD τ) (Pipeline.ucRefs τ sig) (W7 m ρ c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec5 c (V6 m ρ c)
  hentry c := by
    rw [Pipeline.ownSems0_none]
    have hsplit : (unscopedBufs c (V6 m ρ c) : sProp 𝕄)
        = iprop(Pipeline.arrBufs spec5 c (V6 m ρ c) ∗ Pipeline.unscopedRest spec5 c (V6 m ρ c)) :=
      Pipeline.unscopedBufs_split₀ (Ix := Unit) (Name := ℕ) (U := Pipeline.UD sig nD τ) (Lvl := ℕ) cfgs 5 winFacts₀5.arr_unscoped c (V6 m ρ c)
    rw [Pipeline.unscopedBufs_held, arrBufs5_eq] at hsplit
    rw [arrays5_eq c (pdats m ρ 5 c) rfl rfl]
    iintro ⟨⟨Hub, Hp, HO⟩, -, -⟩
    ihave H := (Entails.of_eq hsplit) $$ Hub
    icases H with ⟨⟨H8, H9⟩, Hrest⟩
    ihave H8' := (pointsTo_share (PosShare.mem_left_op_right fullShare)).1 $$ H8
    icases H8' with ⟨H8l, H8r⟩
    imodintro
    isplitl [H8l H8r H9]
    · isplitl [H8l]; · iexact H8l
      isplitl [H8r]; · iexact H8r
      iexact H9
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : (unscopedBufs c (V7 m ρ c) : sProp 𝕄)
        = iprop(Pipeline.arrBufs spec5 c (V7 m ρ c) ∗ Pipeline.unscopedRest spec5 c (V7 m ρ c)) :=
      Pipeline.unscopedBufs_split₀ (Ix := Unit) (Name := ℕ) (U := Pipeline.UD sig nD τ) (Lvl := ℕ) cfgs 5 winFacts₀5.arr_unscoped c (V7 m ρ c)
    rw [Pipeline.unscopedBufs_held, arrBufs5_eq] at hjoin
    have hrest : (Pipeline.unscopedRest (Ix := Unit) (Name := ℕ) (U := Pipeline.UD sig nD τ) (Lvl := ℕ) spec5 c (V7 m ρ c) : sProp 𝕄)
        = Pipeline.unscopedRest spec5 c (V6 m ρ c) := by
      unfold Pipeline.unscopedRest
      exact BI.bigSep_congr fun b hb => by
        rw [show V7 m ρ c b = V6 m ρ c b from W7_of_ne m ρ c b fun e =>
          (Finset.mem_sdiff.mp hb).2 (Finset.mem_image.mpr ⟨2, Finset.mem_univ _, (show Pipeline.arrRef spec5 2 = main_v9 from rfl).trans e.symm⟩)]
    have h8 : V7 m ρ c main_v8 = V6 m ρ c main_v8 := W7_of_ne m ρ c main_v8 (by decide)
    rw [arrays5_eq c (pdats m ρ 5 c) rfl rfl, (pdats m ρ 5 c).arrAt_in 0 rfl, (pdats m ρ 5 c).arrAt_in 1 rfl]
    rw [show (pdats m ρ 5 c).arrAt 2 (Pipeline.pin (pcfgs (F := F)) adm 5).N = V7 m ρ c main_v9 from (W7_out m ρ c).symm]
    rw [show (pdats m ρ 5 c).A 0 = V7 m ρ c main_v8 from h8.symm, show (pdats m ρ 5 c).A 1 = V7 m ρ c main_v8 from h8.symm]
    iintro ⟨⟨H8l, H8r, H9⟩, HO, HY, Hrest⟩
    ihave H8 := (pointsTo_share (PosShare.mem_left_op_right fullShare)).2 $$ [H8l H8r]
    · isplitl [H8l]; · iexact H8l
      iexact H8r
    imodintro
    isplitl [H8 H9 Hrest HY]
    · isplitl [H8 H9 Hrest]
      · iapply (Entails.of_eq hjoin.symm)
        isplitl [H8 H9]
        · isplitl [H8]; · iexact H8
          iexact H9
        rw [hrest]; iexact Hrest
      iexact HY
    unfold Pipeline.Dat.owesAt Pipeline.owesWithin
    icases HO with ⟨%W, -, HO⟩; iexists W; iexact HO

/-! ## The program as segments, and the run -/

/-- The last thread state without the core's `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The program's seven segments in order: the host reshapes, then the six launches. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ) ]

/-- The program IS the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KernelIdeal.Frame.lean ====
/-
  The frame of the idealized kernel program: each launch leaves every buffer that is not one of its output arrays as
  it found it, the host reshapes write only their own results, so each of the twelve argument arrays reaches the end
  of the run holding its launch contents. Stated at any float instance.
-/
import proofs.«132566_g10127532884217_week1_w1_345_7_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Launch 0 leaves every buffer that is not one of its output arrays as it found it: an input array comes back as entered,
    and a buffer no window stages is untouched. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    rw [W2_arr]
    exact ((dat0 (V1 m ρ) c).arrAt_in w hin _).trans (A_eq0 (V1 m ρ) c w)
  · exact W2_of_ne m ρ c b fun w e => h ⟨w, e⟩

/-- Launch 1 leaves every buffer that is not one of its output arrays as it found it: an input array comes back as entered,
    and a buffer no window stages is untouched. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    rw [W3_arr]
    exact ((dat1 (V2 m ρ) c).arrAt_in w hin _).trans (A_eq1 (V2 m ρ) c w)
  · exact W3_of_ne m ρ c b fun w e => h ⟨w, e⟩

/-- Launch 2 leaves every buffer that is not one of its output arrays as it found it: an input array comes back as entered,
    and a buffer no window stages is untouched. -/
theorem W4_keep (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [W4_arr]
    exact ((dat2 (V3 m ρ) c).arrAt_in w hin _).trans (A_eq2 (V3 m ρ) c w)
  · exact W4_of_ne m ρ c b fun w e => h ⟨w, e⟩

/-- Launch 3 leaves every buffer that is not one of its output arrays as it found it: an input array comes back as entered,
    and a buffer no window stages is untouched. -/
theorem W5_keep (c : Dev nD) (b : Ref sig .tc) (hb : ∀ w, (cfg3.win w).isOut = true → Pipeline.arrRef spec3 w ≠ b) :
    W5 m ρ c (Proc.devRef .tc b) = W4 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [W5_arr]
    exact ((dat3 (V4 m ρ) c).arrAt_in w hin _).trans (A_eq3 (V4 m ρ) c w)
  · exact W5_of_ne m ρ c b fun w e => h ⟨w, e⟩

/-- Launch 4 leaves every buffer that is not one of its output arrays as it found it: an input array comes back as entered,
    and a buffer no window stages is untouched. -/
theorem W6_keep (c : Dev nD) (b : Ref sig .tc) (hb : ∀ w, (cfg4.win w).isOut = true → Pipeline.arrRef spec4 w ≠ b) :
    W6 m ρ c (Proc.devRef .tc b) = W5 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    rw [W6_arr]
    exact ((dat4 (V5 m ρ) c).arrAt_in w hin _).trans (A_eq4 (V5 m ρ) c w)
  · exact W6_of_ne m ρ c b fun w e => h ⟨w, e⟩

/-- The host reshapes write only their four results. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- An argument array at the end of the run holds its launch contents. -/
theorem W7_arg (c : Dev nD) (b : Ref sig .tc) (h9 : b ≠ main_v9)
    (h4 : ∀ w, (cfg4.win w).isOut = true → Pipeline.arrRef spec4 w ≠ b) (h3 : ∀ w, (cfg3.win w).isOut = true → Pipeline.arrRef spec3 w ≠ b)
    (h2 : ∀ w, (cfg2.win w).isOut = true → Pipeline.arrRef spec2 w ≠ b) (h1 : ∀ w, (cfg1.win w).isOut = true → Pipeline.arrRef spec1 w ≠ b)
    (h0 : ∀ w, (cfg0.win w).isOut = true → Pipeline.arrRef spec0 w ≠ b) (hh : b ∉ hostOps0_W) :
    W7 m ρ c (Proc.devRef .tc b) = m ((c : Thread nD τ).loc b) :=
  (W7_of_ne m ρ c b h9).trans <| (W6_keep m ρ c b h4).trans <| (W5_keep m ρ c b h3).trans <| (W4_keep m ρ c b h2).trans <|
    (W3_keep m ρ c b h1).trans <| (W2_keep m ρ c b h0).trans <| (W1_keep m ρ c b hh).trans rfl

/-- THE FRAME: every weakly fair execution of the program terminates, nothing faulting, and every final state has the
    twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_arg m ρ c main_arg0 (by decide) (by decide) (by decide) (by decide) (by decide) (by decide) (by decide)),
     (h c _ (mem_uc main_arg1 (by decide))).trans (W7_arg m ρ c main_arg1 (by decide) (by decide) (by decide) (by decide) (by decide) (by decide) (by decide)),
     (h c _ (mem_uc main_arg2 (by decide))).trans (W7_arg m ρ c main_arg2 (by decide) (by decide) (by decide) (by decide) (by decide) (by decide) (by decide)),
     (h c _ (mem_uc main_arg3 (by decide))).trans (W7_arg m ρ c main_arg3 (by decide) (by decide) (by decide) (by decide) (by decide) (by decide) (by decide)),
     (h c _ (mem_uc main_arg4 (by decide))).trans (W7_arg m ρ c main_arg4 (by decide) (by decide) (by decide) (by decide) (by decide) (by decide) (by decide)),
     (h c _ (mem_uc main_arg5 (by decide))).trans (W7_arg m ρ c main_arg5 (by decide) (by decide) (by decide) (by decide) (by decide) (by decide) (by decide)),
     (h c _ (mem_uc main_arg6 (by decide))).trans (W7_arg m ρ c main_arg6 (by decide) (by decide) (by decide) (by decide) (by decide) (by decide) (by decide)),
     (h c _ (mem_uc main_arg7 (by decide))).trans (W7_arg m ρ c main_arg7 (by decide) (by decide) (by decide) (by decide) (by decide) (by decide) (by decide)),
     (h c _ (mem_uc main_arg8 (by decide))).trans (W7_arg m ρ c main_arg8 (by decide) (by decide) (by decide) (by decide) (by decide) (by decide) (by decide)),
     (h c _ (mem_uc main_arg9 (by decide))).trans (W7_arg m ρ c main_arg9 (by decide) (by decide) (by decide) (by decide) (by decide) (by decide) (by decide)),
     (h c _ (mem_uc main_arg10 (by decide))).trans (W7_arg m ρ c main_arg10 (by decide) (by decide) (by decide) (by decide) (by decide) (by decide) (by decide)),
     (h c _ (mem_uc main_arg11 (by decide))).trans (W7_arg m ρ c main_arg11 (by decide) (by decide) (by decide) (by decide) (by decide) (by decide) (by decide))⟩)
    (run_all m ρ)

end Cert.KernelIdeal.Hand

end
-- ==== Proof.Spec.lean ====
/-
  The mathematics both programs compute, over the extended reals, as plain functions of matrices with literal index
  types. A graph-convolution branch over an adjacency matrix `adj` (4096 × 4096):
    h₁ = relu (adj · W₁),                x₁ = rownormalize h₁
    hₖ₊₁ = relu (adj · (xₖ · Wₖ₊₁)),     xₖ₊₁ = rownormalize hₖ₊₁   (k = 1, 2),      x₄ = relu (adj · (x₃ · W₄))
  where rownormalize divides each row by the larger of its Euclidean norm and a fixed small constant, and the branch's
  score column is ((score x₁ + score x₂) + score x₃) + score x₄ with `score` a three-layer perceptron applied row by
  row. The result is the element-by-element product of the two branches' score columns. Every sum is a finite sum of
  extended reals in which no factor is moved across a sum, so no finiteness is needed to compare two arrangements
  that differ only in how the rows are blocked.
-/
import Idealize.ShloMosaic.PureOps.Ideal
import Idealize.ShloMosaic.Lib.ValueIdx

noncomputable section

namespace Cert.Spec

open Idealize.ShloMosaic

/-- A matrix of extended reals with literal extents. -/
abbrev Mat (a b : ℕ) : Type := Fin a → Fin b → EReal

/-- The small constant under the row norm: the single-precision word both programs print. -/
abbrev eps : EReal := Ideal.ofBits .f32 0x2B8CBCCC#32

/-- One propagation: the adjacency times a right-hand side, clamped at zero. -/
def prop (adj : Mat 4096 4096) (rhs : Mat 4096 128) : Mat 4096 128 :=
  fun i j => max (∑ k : Fin 4096, adj i k * rhs k j) 0

/-- The divisor of row `i`: the larger of the row's Euclidean norm and `eps`. -/
def rowDiv (h : Mat 4096 128) (i : Fin 4096) : EReal :=
  max (Ideal.sqrt (∑ l : Fin 128, h i l * h i l)) eps

/-- Each row divided by its divisor. -/
def normalize (h : Mat 4096 128) : Mat 4096 128 :=
  fun i j => Ideal.div (h i j) (rowDiv h i)

/-- The product with a layer weight. -/
def times (x : Mat 4096 128) (w : Mat 128 128) : Mat 4096 128 :=
  fun i j => ∑ k : Fin 128, x i k * w k j

/-- The scoring head's parameters. -/
structure Head where
  l1w : Mat 128 256
  l1b : Fin 256 → EReal
  l2w : Mat 256 256
  l2b : Fin 256 → EReal
  l3w : Fin 256 → EReal
  l3b : EReal

/-- The first hidden layer of the head at row `i`. -/
def hid1 (H : Head) (x : Mat 4096 128) (i : Fin 4096) (k2 : Fin 256) : EReal :=
  max ((∑ k1 : Fin 128, x i k1 * H.l1w k1 k2) + H.l1b k2) 0

/-- The second hidden layer of the head at row `i`. -/
def hid2 (H : Head) (x : Mat 4096 128) (i : Fin 4096) (k : Fin 256) : EReal :=
  max ((∑ k2 : Fin 256, hid1 H x i k2 * H.l2w k2 k) + H.l2b k) 0

/-- The head's score of row `i`. -/
def score (H : Head) (x : Mat 4096 128) (i : Fin 4096) : EReal :=
  (∑ k : Fin 256, hid2 H x i k * H.l3w k) + H.l3b

/-- The four layers' features of one branch. -/
def x1 (adj : Mat 4096 4096) (W1 : Mat 4096 128) : Mat 4096 128 := normalize (prop adj W1)
def x2 (adj : Mat 4096 4096) (W1 : Mat 4096 128) (W2 : Mat 128 128) : Mat 4096 128 :=
  normalize (prop adj (times (x1 adj W1) W2))
def x3 (adj : Mat 4096 4096) (W1 : Mat 4096 128) (W2 W3 : Mat 128 128) : Mat 4096 128 :=
  normalize (prop adj (times (x2 adj W1 W2) W3))
def x4 (adj : Mat 4096 4096) (W1 : Mat 4096 128) (W2 W3 W4 : Mat 128 128) : Mat 4096 128 :=
  prop adj (times (x3 adj W1 W2 W3) W4)

/-- The running score column of one branch after each layer. -/
def s1 (H : Head) (adj : Mat 4096 4096) (W1 : Mat 4096 128) (i : Fin 4096) : EReal := score H (x1 adj W1) i
def s2 (H : Head) (adj : Mat 4096 4096) (W1 : Mat 4096 128) (W2 : Mat 128 128) (i : Fin 4096) : EReal :=
  s1 H adj W1 i + score H (x2 adj W1 W2) i
def s3 (H : Head) (adj : Mat 4096 4096) (W1 : Mat 4096 128) (W2 W3 : Mat 128 128) (i : Fin 4096) : EReal :=
  s2 H adj W1 W2 i + score H (x3 adj W1 W2 W3) i
def s4 (H : Head) (adj : Mat 4096 4096) (W1 : Mat 4096 128) (W2 W3 W4 : Mat 128 128) (i : Fin 4096) : EReal :=
  s3 H adj W1 W2 W3 i + score H (x4 adj W1 W2 W3 W4) i

/-- The result column: the product of the two branches' scores. -/
def result (H : Head) (adj1 adj2 : Mat 4096 4096) (W1 : Mat 4096 128) (W2 W3 W4 : Mat 128 128) (i : Fin 4096) : EReal :=
  s4 H adj1 W1 W2 W3 W4 i * s4 H adj2 W1 W2 W3 W4 i

/-! ## Arrays over shapes read as matrices -/

/-- The rank-2 shape of literal extents. -/
abbrev S2 (a b : ℕ) : Shape := ⟨2, ![a, b]⟩
/-- The rank-1 shape of a literal extent. -/
abbrev S1 (a : ℕ) : Shape := ⟨1, ![a]⟩

/-- A rank-2 array as a matrix. -/
def mat {a b : ℕ} (f : (S2 a b).Idx → EReal) : Mat a b := fun i j => f (ValueIdx.ix2 i j)
/-- A rank-1 array as a vector. -/
def vec {a : ℕ} (f : (S1 a).Idx → EReal) : Fin a → EReal := fun i => f (ValueIdx.ix1 i)

/-- The head's parameters from the six argument arrays as the programs take them. -/
def head (l1w : (S2 128 256).Idx → EReal) (l1b : (S1 256).Idx → EReal) (l2w : (S2 256 256).Idx → EReal) (l2b : (S1 256).Idx → EReal)
    (l3w : (S2 256 1).Idx → EReal) (l3b : (S1 1).Idx → EReal) : Head where
  l1w := mat l1w
  l1b := vec l1b
  l2w := mat l2w
  l2b := vec l2b
  l3w := fun k => l3w (ValueIdx.ix2 k 0)
  l3b := l3b (ValueIdx.ix1 0)

/-- The result array (4096 × 1) as a function of the twelve argument arrays. -/
def outArr (a1 a2 : (S2 4096 4096).Idx → EReal) (w1 : (S2 4096 128).Idx → EReal) (w2 w3 w4 : (S2 128 128).Idx → EReal)
    (l1w : (S2 128 256).Idx → EReal) (l1b : (S1 256).Idx → EReal) (l2w : (S2 256 256).Idx → EReal) (l2b : (S1 256).Idx → EReal)
    (l3w : (S2 256 1).Idx → EReal) (l3b : (S1 1).Idx → EReal) : (S2 4096 1).Idx → EReal :=
  fun j => result (head l1w l1b l2w l2b l3w l3b) (mat a1) (mat a2) (mat w1) (mat w2) (mat w3) (mat w4) (j 0)

end Cert.Spec

end
-- ==== Proof.RefValue.Feat.lean ====
/-
  The feature stages of one branch of the reference read as the specification's matrices. The stage that multiplies
  an adjacency array by a right-hand side and clamps at zero is Spec.prop of the two arrays as matrices; the stages from
  the square to the quotient are Spec.normalize (row sums of squares from the zero word, the square root, the larger of
  it and the small constant, the quotient); a product with a layer weight is Spec.times. Composed, the four feature
  stages are Spec.x1 … Spec.x4 of the branch's adjacency and the four weights. Every statement is over an arbitrary
  adjacency array, so it serves both branches.
-/
import proofs.«132566_g10127532884217_week1_w1_345_7_alg».proof.Proof.Gen.ReferenceIdeal.Read
import proofs.«132566_g10127532884217_week1_w1_345_7_alg».proof.Proof.Spec

noncomputable section

namespace Cert.RefSide

open Cert.ReferenceIdeal Cert.ReferenceIdeal.Read Idealize.ShloMosaic Idealize.ShloMosaic.ValueIdx

/-- relu (adj · rhs) at (i, j) is the clamped row-by-column sum. -/
theorem prop_read (x0 : (⟨S4096x4096, .f32⟩ : BufTy).Contents (Elt Ideal)) (x2 : (⟨S4096x128, .f32⟩ : BufTy).Contents (Elt Ideal)) (i : Fin 4096) (j : Fin 128) :
    val_main_v1 (F := Ideal) x0 x2 (ix2 i j) = Spec.prop (Spec.mat x0) (Spec.mat x2) i j := by
  rw [val_main_v1_apply, val_main_v0_apply, val_main_call0_v0_apply, val_main_call0_cst_apply]
  have el : ∀ k : Fin 4096, lidx_main_v0 (ix2 i j) k = ix2 i k := fun k =>
    funext fun a => Fin.ext (by match a with | ⟨0, _⟩ => rfl | ⟨1, _⟩ => rfl)
  have er : ∀ k : Fin 4096, ridx_main_v0 (ix2 i j) k = ix2 k j := fun k =>
    funext fun a => Fin.ext (by match a with | ⟨0, _⟩ => rfl | ⟨1, _⟩ => rfl)
  simp only [el, er, Ideal.maximumf_def, Ideal.ofBits_def, Ideal.ofBits_zero_f32]
  rfl

theorem prop_mat (x0 : (⟨S4096x4096, .f32⟩ : BufTy).Contents (Elt Ideal)) (x2 : (⟨S4096x128, .f32⟩ : BufTy).Contents (Elt Ideal)) :
    Spec.mat (val_main_v1 (F := Ideal) x0 x2) = Spec.prop (Spec.mat x0) (Spec.mat x2) :=
  funext fun i => funext fun j => prop_read x0 x2 i j

/-- The later propagations are the first propagation's stage applied to the previous layer's product: the same
    operations on another right-hand side. -/
theorem prop2_eq (x0 : (⟨S4096x4096, .f32⟩ : BufTy).Contents (Elt Ideal)) (x2 : (⟨S4096x128, .f32⟩ : BufTy).Contents (Elt Ideal)) (x3 : (⟨S128x128, .f32⟩ : BufTy).Contents (Elt Ideal)) :
    val_main_v12 (F := Ideal) x0 x2 x3 = val_main_v1 (F := Ideal) x0 (val_main_v10 (F := Ideal) x0 x2 x3) := rfl
theorem prop3_eq (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) :
    val_main_v23 (F := Ideal) x0 x2 x3 x4 = val_main_v1 (F := Ideal) x0 (val_main_v21 (F := Ideal) x0 x2 x3 x4) := rfl
theorem prop4_eq (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) :
    val_main_v34 (F := Ideal) x0 x2 x3 x4 x5 = val_main_v1 (F := Ideal) x0 (val_main_v32 (F := Ideal) x0 x2 x3 x4 x5) := rfl

/-- The normalized features of layer 1: each entry of the clamped propagation divided by the larger of its row's
    Euclidean norm and the small constant. -/
theorem norm1_read (x0 : (⟨S4096x4096, .f32⟩ : BufTy).Contents (Elt Ideal)) (x2 : (⟨S4096x128, .f32⟩ : BufTy).Contents (Elt Ideal)) (i : Fin 4096) (j : Fin 128) :
    val_main_v9 (F := Ideal) x0 x2 (ix2 i j) = Spec.normalize (Spec.mat (val_main_v1 (F := Ideal) x0 x2)) i j := by
  rw [val_main_v9_apply, val_main_v8_apply, val_main_v7_apply, val_main_v6_apply, val_main_cst_0_apply,
    val_main_v5_apply, val_main_v4_apply, val_main_v3_apply, val_main_cst_apply]
  have hidx : ∀ k : Fin 128, idx_main_v3 (idx_main_v4 (idx_main_v8 (ix2 i j))) k = ix2 i k := fun k =>
    funext fun a => Fin.ext (by match a with | ⟨0, _⟩ => rfl | ⟨1, _⟩ => rfl)
  simp only [hidx, val_main_v2_apply, Ideal.hostDivf_def, Ideal.maximumf_def, Ideal.hostUnary_sqrt_def, Ideal.mulf_def,
    Ideal.ofBits_def, Ideal.ofBits_zero_f32, zero_add]
  rfl

theorem norm1_mat (x0 : (⟨S4096x4096, .f32⟩ : BufTy).Contents (Elt Ideal)) (x2 : (⟨S4096x128, .f32⟩ : BufTy).Contents (Elt Ideal)) :
    Spec.mat (val_main_v9 (F := Ideal) x0 x2) = Spec.normalize (Spec.mat (val_main_v1 (F := Ideal) x0 x2)) :=
  funext fun i => funext fun j => norm1_read x0 x2 i j

/-- The normalized features of layer 2: each entry of the clamped propagation divided by the larger of its row's
    Euclidean norm and the small constant. -/
theorem norm2_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (i : Fin 4096) (j : Fin 128) :
    val_main_v20 (F := Ideal) x0 x2 x3 (ix2 i j) = Spec.normalize (Spec.mat (val_main_v12 (F := Ideal) x0 x2 x3)) i j := by
  rw [val_main_v20_apply, val_main_v19_apply, val_main_v18_apply, val_main_v17_apply, val_main_cst_2_apply,
    val_main_v16_apply, val_main_v15_apply, val_main_v14_apply, val_main_cst_1_apply]
  have hidx : ∀ k : Fin 128, idx_main_v14 (idx_main_v15 (idx_main_v19 (ix2 i j))) k = ix2 i k := fun k =>
    funext fun a => Fin.ext (by match a with | ⟨0, _⟩ => rfl | ⟨1, _⟩ => rfl)
  simp only [hidx, val_main_v13_apply, Ideal.hostDivf_def, Ideal.maximumf_def, Ideal.hostUnary_sqrt_def, Ideal.mulf_def,
    Ideal.ofBits_def, Ideal.ofBits_zero_f32, zero_add]
  rfl

theorem norm2_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) :
    Spec.mat (val_main_v20 (F := Ideal) x0 x2 x3) = Spec.normalize (Spec.mat (val_main_v12 (F := Ideal) x0 x2 x3)) :=
  funext fun i => funext fun j => norm2_read x0 x2 x3 i j

/-- The normalized features of layer 3: each entry of the clamped propagation divided by the larger of its row's
    Euclidean norm and the small constant. -/
theorem norm3_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (i : Fin 4096) (j : Fin 128) :
    val_main_v31 (F := Ideal) x0 x2 x3 x4 (ix2 i j) = Spec.normalize (Spec.mat (val_main_v23 (F := Ideal) x0 x2 x3 x4)) i j := by
  rw [val_main_v31_apply, val_main_v30_apply, val_main_v29_apply, val_main_v28_apply, val_main_cst_4_apply,
    val_main_v27_apply, val_main_v26_apply, val_main_v25_apply, val_main_cst_3_apply]
  have hidx : ∀ k : Fin 128, idx_main_v25 (idx_main_v26 (idx_main_v30 (ix2 i j))) k = ix2 i k := fun k =>
    funext fun a => Fin.ext (by match a with | ⟨0, _⟩ => rfl | ⟨1, _⟩ => rfl)
  simp only [hidx, val_main_v24_apply, Ideal.hostDivf_def, Ideal.maximumf_def, Ideal.hostUnary_sqrt_def, Ideal.mulf_def,
    Ideal.ofBits_def, Ideal.ofBits_zero_f32, zero_add]
  rfl

theorem norm3_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) :
    Spec.mat (val_main_v31 (F := Ideal) x0 x2 x3 x4) = Spec.normalize (Spec.mat (val_main_v23 (F := Ideal) x0 x2 x3 x4)) :=
  funext fun i => funext fun j => norm3_read x0 x2 x3 x4 i j

/-- The layer-1 features times the next layer's weight. -/
theorem times1_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (i : Fin 4096) (j : Fin 128) :
    val_main_v10 (F := Ideal) x0 x2 x3 (ix2 i j) = Spec.times (Spec.mat (val_main_v9 (F := Ideal) x0 x2)) (Spec.mat x3) i j := by
  rw [val_main_v10_apply]
  have el : ∀ k : Fin 128, lidx_main_v10 (ix2 i j) k = ix2 i k := fun k =>
    funext fun a => Fin.ext (by match a with | ⟨0, _⟩ => rfl | ⟨1, _⟩ => rfl)
  have er : ∀ k : Fin 128, ridx_main_v10 (ix2 i j) k = ix2 k j := fun k =>
    funext fun a => Fin.ext (by match a with | ⟨0, _⟩ => rfl | ⟨1, _⟩ => rfl)
  simp only [el, er]
  rfl

theorem times1_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) :
    Spec.mat (val_main_v10 (F := Ideal) x0 x2 x3) = Spec.times (Spec.mat (val_main_v9 (F := Ideal) x0 x2)) (Spec.mat x3) :=
  funext fun i => funext fun j => times1_read x0 x2 x3 i j

/-- The layer-2 features times the next layer's weight. -/
theorem times2_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (i : Fin 4096) (j : Fin 128) :
    val_main_v21 (F := Ideal) x0 x2 x3 x4 (ix2 i j) = Spec.times (Spec.mat (val_main_v20 (F := Ideal) x0 x2 x3)) (Spec.mat x4) i j := by
  rw [val_main_v21_apply]
  have el : ∀ k : Fin 128, lidx_main_v21 (ix2 i j) k = ix2 i k := fun k =>
    funext fun a => Fin.ext (by match a with | ⟨0, _⟩ => rfl | ⟨1, _⟩ => rfl)
  have er : ∀ k : Fin 128, ridx_main_v21 (ix2 i j) k = ix2 k j := fun k =>
    funext fun a => Fin.ext (by match a with | ⟨0, _⟩ => rfl | ⟨1, _⟩ => rfl)
  simp only [el, er]
  rfl

theorem times2_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) :
    Spec.mat (val_main_v21 (F := Ideal) x0 x2 x3 x4) = Spec.times (Spec.mat (val_main_v20 (F := Ideal) x0 x2 x3)) (Spec.mat x4) :=
  funext fun i => funext fun j => times2_read x0 x2 x3 x4 i j

/-- The layer-3 features times the next layer's weight. -/
theorem times3_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (i : Fin 4096) (j : Fin 128) :
    val_main_v32 (F := Ideal) x0 x2 x3 x4 x5 (ix2 i j) = Spec.times (Spec.mat (val_main_v31 (F := Ideal) x0 x2 x3 x4)) (Spec.mat x5) i j := by
  rw [val_main_v32_apply]
  have el : ∀ k : Fin 128, lidx_main_v32 (ix2 i j) k = ix2 i k := fun k =>
    funext fun a => Fin.ext (by match a with | ⟨0, _⟩ => rfl | ⟨1, _⟩ => rfl)
  have er : ∀ k : Fin 128, ridx_main_v32 (ix2 i j) k = ix2 k j := fun k =>
    funext fun a => Fin.ext (by match a with | ⟨0, _⟩ => rfl | ⟨1, _⟩ => rfl)
  simp only [el, er]
  rfl

theorem times3_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) :
    Spec.mat (val_main_v32 (F := Ideal) x0 x2 x3 x4 x5) = Spec.times (Spec.mat (val_main_v31 (F := Ideal) x0 x2 x3 x4)) (Spec.mat x5) :=
  funext fun i => funext fun j => times3_read x0 x2 x3 x4 x5 i j

/-- The four feature matrices of a branch. -/
theorem x1_mat (x0 : (⟨S4096x4096, .f32⟩ : BufTy).Contents (Elt Ideal)) (x2 : (⟨S4096x128, .f32⟩ : BufTy).Contents (Elt Ideal)) :
    Spec.mat (val_main_v9 (F := Ideal) x0 x2) = Spec.x1 (Spec.mat x0) (Spec.mat x2) := by
  rw [norm1_mat, prop_mat]; rfl

theorem x2_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) :
    Spec.mat (val_main_v20 (F := Ideal) x0 x2 x3) = Spec.x2 (Spec.mat x0) (Spec.mat x2) (Spec.mat x3) := by
  rw [norm2_mat, prop2_eq, prop_mat, times1_mat, x1_mat]; rfl

theorem x3_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) :
    Spec.mat (val_main_v31 (F := Ideal) x0 x2 x3 x4) = Spec.x3 (Spec.mat x0) (Spec.mat x2) (Spec.mat x3) (Spec.mat x4) := by
  rw [norm3_mat, prop3_eq, prop_mat, times2_mat, x2_mat]; rfl

theorem x4_mat (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) :
    Spec.mat (val_main_v34 (F := Ideal) x0 x2 x3 x4 x5) = Spec.x4 (Spec.mat x0) (Spec.mat x2) (Spec.mat x3) (Spec.mat x4) (Spec.mat x5) := by
  rw [prop4_eq, prop_mat, times3_mat, x3_mat]; rfl

end Cert.RefSide

end
-- ==== Proof.RefValue.Head.lean ====
/-
  The scoring head of the reference read as the specification's: on each of the four feature stages of a branch, the
  stages from the first product with the head's weights to the last bias are Spec.score of the head's six parameter
  arrays and the feature stage as a matrix, at row i. Each hidden unit is a row-by-column sum plus its bias (the bias
  vector broadcast along the rows), clamped at zero; the read-out is a sum over the 256 second-layer units plus the
  scalar bias. Every statement is over an arbitrary adjacency array, so it serves both branches.
-/
import proofs.«132566_g10127532884217_week1_w1_345_7_alg».proof.Proof.Gen.ReferenceIdeal.Read
import proofs.«132566_g10127532884217_week1_w1_345_7_alg».proof.Proof.Spec

noncomputable section

namespace Cert.RefSide

open Cert.ReferenceIdeal Cert.ReferenceIdeal.Read Idealize.ShloMosaic Idealize.ShloMosaic.ValueIdx

/-- The scoring head on the layer-1 features: two clamped affine layers and the affine read-out, row by row. -/
theorem score1_read (x0 : (⟨S4096x4096, .f32⟩ : BufTy).Contents (Elt Ideal)) (x2 : (⟨S4096x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v48 (F := Ideal) x0 x2 x6 x7 x8 x9 x10 x11 (ix2 i (0 : Fin 1)) =
      Spec.score (Spec.head x6 x7 x8 x9 x10 x11) (Spec.mat (val_main_v9 (F := Ideal) x0 x2)) i := by
  have e3l : ∀ k : Fin 256, lidx_main_v45 (ix2 i (0 : Fin 1)) k = ix2 i k := fun k => funext fun a => Fin.ext (by match a with | ⟨0, _⟩ => rfl | ⟨1, _⟩ => rfl)
  have e3r : ∀ k : Fin 256, ridx_main_v45 (ix2 i (0 : Fin 1)) k = ix2 k (0 : Fin 1) := fun k => funext fun a => Fin.ext (by match a with | ⟨0, _⟩ => rfl | ⟨1, _⟩ => rfl)
  have e2l : ∀ k k2 : Fin 256, lidx_main_v40 (ix2 i k) k2 = ix2 i k2 := fun k k2 => funext fun a => Fin.ext (by match a with | ⟨0, _⟩ => rfl | ⟨1, _⟩ => rfl)
  have e2r : ∀ k k2 : Fin 256, ridx_main_v40 (ix2 i k) k2 = ix2 k2 k := fun k k2 => funext fun a => Fin.ext (by match a with | ⟨0, _⟩ => rfl | ⟨1, _⟩ => rfl)
  have e1l : ∀ (k2 : Fin 256) (k1 : Fin 128), lidx_main_v35 (ix2 i k2) k1 = ix2 i k1 := fun k2 k1 => funext fun a => Fin.ext (by match a with | ⟨0, _⟩ => rfl | ⟨1, _⟩ => rfl)
  have e1r : ∀ (k2 : Fin 256) (k1 : Fin 128), ridx_main_v35 (ix2 i k2) k1 = ix2 k1 k2 := fun k2 k1 => funext fun a => Fin.ext (by match a with | ⟨0, _⟩ => rfl | ⟨1, _⟩ => rfl)
  have b1 : ∀ k2 : Fin 256, idx_main_v36 (idx_main_v37 (ix2 i k2)) = ix1 k2 := fun k2 => funext fun a => Fin.ext (by match a with | ⟨0, _⟩ => rfl)
  have b2 : ∀ k : Fin 256, idx_main_v41 (idx_main_v42 (ix2 i k)) = ix1 k := fun k => funext fun a => Fin.ext (by match a with | ⟨0, _⟩ => rfl)
  have b3 : idx_main_v46 (idx_main_v47 (ix2 i (0 : Fin 1))) = ix1 (0 : Fin 1) := funext fun a => Fin.ext (by match a with | ⟨0, _⟩ => rfl)
  simp only [val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_call4_v0_apply, val_main_call4_cst_apply, val_main_call5_v0_apply, val_main_call5_cst_apply,
    e3l, e3r, e2l, e2r, e1l, e1r, b1, b2, b3, Ideal.addf_def, Ideal.maximumf_def, Ideal.ofBits_def, Ideal.ofBits_zero_f32]
  rfl

/-- The scoring head on the layer-2 features: two clamped affine layers and the affine read-out, row by row. -/
theorem score2_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v62 (F := Ideal) x0 x2 x3 x6 x7 x8 x9 x10 x11 (ix2 i (0 : Fin 1)) =
      Spec.score (Spec.head x6 x7 x8 x9 x10 x11) (Spec.mat (val_main_v20 (F := Ideal) x0 x2 x3)) i := by
  have e3l : ∀ k : Fin 256, lidx_main_v59 (ix2 i (0 : Fin 1)) k = ix2 i k := fun k => funext fun a => Fin.ext (by match a with | ⟨0, _⟩ => rfl | ⟨1, _⟩ => rfl)
  have e3r : ∀ k : Fin 256, ridx_main_v59 (ix2 i (0 : Fin 1)) k = ix2 k (0 : Fin 1) := fun k => funext fun a => Fin.ext (by match a with | ⟨0, _⟩ => rfl | ⟨1, _⟩ => rfl)
  have e2l : ∀ k k2 : Fin 256, lidx_main_v54 (ix2 i k) k2 = ix2 i k2 := fun k k2 => funext fun a => Fin.ext (by match a with | ⟨0, _⟩ => rfl | ⟨1, _⟩ => rfl)
  have e2r : ∀ k k2 : Fin 256, ridx_main_v54 (ix2 i k) k2 = ix2 k2 k := fun k k2 => funext fun a => Fin.ext (by match a with | ⟨0, _⟩ => rfl | ⟨1, _⟩ => rfl)
  have e1l : ∀ (k2 : Fin 256) (k1 : Fin 128), lidx_main_v49 (ix2 i k2) k1 = ix2 i k1 := fun k2 k1 => funext fun a => Fin.ext (by match a with | ⟨0, _⟩ => rfl | ⟨1, _⟩ => rfl)
  have e1r : ∀ (k2 : Fin 256) (k1 : Fin 128), ridx_main_v49 (ix2 i k2) k1 = ix2 k1 k2 := fun k2 k1 => funext fun a => Fin.ext (by match a with | ⟨0, _⟩ => rfl | ⟨1, _⟩ => rfl)
  have b1 : ∀ k2 : Fin 256, idx_main_v50 (idx_main_v51 (ix2 i k2)) = ix1 k2 := fun k2 => funext fun a => Fin.ext (by match a with | ⟨0, _⟩ => rfl)
  have b2 : ∀ k : Fin 256, idx_main_v55 (idx_main_v56 (ix2 i k)) = ix1 k := fun k => funext fun a => Fin.ext (by match a with | ⟨0, _⟩ => rfl)
  have b3 : idx_main_v60 (idx_main_v61 (ix2 i (0 : Fin 1))) = ix1 (0 : Fin 1) := funext fun a => Fin.ext (by match a with | ⟨0, _⟩ => rfl)
  simp only [val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_call6_v0_apply, val_main_call6_cst_apply, val_main_call7_v0_apply, val_main_call7_cst_apply,
    e3l, e3r, e2l, e2r, e1l, e1r, b1, b2, b3, Ideal.addf_def, Ideal.maximumf_def, Ideal.ofBits_def, Ideal.ofBits_zero_f32]
  rfl

/-- The scoring head on the layer-3 features: two clamped affine layers and the affine read-out, row by row. -/
theorem score3_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v77 (F := Ideal) x0 x2 x3 x4 x6 x7 x8 x9 x10 x11 (ix2 i (0 : Fin 1)) =
      Spec.score (Spec.head x6 x7 x8 x9 x10 x11) (Spec.mat (val_main_v31 (F := Ideal) x0 x2 x3 x4)) i := by
  have e3l : ∀ k : Fin 256, lidx_main_v74 (ix2 i (0 : Fin 1)) k = ix2 i k := fun k => funext fun a => Fin.ext (by match a with | ⟨0, _⟩ => rfl | ⟨1, _⟩ => rfl)
  have e3r : ∀ k : Fin 256, ridx_main_v74 (ix2 i (0 : Fin 1)) k = ix2 k (0 : Fin 1) := fun k => funext fun a => Fin.ext (by match a with | ⟨0, _⟩ => rfl | ⟨1, _⟩ => rfl)
  have e2l : ∀ k k2 : Fin 256, lidx_main_v69 (ix2 i k) k2 = ix2 i k2 := fun k k2 => funext fun a => Fin.ext (by match a with | ⟨0, _⟩ => rfl | ⟨1, _⟩ => rfl)
  have e2r : ∀ k k2 : Fin 256, ridx_main_v69 (ix2 i k) k2 = ix2 k2 k := fun k k2 => funext fun a => Fin.ext (by match a with | ⟨0, _⟩ => rfl | ⟨1, _⟩ => rfl)
  have e1l : ∀ (k2 : Fin 256) (k1 : Fin 128), lidx_main_v64 (ix2 i k2) k1 = ix2 i k1 := fun k2 k1 => funext fun a => Fin.ext (by match a with | ⟨0, _⟩ => rfl | ⟨1, _⟩ => rfl)
  have e1r : ∀ (k2 : Fin 256) (k1 : Fin 128), ridx_main_v64 (ix2 i k2) k1 = ix2 k1 k2 := fun k2 k1 => funext fun a => Fin.ext (by match a with | ⟨0, _⟩ => rfl | ⟨1, _⟩ => rfl)
  have b1 : ∀ k2 : Fin 256, idx_main_v65 (idx_main_v66 (ix2 i k2)) = ix1 k2 := fun k2 => funext fun a => Fin.ext (by match a with | ⟨0, _⟩ => rfl)
  have b2 : ∀ k : Fin 256, idx_main_v70 (idx_main_v71 (ix2 i k)) = ix1 k := fun k => funext fun a => Fin.ext (by match a with | ⟨0, _⟩ => rfl)
  have b3 : idx_main_v75 (idx_main_v76 (ix2 i (0 : Fin 1))) = ix1 (0 : Fin 1) := funext fun a => Fin.ext (by match a with | ⟨0, _⟩ => rfl)
  simp only [val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_call8_v0_apply, val_main_call8_cst_apply, val_main_call9_v0_apply, val_main_call9_cst_apply,
    e3l, e3r, e2l, e2r, e1l, e1r, b1, b2, b3, Ideal.addf_def, Ideal.maximumf_def, Ideal.ofBits_def, Ideal.ofBits_zero_f32]
  rfl

/-- The scoring head on the layer-4 features: two clamped affine layers and the affine read-out, row by row. -/
theorem score4_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v92 (F := Ideal) x0 x2 x3 x4 x5 x6 x7 x8 x9 x10 x11 (ix2 i (0 : Fin 1)) =
      Spec.score (Spec.head x6 x7 x8 x9 x10 x11) (Spec.mat (val_main_v34 (F := Ideal) x0 x2 x3 x4 x5)) i := by
  have e3l : ∀ k : Fin 256, lidx_main_v89 (ix2 i (0 : Fin 1)) k = ix2 i k := fun k => funext fun a => Fin.ext (by match a with | ⟨0, _⟩ => rfl | ⟨1, _⟩ => rfl)
  have e3r : ∀ k : Fin 256, ridx_main_v89 (ix2 i (0 : Fin 1)) k = ix2 k (0 : Fin 1) := fun k => funext fun a => Fin.ext (by match a with | ⟨0, _⟩ => rfl | ⟨1, _⟩ => rfl)
  have e2l : ∀ k k2 : Fin 256, lidx_main_v84 (ix2 i k) k2 = ix2 i k2 := fun k k2 => funext fun a => Fin.ext (by match a with | ⟨0, _⟩ => rfl | ⟨1, _⟩ => rfl)
  have e2r : ∀ k k2 : Fin 256, ridx_main_v84 (ix2 i k) k2 = ix2 k2 k := fun k k2 => funext fun a => Fin.ext (by match a with | ⟨0, _⟩ => rfl | ⟨1, _⟩ => rfl)
  have e1l : ∀ (k2 : Fin 256) (k1 : Fin 128), lidx_main_v79 (ix2 i k2) k1 = ix2 i k1 := fun k2 k1 => funext fun a => Fin.ext (by match a with | ⟨0, _⟩ => rfl | ⟨1, _⟩ => rfl)
  have e1r : ∀ (k2 : Fin 256) (k1 : Fin 128), ridx_main_v79 (ix2 i k2) k1 = ix2 k1 k2 := fun k2 k1 => funext fun a => Fin.ext (by match a with | ⟨0, _⟩ => rfl | ⟨1, _⟩ => rfl)
  have b1 : ∀ k2 : Fin 256, idx_main_v80 (idx_main_v81 (ix2 i k2)) = ix1 k2 := fun k2 => funext fun a => Fin.ext (by match a with | ⟨0, _⟩ => rfl)
  have b2 : ∀ k : Fin 256, idx_main_v85 (idx_main_v86 (ix2 i k)) = ix1 k := fun k => funext fun a => Fin.ext (by match a with | ⟨0, _⟩ => rfl)
  have b3 : idx_main_v90 (idx_main_v91 (ix2 i (0 : Fin 1))) = ix1 (0 : Fin 1) := funext fun a => Fin.ext (by match a with | ⟨0, _⟩ => rfl)
  simp only [val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_call10_v0_apply, val_main_call10_cst_apply, val_main_call11_v0_apply, val_main_call11_cst_apply,
    e3l, e3r, e2l, e2r, e1l, e1r, b1, b2, b3, Ideal.addf_def, Ideal.maximumf_def, Ideal.ofBits_def, Ideal.ofBits_zero_f32]
  rfl

end Cert.RefSide

end
-- ==== Proof.RefValue.lean ====
/-
  The reference's result is the specification's. A branch's running score column after each layer is the previous
  column plus the head's score of that layer's features, so the last one is Spec.s4 of the branch's adjacency; the
  second branch applies the same operations to the other adjacency array, so its stages are the first branch's stage
  functions at that array; the result is the element-by-element product of the two columns, read at row i of the one
  column of a 4096 × 1 array.
-/
import proofs.«132566_g10127532884217_week1_w1_345_7_alg».proof.Proof.RefValue.Feat
import proofs.«132566_g10127532884217_week1_w1_345_7_alg».proof.Proof.RefValue.Head

noncomputable section

namespace Cert.RefSide

open Cert.ReferenceIdeal Cert.ReferenceIdeal.Read Idealize.ShloMosaic Idealize.ShloMosaic.ValueIdx

/-- The running score column of a branch after the first layer. -/
theorem s1_read (x0 : (⟨S4096x4096, .f32⟩ : BufTy).Contents (Elt Ideal)) (x2 : (⟨S4096x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v48 (F := Ideal) x0 x2 x6 x7 x8 x9 x10 x11 (ix2 i (0 : Fin 1)) = Spec.s1 (Spec.head x6 x7 x8 x9 x10 x11) (Spec.mat x0) (Spec.mat x2) i := by
  rw [score1_read, x1_mat]; rfl

/-- … after the second layer. -/
theorem s2_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v63 (F := Ideal) x0 x2 x3 x6 x7 x8 x9 x10 x11 (ix2 i (0 : Fin 1)) = Spec.s2 (Spec.head x6 x7 x8 x9 x10 x11) (Spec.mat x0) (Spec.mat x2) (Spec.mat x3) i := by
  rw [val_main_v63_apply, s1_read, score2_read, x2_mat]; rfl

/-- … after the third layer. -/
theorem s3_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v78 (F := Ideal) x0 x2 x3 x4 x6 x7 x8 x9 x10 x11 (ix2 i (0 : Fin 1)) =
      Spec.s3 (Spec.head x6 x7 x8 x9 x10 x11) (Spec.mat x0) (Spec.mat x2) (Spec.mat x3) (Spec.mat x4) i := by
  rw [val_main_v78_apply, s2_read, score3_read, x3_mat]; rfl

/-- … after the fourth layer: the branch's score column. -/
theorem s4_read (x0 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (i : Fin 4096) :
    val_main_v93 (F := Ideal) x0 x2 x3 x4 x5 x6 x7 x8 x9 x10 x11 (ix2 i (0 : Fin 1)) =
      Spec.s4 (Spec.head x6 x7 x8 x9 x10 x11) (Spec.mat x0) (Spec.mat x2) (Spec.mat x3) (Spec.mat x4) (Spec.mat x5) i := by
  rw [val_main_v93_apply, s3_read, score4_read, x4_mat]; rfl

/-- The second branch's last stage is the first branch's stage function at the second adjacency array: the two
    branches are the same operations, in the same order, on the same weights. -/
theorem branch2_eq (x1 : (⟨S4096x4096, .f32⟩ : BufTy).Contents (Elt Ideal)) (x2 : (⟨S4096x128, .f32⟩ : BufTy).Contents (Elt Ideal)) (x3 : (⟨S128x128, .f32⟩ : BufTy).Contents (Elt Ideal)) (x4 : (⟨S128x128, .f32⟩ : BufTy).Contents (Elt Ideal)) (x5 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) :
    val_main_v187 (F := Ideal) x1 x2 x3 x4 x5 x6 x7 x8 x9 x10 x11 = val_main_v93 (F := Ideal) x1 x2 x3 x4 x5 x6 x7 x8 x9 x10 x11 := rfl

/-- The reference's result array is the specification's result array. -/
theorem ref_is_spec (x0 x1 : (⟨S4096x4096, .f32⟩ : BufTy).Contents (Elt Ideal)) (x2 : (⟨S4096x128, .f32⟩ : BufTy).Contents (Elt Ideal)) (x3 x4 x5 : (⟨S128x128, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) :
    Cert.ReferenceIdeal.Read.val_main_v188 (F := Ideal) x0 x1 x2 x3 x4 x5 x6 x7 x8 x9 x10 x11 = Cert.Spec.outArr x0 x1 x2 x3 x4 x5 x6 x7 x8 x9 x10 x11 := by
  funext j
  obtain ⟨i, c, rfl⟩ : ∃ (i : Fin 4096) (c : Fin 1), j = ix2 i c := ⟨j 0, j 1, eq_ix2 j⟩
  obtain rfl : c = 0 := Subsingleton.elim _ _
  rw [val_main_v188_apply, branch2_eq, s4_read, s4_read]
  rfl

end Cert.RefSide

end
-- ==== Proof.KernelIdeal.ValueLib.lean ====
/-
  The vector operations the graph-convolution launches share, each read at one index over the extended reals and
  stated over variables of the literal vector types: a matrix product into a zero accumulator is the sum over the
  contracted coordinate; a sum along the lanes of a row is the sum over the lane coordinate; a column [a] cast to
  [a, 1] and a column [a, 1] broadcast along the lanes read the column's entry of that row; the zero literal is 0.
-/
import proofs.«132566_g10127532884217_week1_w1_345_7_alg».proof.Proof.Gen.KernelIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.ValueIdx

/-- The zero offsets of a whole-block rectangle. -/
theorem zeroOff : (![0, 0] : Fin 2 → Nat) = fun _ => 0 := funext fun a => by fin_cases a <;> rfl

/-- The single-precision zero word is the extended real 0. -/
theorem zeroWord : (Scalar.ofBits .f32 0x00000000#32 : Ideal .f32) = 0 := Ideal.ofBits_zero_f32

/-- Two indices with the same coordinates read the same entry. -/
theorem readAt {S : Shape} (f : S.Idx → EReal) (i j : S.Idx) (h : ∀ a, (i a).val = (j a).val) : f i = f j :=
  congrArg f (funext fun a => Fin.ext (h a))

/-- The square root at an index. -/
theorem sqrt_apply {s : Shape} {φ : FTy} (a : FVec Ideal s φ) (i : s.Idx) : sqrt a i = Ideal.sqrt (a i) := rfl

section Layout
variable {α : Type}

/-- A column [a] cast to [a, 1] reads, at row p, the column's entry p. -/
theorem colCast_apply {a : ℕ} (v : (⟨1, ![a]⟩ : Shape).Idx → α) (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_two, Shape.rowMajor_val_one]
    show p.val = p.val * 1 + z.val
    omega)

/-- A column [a, 1] broadcast along the lanes to [a, b] reads, at (p, j), the column's entry of row p. -/
theorem colBcast_apply {a b : ℕ} (v : (⟨2, ![a, 1]⟩ : Shape).Idx → α) (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

end Layout

/-- A sum along the lanes of a row, from the zero word: the sum over the lane coordinate. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v ?_
  funext d
  match d with
  | ⟨0, _⟩ => rfl
  | ⟨1, _⟩ => rfl

/-! ### The product of a 512 × 4096 block by a 4096 × 128 block -/

theorem mmAdj_l0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl

theorem mmAdj_r1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- Entry (p, j) of the product into a zero accumulator: the sum over the contracted coordinate. -/
theorem mmAdj_apply {φ₁ φ₂ : FTy} (x : FVec Ideal S512x4096 φ₁) (w : FVec Ideal S4096x128 φ₂) (p : Fin 512) (j : Fin 128) :
    matmul dot_S512x4096_S4096x128_S512x128_1_0_0_1_n_n none x w (constant S512x128 .f32 0x00000000#32) (ix2 p j) = ∑ q : Fin 4096, x (ix2 p q) * w (ix2 q j) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p j) ((contrEquiv1 dot_S512x4096_S4096x128_S512x128_1_0_0_1_n_n 4096 rfl rfl).symm k) = ix2 p k := funext fun a => Fin.ext (by
    match a with
    | ⟨0, _⟩ => exact mmAdj_l0 _ _
    | ⟨1, _⟩ => exact (dot_S512x4096_S4096x128_S512x128_1_0_0_1_n_n.lhsIdx_val_of_single rfl _ _).trans hk)
  have er : dot_S512x4096_S4096x128_S512x128_1_0_0_1_n_n.rhsIdx (ix2 p j) ((contrEquiv1 dot_S512x4096_S4096x128_S512x128_1_0_0_1_n_n 4096 rfl rfl).symm k) = ix2 k j := funext fun a => Fin.ext (by
    match a with
    | ⟨0, _⟩ => exact (dot_S512x4096_S4096x128_S512x128_1_0_0_1_n_n.rhsIdx_val_of_single rfl _ _).trans hk
    | ⟨1, _⟩ => exact mmAdj_r1 _ _)
  rw [el, er]

/-! ### The product of a 512 × 128 block by a 128 × 256 block -/

theorem mmL1_l0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl

theorem mmL1_r1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

/-- Entry (p, j) of the product into a zero accumulator: the sum over the contracted coordinate. -/
theorem mmL1_apply {φ₁ φ₂ : FTy} (x : FVec Ideal S512x128 φ₁) (w : FVec Ideal S128x256 φ₂) (p : Fin 512) (j : Fin 256) :
    matmul dot_S512x128_S128x256_S512x256_1_0_0_1_n_n none x w (constant S512x256 .f32 0x00000000#32) (ix2 p j) = ∑ q : Fin 128, x (ix2 p q) * w (ix2 q j) := by
  simp only [matmul]
  rw [Ideal.matmul_constant_zero_apply, ← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 p j) ((contrEquiv1 dot_S512x128_S128x256_S512x256_1_0_0_1_n_n 128 rfl rfl).symm k) = ix2 p k := funext fun a => Fin.ext (by
    match a with
    | ⟨0, _⟩ => exact mmL1_l0 _ _
    | ⟨1, _⟩ => exact (dot_S512x128_S128x256_S512x256_1_0_0_1_n_n.lhsIdx_val_of_single rfl _ _).trans hk)
  have er : dot_S512x128_S128x256_S512x256_1_0_0_1_n_n.rhsIdx (ix2 p j) ((contrEquiv1 dot_S512x128_S128x256_S512x256_1_0_0_1_n_n 128 rfl rfl).symm k) = ix2 k j := funext fun a => Fin.ext (by
    match a with
    | ⟨0, _⟩ => exact (dot_S512x128_S128x256_S512x256_1_0_0_1_n_n.rhsIdx_val_of_single rfl _ _).trans hk
    | ⟨1, _⟩ => exact mmL1_r1 _ _)
  rw [el, er]

/-! ### The product of a 512 × 256 block by a 256 × 256 block -/

theorem mmL2_l0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl

theorem mmL2_r1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- Entry (p, j) of the product into a zero accumulator: the sum over the contracted coordinate. -/
theorem mmL2_apply {φ₁ φ₂ : FTy} (x : FVec Ideal S512x256 φ₁) (w : FVec Ideal S256x256 φ₂) (p : Fin 512) (j : Fin 256) :
    matmul dot_S512x256_S256x256_S512x256_1_0_0_1_n_n none x w (constant S512x256 .f32 0x00000000#32) (ix2 p j) = ∑ q : Fin 256, x (ix2 p q) * w (ix2 q j) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p j) ((contrEquiv1 dot_S512x256_S256x256_S512x256_1_0_0_1_n_n 256 rfl rfl).symm k) = ix2 p k := funext fun a => Fin.ext (by
    match a with
    | ⟨0, _⟩ => exact mmL2_l0 _ _
    | ⟨1, _⟩ => exact (dot_S512x256_S256x256_S512x256_1_0_0_1_n_n.lhsIdx_val_of_single rfl _ _).trans hk)
  have er : dot_S512x256_S256x256_S512x256_1_0_0_1_n_n.rhsIdx (ix2 p j) ((contrEquiv1 dot_S512x256_S256x256_S512x256_1_0_0_1_n_n 256 rfl rfl).symm k) = ix2 k j := funext fun a => Fin.ext (by
    match a with
    | ⟨0, _⟩ => exact (dot_S512x256_S256x256_S512x256_1_0_0_1_n_n.rhsIdx_val_of_single rfl _ _).trans hk
    | ⟨1, _⟩ => exact mmL2_r1 _ _)
  rw [el, er]

/-! ### The product of a 512 × 128 block by a 128 × 128 block -/

theorem mmW_l0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl

theorem mmW_r1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Entry (p, j) of the product into a zero accumulator: the sum over the contracted coordinate. -/
theorem mmW_apply {φ₁ φ₂ : FTy} (x : FVec Ideal S512x128 φ₁) (w : FVec Ideal S128x128 φ₂) (p : Fin 512) (j : Fin 128) :
    matmul dot_S512x128_S128x128_S512x128_1_0_0_1_n_n none x w (constant S512x128 .f32 0x00000000#32) (ix2 p j) = ∑ q : Fin 128, x (ix2 p q) * w (ix2 q j) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p j) ((contrEquiv1 dot_S512x128_S128x128_S512x128_1_0_0_1_n_n 128 rfl rfl).symm k) = ix2 p k := funext fun a => Fin.ext (by
    match a with
    | ⟨0, _⟩ => exact mmW_l0 _ _
    | ⟨1, _⟩ => exact (dot_S512x128_S128x128_S512x128_1_0_0_1_n_n.lhsIdx_val_of_single rfl _ _).trans hk)
  have er : dot_S512x128_S128x128_S512x128_1_0_0_1_n_n.rhsIdx (ix2 p j) ((contrEquiv1 dot_S512x128_S128x128_S512x128_1_0_0_1_n_n 128 rfl rfl).symm k) = ix2 k j := funext fun a => Fin.ext (by
    match a with
    | ⟨0, _⟩ => exact (dot_S512x128_S128x128_S512x128_1_0_0_1_n_n.rhsIdx_val_of_single rfl _ _).trans hk
    | ⟨1, _⟩ => exact mmW_r1 _ _)
  rw [el, er]

end Cert.KernelIdeal.HandValue

end
-- ==== Proof.SpecStack.lean ====
/-
  The two branches laid side by side in one array of 8192 rows, as the kernel program keeps them between its
  launches: row `b · 4096 + i` of such an array is row `i` of branch `b`. This module names the two readings — the
  rows of one branch as a matrix, and two matrices stacked into one array — and the scoring head's parameters read
  from the row-shaped (1 × 256, 1 × 1) copies the kernel program takes them in.
-/
import proofs.«132566_g10127532884217_week1_w1_345_7_alg».proof.Proof.Spec

noncomputable section

namespace Cert.Spec

open Idealize.ShloMosaic

/-- Row `b · 4096 + i` of an array of 8192 rows. -/
def stackedRow (b : Fin 2) (i : Fin 4096) : Fin 8192 := ⟨b.val * 4096 + i.val, by have := b.isLt; have := i.isLt; omega⟩

/-- The rows of branch `b` of an 8192-row array, as a 4096-row matrix. -/
def rowsOf {n : ℕ} (f : (S2 8192 n).Idx → EReal) (b : Fin 2) : Mat 4096 n :=
  fun i j => f (ValueIdx.ix2 (stackedRow b i) j)

/-- The branch a row of an 8192-row array belongs to, and its row within the branch. -/
def branchOf (r : Fin 8192) : Fin 2 := ⟨r.val / 4096, by have := r.isLt; omega⟩
def rowIn (r : Fin 8192) : Fin 4096 := ⟨r.val % 4096, Nat.mod_lt _ (by norm_num)⟩

theorem stackedRow_branchOf_rowIn (r : Fin 8192) : stackedRow (branchOf r) (rowIn r) = r :=
  Fin.ext (Nat.div_add_mod' r.val 4096)

theorem branchOf_stackedRow (b : Fin 2) (i : Fin 4096) : branchOf (stackedRow b i) = b :=
  Fin.ext (by have := i.isLt; show (b.val * 4096 + i.val) / 4096 = b.val; omega)

theorem rowIn_stackedRow (b : Fin 2) (i : Fin 4096) : rowIn (stackedRow b i) = i :=
  Fin.ext (by have := i.isLt; show (b.val * 4096 + i.val) % 4096 = i.val; omega)

/-- Two 4096-row matrices stacked into one 8192-row array. -/
def stack {n : ℕ} (g : Fin 2 → Mat 4096 n) : (S2 8192 n).Idx → EReal :=
  fun j => g (branchOf (j 0)) (rowIn (j 0)) (j 1)

/-- Two 4096-entry columns stacked into one 8192 × 1 array. -/
def stackCol (g : Fin 2 → Fin 4096 → EReal) : (S2 8192 1).Idx → EReal :=
  fun j => g (branchOf (j 0)) (rowIn (j 0))

/-- The column of branch `b` of an 8192 × 1 array. -/
def colOf (f : (S2 8192 1).Idx → EReal) (b : Fin 2) : Fin 4096 → EReal :=
  fun i => f (ValueIdx.ix2 (stackedRow b i) 0)

theorem rowsOf_stack {n : ℕ} (g : Fin 2 → Mat 4096 n) (b : Fin 2) : rowsOf (stack g) b = g b := by
  funext i j
  show g (branchOf (stackedRow b i)) (rowIn (stackedRow b i)) j = g b i j
  rw [branchOf_stackedRow, rowIn_stackedRow]

theorem colOf_stackCol (g : Fin 2 → Fin 4096 → EReal) (b : Fin 2) : colOf (stackCol g) b = g b := by
  funext i
  show g (branchOf (stackedRow b i)) (rowIn (stackedRow b i)) = g b i
  rw [branchOf_stackedRow, rowIn_stackedRow]

/-- The head's parameters from the arrays as the kernel program takes them: the two biases and the last layer's
    weight as 1 × 256 rows, the last bias as a 1 × 1 array. -/
def headRows (l1w : (S2 128 256).Idx → EReal) (l1b : (S2 1 256).Idx → EReal) (l2w : (S2 256 256).Idx → EReal) (l2b : (S2 1 256).Idx → EReal)
    (l3r : (S2 1 256).Idx → EReal) (l3b : (S2 1 1).Idx → EReal) : Head where
  l1w := mat l1w
  l1b := fun k => l1b (ValueIdx.ix2 0 k)
  l2w := mat l2w
  l2b := fun k => l2b (ValueIdx.ix2 0 k)
  l3w := fun k => l3r (ValueIdx.ix2 0 k)
  l3b := l3b (ValueIdx.ix2 0 0)

end Cert.Spec

end
-- ==== Proof.KernelIdeal.Value0.lean ====
/-
  What the first launch leaves in its output array: the 4096 × 128 first-layer weight in the narrow format. The grid
  has one point, whose input block and output block are the whole arrays; over the extended reals a change of float
  format is the identity, so the output array is the input array.
-/
import proofs.«132566_g10127532884217_week1_w1_345_7_alg».proof.Proof.KernelIdeal.Region0
import proofs.«132566_g10127532884217_week1_w1_345_7_alg».proof.Proof.KernelIdeal.ValueLib
import proofs.«132566_g10127532884217_week1_w1_345_7_alg».proof.Proof.SpecStack

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The stored entry is the loaded entry: the change of format is the identity on extended reals. -/
theorem cast0_apply (x : Vec Ideal S4096x128 .f32) (y : S4096x128.Idx) : (k0_pay1 x y : EReal) = x y := rfl

/-- Both windows are at their one block at the grid's one point. -/
theorem blockIdx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is the input array read through the output's block. -/
theorem flushed0_eq (c : Dev nD) (t : Fin cfg0.N) :
    (dat0 (F := Ideal) V c).flushed 1 t = ((cfg0.win 1).blk t).view.read (Elt Ideal) (V c main_arg2 : S4096x128.Idx → EReal) := by
  show (cfg0.win 1).cut (grid0.coords t) ((dat0 (F := Ideal) V c).after 1 t) = _
  rw [after0_1]
  unfold out0_1
  rw [View.canon_unit_zero zeroOff]
  simp only [View.ld_unit_zero (S := S4096x128) zeroOff]
  obtain ⟨i0_0, i0_1, i1_0, i1_1⟩ := blockIdx0 t
  funext y
  refine (cast0_apply (iblk0 V c 0 t) y).trans ?_
  show (V c main_arg2 : S4096x128.Idx → EReal) (((cfg0.win 0).blk t).view.emb y) = (V c main_arg2 : S4096x128.Idx → EReal) (((cfg0.win 1).blk t).view.emb y)
  refine congrArg (V c main_arg2 : S4096x128.Idx → EReal) (funext fun a => Fin.ext ?_)
  match a with
  | ⟨0, _⟩ => show win0_0.index t (0 : Fin 2) * 4096 + 1 * (y 0).val = win0_1.index t (0 : Fin 2) * 4096 + 1 * (y 0).val; omega
  | ⟨1, _⟩ => show win0_0.index t (1 : Fin 2) * 128 + 1 * (y 1).val = win0_1.index t (1 : Fin 2) * 128 + 1 * (y 1).val; omega

/-- An index of the output array is in the point's block iff each coordinate is in the block's range on its axis. -/
theorem mem_blk0 (t : Fin cfg0.N) (i : S4096x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v4).slice (win0_1.rect t)).set ↔ _
  rw [View.set_slice_whole, Rect.mem_set_unit]
  exact Iff.rfl

/-- The one point's block is the whole output array. -/
theorem cover0 (i : S4096x128.Idx) : ∃ t : Fin cfg0.N, (cfg0.win 1).flush t = true ∧ i ∈ ((cfg0.win 1).blk t).view.set := by
  have hi0 : (i 0).val < 4096 := (i 0).isLt
  have hi1 : (i 1).val < 128 := (i 1).isLt
  have hN : cfg0.N = 1 := N_0
  obtain ⟨t, ht⟩ : ∃ t : Fin cfg0.N, t.val = 0 := ⟨⟨0, by rw [hN]; omega⟩, rfl⟩
  obtain ⟨i0_0, i0_1, i1_0, i1_1⟩ := blockIdx0 t
  refine ⟨t, flush0_1 t, ?_⟩
  rw [mem_blk0]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- The narrow-format copy after the launch is the first-layer weight itself. -/
theorem final0 (c : Dev nD) : (Cert.KernelIdeal.Hand.dat0 (F := Ideal) V c).arrAt 1 cfg0.N = (V c main_arg2 : S4096x128.Idx → EReal) :=
  (dat0 (F := Ideal) V c).arrAt_eq_of_cover 1 _ (fun t _ => flushed0_eq V c t) cover0

end Cert.KernelIdeal.HandValue

end
-- ==== Proof.KernelIdeal.Value1Pieces.lean ====
/-
  What each case of the first graph-convolution launch's body leaves in its three output buffers, as functions of the
  point's input blocks. A point of a branch stores the narrow-format copy of its adjacency block, reads that copy
  back, and from it and the weight blocks computes the next layer's right-hand side and the score column; each output
  buffer receives one whole-block store, so what it holds is that store's value.
-/
import proofs.«132566_g10127532884217_week1_w1_345_7_alg».proof.Proof.KernelIdeal.Region1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.Pipeline (Dat)

variable {F : FTy → Type} [FloatOps F]

/-- The zero offsets of a whole-block rectangle. -/
theorem zeroOff1 : (![0, 0] : Fin 2 → Nat) = fun _ => 0 := funext fun a => by fin_cases a <;> rfl

/-- First branch: the adjacency output holds the narrow copy of the first adjacency's block. -/
theorem piece1_A_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay3 x0 := by
  unfold out1_A_10
  unfold kernelRun1_A
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

/-- First branch: the right-hand-side output holds the features of the copied block times the second layer's weight. -/
theorem piece1_A_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay2 (k1_pay5 (k1_pay3 x0) x2) x3 := by
  unfold out1_A_11
  unfold kernelRun1_A
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

/-- First branch: the score output holds the head's score of the features of the copied block. -/
theorem piece1_A_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : cond1_0 i) (hc1 : ¬cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay1 (k1_pay6 (k1_pay3 x0) x2 x4 x5 x6) x7 x8 x9 := by
  unfold out1_A_12
  unfold kernelRun1_A
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

/-- Second branch: the same three, from the second adjacency's block. -/
theorem piece1_B_10 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay4 x1 := by
  unfold out1_B_10
  unfold kernelRun1_B
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

theorem piece1_B_11 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay2 (k1_pay5 (k1_pay4 x1) x2) x3 := by
  unfold out1_B_11
  unfold kernelRun1_B
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

theorem piece1_B_12 (c : Dev nD) (i : grid1.Coords) (arg2 : Memref sig .tc .vmem S512x4096 .f32) (harg2 : arg2.IsWhole) (arg3 : Memref sig .tc .vmem S512x4096 .f32) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S512x4096 .bf16) (harg12 : arg12.IsWhole) (arg13 : Memref sig .tc .vmem S512x128 .bf16) (harg13 : arg13.IsWhole) (arg14 : Memref sig .tc .vmem S512x1 .f32) (harg14 : arg14.IsWhole) (hc0 : ¬cond1_0 i) (hc1 : cond1_1 i)
    (x0 : Vec F S512x4096 .f32) (x1 : Vec F S512x4096 .f32) (x2 : Vec F S4096x128 .bf16) (x3 : Vec F S128x128 .f32) (x4 : Vec F S128x256 .f32) (x5 : Vec F S1x256 .f32) (x6 : Vec F S256x256 .f32) (x7 : Vec F S1x256 .f32) (x8 : Vec F S1x256 .f32) (x9 : Vec F S1x1 .f32) :
    out1_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k1_pay1 (k1_pay6 (k1_pay4 x1) x2 x4 x5 x6) x7 x8 x9 := by
  unfold out1_B_12
  unfold kernelRun1_B
  dsimp only
  sl_unfold_words
  rw [View.canon_unit_zero zeroOff1]
  simp only [View.readCov_unit_zero (S := S512x4096) _ zeroOff1, View.readAt_eq_ld, Memref.IsWhole.read_unread, View.ld_unit_zero (S := S512x4096) zeroOff1,
    View.ld_unit_zero (S := S4096x128) zeroOff1, View.ld_unit_zero (S := S128x128) zeroOff1, View.ld_unit_zero (S := S128x256) zeroOff1,
    View.ld_unit_zero (S := S1x256) zeroOff1, View.ld_unit_zero (S := S256x256) zeroOff1, View.ld_unit_zero (S := S1x1) zeroOff1]

end Cert.KernelIdeal.HandValue

end
-- ==== Proof.KernelIdeal.Value1Pay.lean ====
/-
  The arithmetic of the first graph-convolution launch at one row of a block, over the extended reals. A point of
  the launch holds 512 rows of one branch's adjacency matrix. Row p of what it stores depends on row p of that block
  only: the clamped product with the cast first weight, divided by the larger of its Euclidean norm and the small
  constant (the layer's features); their product with the second layer's weight (the next right-hand side); and the
  three-layer scoring head applied to them (the score). So when row p of the block is row r of an adjacency matrix,
  the three stored rows are row r of the specification's features times the weight, and the specification's score
  of row r.
-/
import proofs.«132566_g10127532884217_week1_w1_345_7_alg».proof.Proof.KernelIdeal.ValueLib
import proofs.«132566_g10127532884217_week1_w1_345_7_alg».proof.Proof.Gen.KernelIdeal.Skeleton
import proofs.«132566_g10127532884217_week1_w1_345_7_alg».proof.Proof.SpecStack

noncomputable section

namespace Cert.KernelIdeal.HandValue

open Cert.KernelIdeal Cert.KernelIdeal.Gen
open Idealize.ShloMosaic Idealize.ShloMosaic.ValueIdx

/-- The narrow-format copy of an adjacency block is the block: a change of format is the identity. -/
theorem adjCopyA_apply (a : Vec Ideal S512x4096 .f32) (y : S512x4096.Idx) : k1_pay3 a y = a y := rfl
theorem adjCopyB_apply (a : Vec Ideal S512x4096 .f32) (y : S512x4096.Idx) : k1_pay4 a y = a y := rfl

/-- The layer's features at (p, j): the clamped product row divided by the larger of its norm and the small constant. -/
theorem feat1_apply (v6 : Vec Ideal S512x4096 .bf16) (v8 : Vec Ideal S4096x128 .bf16) (p : Fin 512) (j : Fin 128) :
    k1_pay5 v6 v8 (ix2 p j) = Ideal.div (max (∑ q : Fin 4096, v6 (ix2 p q) * v8 (ix2 q j)) 0)
      (max (Ideal.sqrt (∑ l : Fin 128, max (∑ q : Fin 4096, v6 (ix2 p q) * v8 (ix2 q l)) 0 * max (∑ q : Fin 4096, v6 (ix2 p q) * v8 (ix2 q l)) 0))
        (Scalar.ofBits .f32 0x2B8CBCCC#32 : Ideal .f32)) := by
  unfold k1_pay5
  simp only [shapeCast_self, colCast_apply, colBcast_apply, sqrt_apply, divf_apply, maximumf_apply, broadcast_apply, mmAdj_apply, zeroWord]
  rw [laneSum_apply]
  simp only [mulf_apply, maximumf_apply, broadcast_apply, mmAdj_apply, zeroWord]

/-- The next layer's right-hand side at (p, j): the features' row times the weight's column. -/
theorem nextRhs1_apply (v20 : FVec Ideal S512x128 .f32) (v53 : Vec Ideal S128x128 .f32) (p : Fin 512) (j : Fin 128) :
    k1_pay2 v20 v53 (ix2 p j) = ∑ q : Fin 128, v20 (ix2 p q) * v53 (ix2 q j) := by
  unfold k1_pay2
  simp only [truncf_apply, mmW_apply]

/-- The head's second product at (p, k), over the clamped first hidden layer. -/
theorem hid1_apply (v6 : Vec Ideal S512x4096 .bf16) (v8 : Vec Ideal S4096x128 .bf16) (v22 : Vec Ideal S128x256 .f32) (v25 : Vec Ideal S1x256 .f32)
    (v32 : Vec Ideal S256x256 .f32) (p : Fin 512) (k : Fin 256) :
    k1_pay6 v6 v8 v22 v25 v32 (ix2 p k)
      = ∑ k2 : Fin 256, max ((∑ k1 : Fin 128, k1_pay5 v6 v8 (ix2 p k1) * v22 (ix2 k1 k2)) + v25 (ix2 0 k2)) 0 * v32 (ix2 k2 k) := by
  unfold k1_pay6
  simp only [shapeCast_self, truncf_apply, maximumf_apply, addf_apply, broadcast_apply, broadcastTo_1b_ab_apply, mmL1_apply, mmL2_apply, zeroWord]

/-- The stored score of row p: the clamped second hidden layer against the read-out row, plus the last bias. -/
theorem score1_apply (v34 : FVec Ideal S512x256 .f32) (v35 v41 : Vec Ideal S1x256 .f32) (v47 : Vec Ideal S1x1 .f32) (p : Fin 512) (z : Fin 1) :
    k1_pay1 v34 v35 v41 v47 (ix2 p z) = (∑ k : Fin 256, max (v34 (ix2 p k) + v35 (ix2 0 k)) 0 * v41 (ix2 0 k)) + v47 (ix2 0 z) := by
  unfold k1_pay1
  simp only [shapeCast_self, colCast_apply, addf_apply, broadcastTo_1b_ab_apply]
  rw [laneSum_apply]
  simp only [mulf_apply, maximumf_apply, addf_apply, broadcast_apply, broadcastTo_1b_ab_apply, zeroWord]

/-! ### Row p of a block that is row r of an adjacency matrix -/

/-- The features of row p are the specification's first-layer features of row r. -/
theorem point1_feat (adjM : Cert.Spec.Mat 4096 4096) (a : Vec Ideal S512x4096 .bf16) (w1 : Vec Ideal S4096x128 .bf16) (p : Fin 512) (r : Fin 4096)
    (ha : ∀ q : Fin 4096, a (ix2 p q) = adjM r q) (j : Fin 128) :
    k1_pay5 a w1 (ix2 p j) = Cert.Spec.normalize (Cert.Spec.prop adjM (Cert.Spec.mat w1)) r j := by
  rw [feat1_apply]
  simp only [ha]
  rfl

/-- The next right-hand side of row p is row r of the features times the second layer's weight. -/
theorem point1_rhs (adjM : Cert.Spec.Mat 4096 4096) (a : Vec Ideal S512x4096 .bf16) (w1 : Vec Ideal S4096x128 .bf16) (w2 : Vec Ideal S128x128 .f32)
    (p : Fin 512) (r : Fin 4096) (ha : ∀ q : Fin 4096, a (ix2 p q) = adjM r q) (j : Fin 128) :
    k1_pay2 (k1_pay5 a w1) w2 (ix2 p j)
      = Cert.Spec.times (Cert.Spec.normalize (Cert.Spec.prop adjM (Cert.Spec.mat w1))) (Cert.Spec.mat w2) r j := by
  rw [nextRhs1_apply]
  simp only [point1_feat adjM a w1 p r ha]
  rfl

/-- The score of row p is the specification's score of row r of the features. -/
theorem point1_score (adjM : Cert.Spec.Mat 4096 4096) (a : Vec Ideal S512x4096 .bf16) (w1 : Vec Ideal S4096x128 .bf16)
    (l1w : Vec Ideal S128x256 .f32) (l1b : Vec Ideal S1x256 .f32) (l2w : Vec Ideal S256x256 .f32) (l2b l3r : Vec Ideal S1x256 .f32) (l3b : Vec Ideal S1x1 .f32)
    (p : Fin 512) (r : Fin 4096) (ha : ∀ q : Fin 4096, a (ix2 p q) = adjM r q) (z : Fin 1) :
    k1_pay1 (k1_pay6 a w1 l1w l1b l2w) l2b l3r l3b (ix2 p z)
      = Cert.Spec.score (Cert.Spec.headRows l1w l1b l2w l2b l3r l3b) (Cert.Spec.normalize (Cert.Spec.prop adjM (Cert.Spec.mat w1))) r := by
  obtain rfl : z = 0 := Subsingleton.elim _ _
  rw [score1_apply]
  simp only [hid1_apply, point1_feat adjM a w1 p r ha]
  rfl

end Cert.KernelIdeal.HandValue

end
-- ==== Proof.KernelIdeal.Value1.lean ====
/-
  What the first graph-convolution launch leaves in its three output arrays, each of 8192 rows: the first branch's
  4096 rows stacked on the second's. Grid point t handles rows 512·t … 512·t + 511, all of branch t / 8: it copies
  those rows of the branch's adjacency matrix, and from them computes the same rows of the next layer's right-hand
  side and of the score column. Every stored entry depends on its own adjacency row only, so the sixteen points'
  blocks are the blocks of three arrays defined row by row: the stacked adjacency matrices, the stacked products of
  the first-layer features with the second layer's weight, and the stacked first-layer scores.
-/
import proofs.«132566_g10127532884217_week1_w1_345_7_alg».proof.Proof.KernelIdeal.Value1Pieces
import proofs.«132566_g10127532884217_week1_w1_345_7_alg».proof.Proof.KernelIdeal.Value1Pay

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec (stackedRow branchOf rowIn)

variable (V : (c : Dev nD) → (b : Ref sig .tc) → Buf (Elt Ideal) ((c : Thread nD τ).loc b))

/-- Two indices with the same coordinates read the same entry. -/
theorem sameEntry1 {S : Shape} (f : S.Idx → EReal) (i j : S.Idx) (h : ∀ a, (i a).val = (j a).val) : f i = f j :=
  congrArg f (funext fun a => Fin.ext (h a))

/-- The index maps over the grid: at point t the first adjacency's window is at block t while the first branch is
    active and parked at block 7 after it, the second adjacency's is parked at block 0 before its branch and at block
    t − 8 during it, the weight windows are the whole arrays, and each output window is at block t. -/
theorem blockIdx1 : ∀ t : Fin cfg1.N, win1_0.index t (0 : Fin 2) = (if t.val < 8 then t.val else 7) ∧ win1_0.index t (1 : Fin 2) = 0
    ∧ win1_1.index t (0 : Fin 2) = (if t.val < 8 then 0 else t.val - 8) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- A row of an 8192-row array that is row r of branch b. -/
theorem stackRow1_at {n : ℕ} (g : Fin 2 → Cert.Spec.Mat 4096 n) (b : Fin 2) (r : Fin 4096) (j : Fin n) (jo : (Cert.Spec.S2 8192 n).Idx)
    (h0 : (jo 0).val = b.val * 4096 + r.val) (h1 : (jo 1).val = j.val) : Cert.Spec.stack g jo = g b r j := by
  obtain ⟨r', j', rfl⟩ : ∃ (r' : Fin 8192) (j' : Fin n), jo = ix2 r' j' := ⟨jo 0, jo 1, eq_ix2 jo⟩
  obtain rfl : j' = j := Fin.ext h1
  have hr := r.isLt
  have e1 : branchOf r' = b := Fin.ext (by show r'.val / 4096 = b.val; have : r'.val = b.val * 4096 + r.val := h0; omega)
  have e2 : rowIn r' = r := Fin.ext (by show r'.val % 4096 = r.val; have : r'.val = b.val * 4096 + r.val := h0; omega)
  show g (branchOf r') (rowIn r') j' = g b r j'
  rw [e1, e2]

theorem stackCol1_at (g : Fin 2 → Fin 4096 → EReal) (b : Fin 2) (r : Fin 4096) (jo : (Cert.Spec.S2 8192 1).Idx)
    (h0 : (jo 0).val = b.val * 4096 + r.val) : Cert.Spec.stackCol g jo = g b r := by
  obtain ⟨r', j', rfl⟩ : ∃ (r' : Fin 8192) (j' : Fin 1), jo = ix2 r' j' := ⟨jo 0, jo 1, eq_ix2 jo⟩
  have hr := r.isLt
  have e1 : branchOf r' = b := Fin.ext (by show r'.val / 4096 = b.val; have : r'.val = b.val * 4096 + r.val := h0; omega)
  have e2 : rowIn r' = r := Fin.ext (by show r'.val % 4096 = r.val; have : r'.val = b.val * 4096 + r.val := h0; omega)
  show g (branchOf r') (rowIn r') = g b r
  rw [e1, e2]

/-! ### The weight windows hold the whole weight arrays at every point -/

theorem whole1_2 (c : Dev nD) (t : Fin cfg1.N) (y : S4096x128.Idx) : iblk1 V c 2 t y = V c main_v4 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_v4 (((cfg1.win 2).blk t).view.emb y) = V c main_v4 y
  refine sameEntry1 (S := S4096x128) (V c main_v4) _ _ fun a => ?_
  match a with
  | ⟨0, _⟩ => show win1_2.index t (0 : Fin 2) * 4096 + 1 * (y 0).val = (y 0).val; omega
  | ⟨1, _⟩ => show win1_2.index t (1 : Fin 2) * 128 + 1 * (y 1).val = (y 1).val; omega

theorem whole1_3 (c : Dev nD) (t : Fin cfg1.N) (y : S128x128.Idx) : iblk1 V c 3 t y = V c main_arg3 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_arg3 (((cfg1.win 3).blk t).view.emb y) = V c main_arg3 y
  refine sameEntry1 (S := S128x128) (V c main_arg3) _ _ fun a => ?_
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole1_4 (c : Dev nD) (t : Fin cfg1.N) (y : S128x256.Idx) : iblk1 V c 4 t y = V c main_arg6 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_arg6 (((cfg1.win 4).blk t).view.emb y) = V c main_arg6 y
  refine sameEntry1 (S := S128x256) (V c main_arg6) _ _ fun a => ?_
  match a with
  | ⟨0, _⟩ => show win1_4.index t (0 : Fin 2) * 128 + 1 * (y 0).val = (y 0).val; omega
  | ⟨1, _⟩ => show win1_4.index t (1 : Fin 2) * 256 + 1 * (y 1).val = (y 1).val; omega

theorem whole1_5 (c : Dev nD) (t : Fin cfg1.N) (y : S1x256.Idx) : iblk1 V c 5 t y = V c main_v0 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_v0 (((cfg1.win 5).blk t).view.emb y) = V c main_v0 y
  refine sameEntry1 (S := S1x256) (V c main_v0) _ _ fun a => ?_
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem whole1_6 (c : Dev nD) (t : Fin cfg1.N) (y : S256x256.Idx) : iblk1 V c 6 t y = V c main_arg8 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_arg8 (((cfg1.win 6).blk t).view.emb y) = V c main_arg8 y
  refine sameEntry1 (S := S256x256) (V c main_arg8) _ _ fun a => ?_
  match a with
  | ⟨0, _⟩ => show win1_6.index t (0 : Fin 2) * 256 + 1 * (y 0).val = (y 0).val; omega
  | ⟨1, _⟩ => show win1_6.index t (1 : Fin 2) * 256 + 1 * (y 1).val = (y 1).val; omega

theorem whole1_7 (c : Dev nD) (t : Fin cfg1.N) (y : S1x256.Idx) : iblk1 V c 7 t y = V c main_v1 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_v1 (((cfg1.win 7).blk t).view.emb y) = V c main_v1 y
  refine sameEntry1 (S := S1x256) (V c main_v1) _ _ fun a => ?_
  match a with
  | ⟨0, _⟩ => show win1_7.index t (0 : Fin 2) * 1 + 1 * (y 0).val = (y 0).val; omega
  | ⟨1, _⟩ => show win1_7.index t (1 : Fin 2) * 256 + 1 * (y 1).val = (y 1).val; omega

theorem whole1_8 (c : Dev nD) (t : Fin cfg1.N) (y : S1x256.Idx) : iblk1 V c 8 t y = V c main_v2 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_v2 (((cfg1.win 8).blk t).view.emb y) = V c main_v2 y
  refine sameEntry1 (S := S1x256) (V c main_v2) _ _ fun a => ?_
  match a with
  | ⟨0, _⟩ => show win1_8.index t (0 : Fin 2) * 1 + 1 * (y 0).val = (y 0).val; omega
  | ⟨1, _⟩ => show win1_8.index t (1 : Fin 2) * 256 + 1 * (y 1).val = (y 1).val; omega

theorem whole1_9 (c : Dev nD) (t : Fin cfg1.N) (y : S1x1.Idx) : iblk1 V c 9 t y = V c main_v3 y := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_v3 (((cfg1.win 9).blk t).view.emb y) = V c main_v3 y
  refine sameEntry1 (S := S1x1) (V c main_v3) _ _ fun a => ?_
  match a with
  | ⟨0, _⟩ => show win1_9.index t (0 : Fin 2) * 1 + 1 * (y 0).val = (y 0).val; omega
  | ⟨1, _⟩ => show win1_9.index t (1 : Fin 2) * 1 + 1 * (y 1).val = (y 1).val; omega

/-- Row p of the first adjacency's block at a point t of the first branch is row 512·t + p of the first adjacency. -/
theorem adjRowA (c : Dev nD) (t : Fin cfg1.N) (h : t.val < 8) (p : Fin 512) (r : Fin 4096) (hr : r.val = t.val * 512 + p.val) (q : Fin 4096) :
    k1_pay3 (iblk1 V c 0 t) (ix2 p q) = V c main_arg0 (ix2 r q) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_arg0 (((cfg1.win 0).blk t).view.emb (ix2 p q)) = V c main_arg0 (ix2 r q)
  refine sameEntry1 (S := S4096x4096) (V c main_arg0) _ _ fun a => ?_
  match a with
  | ⟨0, _⟩ => show win1_0.index t (0 : Fin 2) * 512 + 1 * p.val = r.val; rw [e0_0, if_pos h]; omega
  | ⟨1, _⟩ => show win1_0.index t (1 : Fin 2) * 4096 + 1 * q.val = q.val; omega

/-- Row p of the second adjacency's block at a point t of the second branch is row 512·(t − 8) + p of the second adjacency. -/
theorem adjRowB (c : Dev nD) (t : Fin cfg1.N) (h : ¬ t.val < 8) (p : Fin 512) (r : Fin 4096) (hr : r.val = (t.val - 8) * 512 + p.val) (q : Fin 4096) :
    k1_pay4 (iblk1 V c 1 t) (ix2 p q) = V c main_arg1 (ix2 r q) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  show V c main_arg1 (((cfg1.win 1).blk t).view.emb (ix2 p q)) = V c main_arg1 (ix2 r q)
  refine sameEntry1 (S := S4096x4096) (V c main_arg1) _ _ fun a => ?_
  match a with
  | ⟨0, _⟩ => show win1_1.index t (0 : Fin 2) * 512 + 1 * p.val = r.val; rw [e1_0, if_neg h]; omega
  | ⟨1, _⟩ => show win1_1.index t (1 : Fin 2) * 4096 + 1 * q.val = q.val; omega

/-- One entry of the right-hand-side output, over variables: when row p of the adjacency block is row r of a branch's
    adjacency matrix, the weight blocks are the weight arrays, and the output index is row r of branch b, the stored
    entry is that row of the branch's features times the second layer's weight. -/
theorem pt1_rhs (adj : Vec Ideal S4096x4096 .f32) (W1 : Vec Ideal S4096x128 .bf16) (W2 : Vec Ideal S128x128 .f32)
    (x : Vec Ideal S512x4096 .bf16) (w1 : Vec Ideal S4096x128 .bf16) (w2 : Vec Ideal S128x128 .f32) (p : Fin 512) (j : Fin 128) (r : Fin 4096)
    (g : Fin 2 → Cert.Spec.Mat 4096 128) (b : Fin 2) (jo : (Cert.Spec.S2 8192 128).Idx)
    (hx : ∀ q : Fin 4096, x (ix2 p q) = adj (ix2 r q)) (hw1 : ∀ i, w1 i = W1 i) (hw2 : ∀ i, w2 i = W2 i)
    (hg : g b = Cert.Spec.times (Cert.Spec.normalize (Cert.Spec.prop (Cert.Spec.mat adj) (Cert.Spec.mat W1))) (Cert.Spec.mat W2))
    (h0 : (jo 0).val = b.val * 4096 + r.val) (h1 : (jo 1).val = j.val) :
    k1_pay2 (k1_pay5 x w1) w2 (ix2 p j) = Cert.Spec.stack g jo := by
  obtain rfl : w1 = W1 := funext hw1
  obtain rfl : w2 = W2 := funext hw2
  rw [stackRow1_at g b r j jo h0 h1, hg]
  exact point1_rhs (Cert.Spec.mat adj) x w1 w2 p r hx j

/-- One entry of the score output, over variables, likewise. -/
theorem pt1_score (adj : Vec Ideal S4096x4096 .f32) (W1 : Vec Ideal S4096x128 .bf16)
    (L1w : Vec Ideal S128x256 .f32) (L1b : Vec Ideal S1x256 .f32) (L2w : Vec Ideal S256x256 .f32) (L2b L3r : Vec Ideal S1x256 .f32) (L3b : Vec Ideal S1x1 .f32)
    (x : Vec Ideal S512x4096 .bf16) (w1 : Vec Ideal S4096x128 .bf16)
    (l1w : Vec Ideal S128x256 .f32) (l1b : Vec Ideal S1x256 .f32) (l2w : Vec Ideal S256x256 .f32) (l2b l3r : Vec Ideal S1x256 .f32) (l3b : Vec Ideal S1x1 .f32)
    (p : Fin 512) (z : Fin 1) (r : Fin 4096)
    (g : Fin 2 → Fin 4096 → EReal) (b : Fin 2) (jo : (Cert.Spec.S2 8192 1).Idx)
    (hx : ∀ q : Fin 4096, x (ix2 p q) = adj (ix2 r q)) (hw1 : ∀ i, w1 i = W1 i)
    (h4 : ∀ i, l1w i = L1w i) (h5 : ∀ i, l1b i = L1b i) (h6 : ∀ i, l2w i = L2w i) (h7 : ∀ i, l2b i = L2b i) (h8 : ∀ i, l3r i = L3r i) (h9 : ∀ i, l3b i = L3b i)
    (hg : g b = fun i => Cert.Spec.score (Cert.Spec.headRows L1w L1b L2w L2b L3r L3b) (Cert.Spec.normalize (Cert.Spec.prop (Cert.Spec.mat adj) (Cert.Spec.mat W1))) i)
    (h0 : (jo 0).val = b.val * 4096 + r.val) :
    k1_pay1 (k1_pay6 x w1 l1w l1b l2w) l2b l3r l3b (ix2 p z) = Cert.Spec.stackCol g jo := by
  obtain rfl : w1 = W1 := funext hw1
  obtain rfl : l1w = L1w := funext h4
  obtain rfl : l1b = L1b := funext h5
  obtain rfl : l2w = L2w := funext h6
  obtain rfl : l2b = L2b := funext h7
  obtain rfl : l3r = L3r := funext h8
  obtain rfl : l3b = L3b := funext h9
  rw [stackCol1_at g b r jo h0, hg]
  exact point1_score (Cert.Spec.mat adj) x w1 l1w l1b l2w l2b l3r l3b p r hx z

/-- What point t writes back to the adjacency output is block t of the stacked adjacency matrices. -/
theorem flushed1_10_eq (c : Dev nD) (t : Fin cfg1.N) :
    (dat1 (F := Ideal) V c).flushed 10 t = ((cfg1.win 10).blk t).view.read (Elt Ideal) (Cert.Spec.stack (fun b => if b = 0 then Cert.Spec.mat (V c main_arg0) else Cert.Spec.mat (V c main_arg1))) := by
  show (cfg1.win 10).cut (grid1.coords t) ((dat1 (F := Ideal) V c).after 10 t) = _
  rw [after1_10]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  have hN : cfg1.N = 16 := N_1
  have ht := t.isLt
  by_cases h : t.val < 8
  · rw [out1_10_A V c t h, piece1_A_10]
    funext y
    obtain ⟨p, q, rfl⟩ : ∃ (p : Fin 512) (q : Fin 4096), y = ix2 p q := ⟨y 0, y 1, eq_ix2 y⟩
    have hp := p.isLt
    show k1_pay3 (iblk1 V c 0 t) (ix2 p q) = Cert.Spec.stack (fun b => if b = 0 then Cert.Spec.mat (V c main_arg0) else Cert.Spec.mat (V c main_arg1)) (((cfg1.win 10).blk t).view.emb (ix2 p q))
    rw [stackRow1_at _ 0 ⟨t.val * 512 + p.val, by omega⟩ q _ (by show win1_10.index t (0 : Fin 2) * 512 + 1 * p.val = 0 * 4096 + (t.val * 512 + p.val); omega) (by show win1_10.index t (1 : Fin 2) * 4096 + 1 * q.val = q.val; omega), if_pos rfl]
    exact adjRowA V c t h p ⟨t.val * 512 + p.val, by omega⟩ rfl q
  · rw [out1_10_B V c t h, piece1_B_10]
    funext y
    obtain ⟨p, q, rfl⟩ : ∃ (p : Fin 512) (q : Fin 4096), y = ix2 p q := ⟨y 0, y 1, eq_ix2 y⟩
    have hp := p.isLt
    show k1_pay4 (iblk1 V c 1 t) (ix2 p q) = Cert.Spec.stack (fun b => if b = 0 then Cert.Spec.mat (V c main_arg0) else Cert.Spec.mat (V c main_arg1)) (((cfg1.win 10).blk t).view.emb (ix2 p q))
    rw [stackRow1_at _ 1 ⟨(t.val - 8) * 512 + p.val, by omega⟩ q _ (by show win1_10.index t (0 : Fin 2) * 512 + 1 * p.val = 1 * 4096 + ((t.val - 8) * 512 + p.val); omega) (by show win1_10.index t (1 : Fin 2) * 4096 + 1 * q.val = q.val; omega), if_neg (by decide)]
    exact adjRowB V c t h p ⟨(t.val - 8) * 512 + p.val, by omega⟩ rfl q

/-- What point t writes back to the right-hand-side output is block t of the stacked products of the features with the second layer's weight. -/
theorem flushed1_11_eq (c : Dev nD) (t : Fin cfg1.N) :
    (dat1 (F := Ideal) V c).flushed 11 t = ((cfg1.win 11).blk t).view.read (Elt Ideal) (Cert.Spec.stack (fun b => Cert.Spec.times (Cert.Spec.normalize (Cert.Spec.prop (if b = 0 then Cert.Spec.mat (V c main_arg0) else Cert.Spec.mat (V c main_arg1)) (Cert.Spec.mat (V c main_v4)))) (Cert.Spec.mat (V c main_arg3)))) := by
  show (cfg1.win 11).cut (grid1.coords t) ((dat1 (F := Ideal) V c).after 11 t) = _
  rw [after1_11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  have hN : cfg1.N = 16 := N_1
  have ht := t.isLt
  by_cases h : t.val < 8
  · rw [out1_11_A V c t h, piece1_A_11]
    funext y
    obtain ⟨p, j, rfl⟩ : ∃ (p : Fin 512) (j : Fin 128), y = ix2 p j := ⟨y 0, y 1, eq_ix2 y⟩
    have hp := p.isLt
    show k1_pay2 (k1_pay5 (k1_pay3 (iblk1 V c 0 t)) (iblk1 V c 2 t)) (iblk1 V c 3 t) (ix2 p j) = Cert.Spec.stack (fun b => Cert.Spec.times (Cert.Spec.normalize (Cert.Spec.prop (if b = 0 then Cert.Spec.mat (V c main_arg0) else Cert.Spec.mat (V c main_arg1)) (Cert.Spec.mat (V c main_v4)))) (Cert.Spec.mat (V c main_arg3))) (((cfg1.win 11).blk t).view.emb (ix2 p j))
    exact pt1_rhs (V c main_arg0) (V c main_v4) (V c main_arg3) (k1_pay3 (iblk1 V c 0 t)) (iblk1 V c 2 t) (iblk1 V c 3 t) p j ⟨t.val * 512 + p.val, by omega⟩ _ 0 _
      (adjRowA V c t h p ⟨t.val * 512 + p.val, by omega⟩ rfl) (whole1_2 V c t) (whole1_3 V c t) (by show Cert.Spec.times (Cert.Spec.normalize (Cert.Spec.prop (if (0 : Fin 2) = 0 then _ else _) _)) _ = _; rw [if_pos rfl]) (by show win1_11.index t (0 : Fin 2) * 512 + 1 * p.val = 0 * 4096 + (t.val * 512 + p.val); omega) (by show win1_11.index t (1 : Fin 2) * 128 + 1 * j.val = j.val; omega)
  · rw [out1_11_B V c t h, piece1_B_11]
    funext y
    obtain ⟨p, j, rfl⟩ : ∃ (p : Fin 512) (j : Fin 128), y = ix2 p j := ⟨y 0, y 1, eq_ix2 y⟩
    have hp := p.isLt
    show k1_pay2 (k1_pay5 (k1_pay4 (iblk1 V c 1 t)) (iblk1 V c 2 t)) (iblk1 V c 3 t) (ix2 p j) = Cert.Spec.stack (fun b => Cert.Spec.times (Cert.Spec.normalize (Cert.Spec.prop (if b = 0 then Cert.Spec.mat (V c main_arg0) else Cert.Spec.mat (V c main_arg1)) (Cert.Spec.mat (V c main_v4)))) (Cert.Spec.mat (V c main_arg3))) (((cfg1.win 11).blk t).view.emb (ix2 p j))
    exact pt1_rhs (V c main_arg1) (V c main_v4) (V c main_arg3) (k1_pay4 (iblk1 V c 1 t)) (iblk1 V c 2 t) (iblk1 V c 3 t) p j ⟨(t.val - 8) * 512 + p.val, by omega⟩ _ 1 _
      (adjRowB V c t h p ⟨(t.val - 8) * 512 + p.val, by omega⟩ rfl) (whole1_2 V c t) (whole1_3 V c t) (by show Cert.Spec.times (Cert.Spec.normalize (Cert.Spec.prop (if (1 : Fin 2) = 0 then _ else _) _)) _ = _; rw [if_neg (by decide)]) (by show win1_11.index t (0 : Fin 2) * 512 + 1 * p.val = 1 * 4096 + ((t.val - 8) * 512 + p.val); omega) (by show win1_11.index t (1 : Fin 2) * 128 + 1 * j.val = j.val; omega)

/-- What point t writes back to the score output is block t of the stacked first-layer scores. -/
theorem flushed1_12_eq (c : Dev nD) (t : Fin cfg1.N) :
    (dat1 (F := Ideal) V c).flushed 12 t = ((cfg1.win 12).blk t).view.read (Elt Ideal) (Cert.Spec.stackCol (fun b i => Cert.Spec.score (Cert.Spec.headRows (V c main_arg6) (V c main_v0) (V c main_arg8) (V c main_v1) (V c main_v2) (V c main_v3)) (Cert.Spec.normalize (Cert.Spec.prop (if b = 0 then Cert.Spec.mat (V c main_arg0) else Cert.Spec.mat (V c main_arg1)) (Cert.Spec.mat (V c main_v4)))) i)) := by
  show (cfg1.win 12).cut (grid1.coords t) ((dat1 (F := Ideal) V c).after 12 t) = _
  rw [after1_12]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  have hN : cfg1.N = 16 := N_1
  have ht := t.isLt
  by_cases h : t.val < 8
  · rw [out1_12_A V c t h, piece1_A_12]
    funext y
    obtain ⟨p, z, rfl⟩ : ∃ (p : Fin 512) (z : Fin 1), y = ix2 p z := ⟨y 0, y 1, eq_ix2 y⟩
    have hp := p.isLt
    show k1_pay1 (k1_pay6 (k1_pay3 (iblk1 V c 0 t)) (iblk1 V c 2 t) (iblk1 V c 4 t) (iblk1 V c 5 t) (iblk1 V c 6 t)) (iblk1 V c 7 t) (iblk1 V c 8 t) (iblk1 V c 9 t) (ix2 p z) = Cert.Spec.stackCol (fun b i => Cert.Spec.score (Cert.Spec.headRows (V c main_arg6) (V c main_v0) (V c main_arg8) (V c main_v1) (V c main_v2) (V c main_v3)) (Cert.Spec.normalize (Cert.Spec.prop (if b = 0 then Cert.Spec.mat (V c main_arg0) else Cert.Spec.mat (V c main_arg1)) (Cert.Spec.mat (V c main_v4)))) i) (((cfg1.win 12).blk t).view.emb (ix2 p z))
    exact pt1_score (V c main_arg0) (V c main_v4) (V c main_arg6) (V c main_v0) (V c main_arg8) (V c main_v1) (V c main_v2) (V c main_v3) (k1_pay3 (iblk1 V c 0 t)) (iblk1 V c 2 t) (iblk1 V c 4 t) (iblk1 V c 5 t) (iblk1 V c 6 t) (iblk1 V c 7 t) (iblk1 V c 8 t) (iblk1 V c 9 t) p z ⟨t.val * 512 + p.val, by omega⟩ _ 0 _
      (adjRowA V c t h p ⟨t.val * 512 + p.val, by omega⟩ rfl) (whole1_2 V c t) (whole1_4 V c t) (whole1_5 V c t) (whole1_6 V c t) (whole1_7 V c t) (whole1_8 V c t) (whole1_9 V c t) (by show (fun i => Cert.Spec.score _ (Cert.Spec.normalize (Cert.Spec.prop (if (0 : Fin 2) = 0 then _ else _) _)) i) = _; rw [if_pos rfl]) (by show win1_12.index t (0 : Fin 2) * 512 + 1 * p.val = 0 * 4096 + (t.val * 512 + p.val); omega)
  · rw [out1_12_B V c t h, piece1_B_12]
    funext y
    obtain ⟨p, z, rfl⟩ : ∃ (p : Fin 512) (z : Fin 1), y = ix2 p z := ⟨y 0, y 1, eq_ix2 y⟩
    have hp := p.isLt
    show k1_pay1 (k1_pay6 (k1_pay4 (iblk1 V c 1 t)) (iblk1 V c 2 t) (iblk1 V c 4 t) (iblk1 V c 5 t) (iblk1 V c 6 t)) (iblk1 V c 7 t) (iblk1 V c 8 t) (iblk1 V c 9 t) (ix2 p z) = Cert.Spec.stackCol (fun b i => Cert.Spec.score (Cert.Spec.headRows (V c main_arg6) (V c main_v0) (V c main_arg8) (V c main_v1) (V c main_v2) (V c main_v3)) (Cert.Spec.normalize (Cert.Spec.prop (if b = 0 then Cert.Spec.mat (V c main_arg0) else Cert.Spec.mat (V c main_arg1)) (Cert.Spec.mat (V c main_v4)))) i) (((cfg1.win 12).blk t).view.emb (ix2 p z))
    exact pt1_score (V c main_arg1) (V c main_v4) (V c main_arg6) (V c main_v0) (V c main_arg8) (V c main_v1) (V c main_v2) (V c main_v3) (k1_pay4 (iblk1 V c 1 t)) (iblk1 V c 2 t) (iblk1 V c 4 t) (iblk1 V c 5 t) (iblk1 V c 6 t) (iblk1 V c 7 t) (iblk1 V c 8 t) (iblk1 V c 9 t) p z ⟨(t.val - 8) * 512 + p.val, by omega⟩ _ 1 _
      (adjRowB V c t h p ⟨(t.val - 8) * 512 + p.val, by omega⟩ rfl) (whole1_2 V c t) (whole1_4 V c t) (whole1_5 V c t) (whole1_6 V c t) (whole1_7 V c t) (whole1_8 V c t) (whole1_9 V c t) (by show (fun i => Cert.Spec.score _ (Cert.Spec.normalize (Cert.Spec.prop (if (1 : Fin 2) = 0 then _ else _) _)) i) = _; rw [if_neg (by decide)]) (by show win1_12.index t (0 : Fin 2) * 512 + 1 * p.val = 1 * 4096 + ((t.val - 8) * 512 + p.val); omega)

/-- An index of output 10's array is in point t's block iff each coordinate is in the block's range on its axis. -/
theorem mem_blk1_10 (t : Fin cfg1.N) (i : S8192x4096.Idx) :
    i ∈ ((cfg1.win 10).blk t).view.set ↔ ∀ a : Fin 2, win1_10.index t a * S512x4096.size a ≤ (i a).val ∧ (i a).val < win1_10.index t a * S512x4096.size a + S512x4096.size a := by
  show i ∈ ((View.whole main_v5_0).slice (win1_10.rect t)).set ↔ _
  rw [View.set_slice_whole, Rect.mem_set_unit]
  exact Iff.rfl

/-- Row i of output 10's array is in the block of point i / 512. -/
theorem cover1_10 (i : S8192x4096.Idx) : ∃ t : Fin cfg1.N, (cfg1.win 10).flush t = true ∧ i ∈ ((cfg1.win 10).blk t).view.set := by
  have hi0 : (i 0).val < 8192 := (i 0).isLt
  have hi1 : (i 1).val < 4096 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  refine ⟨t, flush1_10 t, ?_⟩
  rw [mem_blk1_10]
  intro a
  match a with
  | ⟨0, _⟩ => show win1_10.index t (0 : Fin 2) * 512 ≤ (i 0).val ∧ (i 0).val < win1_10.index t (0 : Fin 2) * 512 + 512; omega
  | ⟨1, _⟩ => show win1_10.index t (1 : Fin 2) * 4096 ≤ (i 1).val ∧ (i 1).val < win1_10.index t (1 : Fin 2) * 4096 + 4096; omega

/-- An index of output 11's array is in point t's block iff each coordinate is in the block's range on its axis. -/
theorem mem_blk1_11 (t : Fin cfg1.N) (i : S8192x128.Idx) :
    i ∈ ((cfg1.win 11).blk t).view.set ↔ ∀ a : Fin 2, win1_11.index t a * S512x128.size a ≤ (i a).val ∧ (i a).val < win1_11.index t a * S512x128.size a + S512x128.size a := by
  show i ∈ ((View.whole main_v5_1).slice (win1_11.rect t)).set ↔ _
  rw [View.set_slice_whole, Rect.mem_set_unit]
  exact Iff.rfl

/-- Row i of output 11's array is in the block of point i / 512. -/
theorem cover1_11 (i : S8192x128.Idx) : ∃ t : Fin cfg1.N, (cfg1.win 11).flush t = true ∧ i ∈ ((cfg1.win 11).blk t).view.set := by
  have hi0 : (i 0).val < 8192 := (i 0).isLt
  have hi1 : (i 1).val < 128 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  refine ⟨t, flush1_11 t, ?_⟩
  rw [mem_blk1_11]
  intro a
  match a with
  | ⟨0, _⟩ => show win1_11.index t (0 : Fin 2) * 512 ≤ (i 0).val ∧ (i 0).val < win1_11.index t (0 : Fin 2) * 512 + 512; omega
  | ⟨1, _⟩ => show win1_11.index t (1 : Fin 2) * 128 ≤ (i 1).val ∧ (i 1).val < win1_11.index t (1 : Fin 2) * 128 + 128; omega

/-- An index of output 12's array is in point t's block iff each coordinate is in the block's range on its axis. -/
theorem mem_blk1_12 (t : Fin cfg1.N) (i : S8192x1.Idx) :
    i ∈ ((cfg1.win 12).blk t).view.set ↔ ∀ a : Fin 2, win1_12.index t a * S512x1.size a ≤ (i a).val ∧ (i a).val < win1_12.index t a * S512x1.size a + S512x1.size a := by
  show i ∈ ((View.whole main_v5_2).slice (win1_12.rect t)).set ↔ _
  rw [View.set_slice_whole, Rect.mem_set_unit]
  exact Iff.rfl

/-- Row i of output 12's array is in the block of point i / 512. -/
theorem cover1_12 (i : S8192x1.Idx) : ∃ t : Fin cfg1.N, (cfg1.win 12).flush t = true ∧ i ∈ ((cfg1.win 12).blk t).view.set := by
  have hi0 : (i 0).val < 8192 := (i 0).isLt
  have hi1 : (i 1).val < 1 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIdx1 t
  refine ⟨t, flush1_12 t, ?_⟩
  rw [mem_blk1_12]
  intro a
  match a with
  | ⟨0, _⟩ => show win1_12.index t (0 : Fin 2) * 512 ≤ (i 0).val ∧ (i 0).val < win1_12.index t (0 : Fin 2) * 512 + 512; omega
  | ⟨1, _⟩ => show win1_12.index t (1 : Fin 2) * 1 ≤ (i 1).val ∧ (i 1).val < win1_12.index t (1 : Fin 2) * 1 + 1; omega

/-- The adjacency output after the launch: the two adjacency matrices stacked. -/
theorem final1_adjb (c : Dev nD) : (Cert.KernelIdeal.Hand.dat1 (F := Ideal) V c).arrAt 10 cfg1.N = Cert.Spec.stack (fun b => if b = 0 then Cert.Spec.mat (V c main_arg0) else Cert.Spec.mat (V c main_arg1)) :=
  (dat1 (F := Ideal) V c).arrAt_eq_of_cover 10 _ (fun t _ => flushed1_10_eq V c t) cover1_10

/-- The right-hand-side output after the launch: each branch's first-layer features times the second layer's weight, stacked. -/
theorem final1_rhs (c : Dev nD) : (Cert.KernelIdeal.Hand.dat1 (F := Ideal) V c).arrAt 11 cfg1.N = Cert.Spec.stack (fun b => Cert.Spec.times (Cert.Spec.normalize (Cert.Spec.prop (if b = 0 then Cert.Spec.mat (V c main_arg0) else Cert.Spec.mat (V c main_arg1)) (Cert.Spec.mat (V c main_v4)))) (Cert.Spec.mat (V c main_arg3))) :=
  (dat1 (F := Ideal) V c).arrAt_eq_of_cover 11 _ (fun t _ => flushed1_11_eq V c t) cover1_11

/-- The score output after the launch: each branch's first-layer scores, stacked. -/
theorem final1_s (c : Dev nD) : (Cert.KernelIdeal.Hand.dat1 (F := Ideal) V c).arrAt 12 cfg1.N = Cert.Spec.stackCol (fun b i => Cert.Spec.score (Cert.Spec.headRows (V c main_arg6) (V c main_v0) (V c main_arg8) (V c main_v1) (V c main_v2) (V c main_v3)) (Cert.Spec.normalize (Cert.Spec.prop (if b = 0 then Cert.Spec.mat (V c main_arg0) else Cert.Spec.mat (V c main_arg1)) (Cert.Spec.mat (V c main_v4)))) i) :=
  (dat1 (F := Ideal) V c).arrAt_eq_of_cover 12 _ (fun t _ => flushed1_12_eq V c t) cover1_12

end Cert.KernelIdeal.HandValue

end
-- ==== Proof.KernelIdeal.Value2.lean ====
/-
  What the first middle graph-convolution launch leaves in its two output arrays, both of 8192 rows (the first
  branch's 4096 rows stacked on the second's). Grid point t handles rows 512·t … 512·t + 511, all of branch b = t / 8:
  it multiplies those rows of the stacked adjacency by the branch's 4096 × 128 right-hand side, clamps at zero, and
  divides each row by the larger of its Euclidean norm and a small constant. To the one output it writes those
  normalized rows times the next layer's 128 × 128 weight; to the other the incoming scores of those rows plus the
  three-layer scoring head of the normalized rows. Each stored entry depends only on its own row of the adjacency, so
  the sixteen points' blocks are the blocks of one array defined row by row.
-/
import proofs.«132566_g10127532884217_week1_w1_345_7_alg».proof.Proof.KernelIdeal.Region2
import proofs.«132566_g10127532884217_week1_w1_345_7_alg».proof.Proof.KernelIdeal.ValueLib
import proofs.«132566_g10127532884217_week1_w1_345_7_alg».proof.Proof.SpecStack

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec (stackedRow branchOf rowIn rowsOf colOf stack stackCol headRows score prop normalize times mat)

variable (V : (c : Dev nD) → (b : Ref sig .tc) → Buf (Elt Ideal) ((c : Thread nD τ).loc b))

/-! ## The stored values at an index -/

/-- Entry (p, j) of the normalized rows: the clamped product entry over the larger of the row's norm and the constant. -/
theorem norm2_apply (x0 : Vec Ideal S512x4096 .bf16) (x1 : Vec Ideal S4096x128 .bf16) (p : Fin 512) (j : Fin 128) :
    k2_pay3 x0 x1 (ix2 p j)
      = Ideal.div (max (∑ q : Fin 4096, x0 (ix2 p q) * x1 (ix2 q j)) 0)
          (max (Ideal.sqrt (∑ l : Fin 128, max (∑ q : Fin 4096, x0 (ix2 p q) * x1 (ix2 q l)) 0 * max (∑ q : Fin 4096, x0 (ix2 p q) * x1 (ix2 q l)) 0))
            (Ideal.ofBits .f32 0x2B8CBCCC#32)) := by
  unfold k2_pay3
  simp only [shapeCast_self, divf_apply, colBcast_apply, maximumf_apply, sqrt_apply, colCast_apply, laneSum_apply (a := 512) (b := 128), mulf_apply,
    broadcast_apply, mmAdj_apply, zeroWord, Ideal.ofBits_def, Ideal.ofBits_zero_f32]

/-- Entry (p, j) of the next right-hand side: row p of the features times column j of the layer weight. -/
theorem rhs2_apply (v14 : FVec Ideal S512x128 .f32) (v50 : Vec Ideal S128x128 .f32) (p : Fin 512) (j : Fin 128) :
    k2_pay2 v14 v50 (ix2 p j) = ∑ k : Fin 128, v14 (ix2 p k) * v50 (ix2 k j) := by
  unfold k2_pay2
  simp only [truncf_apply, mmW_apply]

/-- The incoming score block passes through unchanged. -/
theorem sIn2_apply (x9 : Vec Ideal S512x1 .f32) (y : S512x1.Idx) : k2_pay4 x9 y = x9 y := by
  unfold k2_pay4
  exact congrFun (shapeCast_self x9 _) y

/-- The zero block the head's second hidden layer is clamped against. -/
theorem zero2_apply (y : S512x256.Idx) : k2_pay6 (F := Ideal) y = 0 := by
  unfold k2_pay6
  simp only [broadcast_apply, zeroWord]

/-- Entry (p, k) of the head's second hidden layer before its clamp, over the features `k2_pay3 x0 x1`. -/
theorem hid2_apply (x0 : Vec Ideal S512x4096 .bf16) (x1 : Vec Ideal S4096x128 .bf16) (x3 : Vec Ideal S128x256 .f32) (x4 : Vec Ideal S1x256 .f32)
    (x5 : Vec Ideal S256x256 .f32) (x6 : Vec Ideal S1x256 .f32) (p : Fin 512) (k : Fin 256) :
    k2_pay5 x0 x1 x3 x4 x5 x6 (ix2 p k)
      = (∑ k2 : Fin 256, max ((∑ k1 : Fin 128, k2_pay3 x0 x1 (ix2 p k1) * x3 (ix2 k1 k2)) + x4 (ix2 0 k2)) 0 * x5 (ix2 k2 k)) + x6 (ix2 0 k) := by
  unfold k2_pay5
  simp only [shapeCast_self, mulf_apply, maximumf_apply, addf_apply, truncf_apply, broadcast_apply, broadcastTo_1b_ab_apply, mmL1_apply, mmL2_apply,
    zeroWord]

/-- The stored score of row p: the incoming score plus the head's last layer plus the last bias. -/
theorem score2_apply (v16 : FVec Ideal S512x1 .f32) (v34 v35 : FVec Ideal S512x256 .f32) (v37 : Vec Ideal S1x256 .f32) (v43 : Vec Ideal S1x1 .f32)
    (p : Fin 512) (z : Fin 1) :
    k2_pay1 v16 v34 v35 v37 v43 (ix2 p z)
      = v16 (ix2 p z) + ((∑ k : Fin 256, max (v34 (ix2 p k)) (v35 (ix2 p k)) * v37 (ix2 0 k)) + v43 (ix2 0 z)) := by
  unfold k2_pay1
  simp only [shapeCast_self, colCast_apply, laneSum_apply (a := 512) (b := 256), mulf_apply, maximumf_apply, addf_apply, broadcastTo_1b_ab_apply]

/-! ## One stored entry of each output, over variables -/

/-- When row `y 0` of the adjacency block is row `i` of branch `b` of the stacked adjacency, the right-hand-side block
    is branch `b`'s rows of the stacked right-hand side and the weight block is the weight array, the entry stored to
    the next right-hand side is entry (i, y 1) of the normalized clamped product times the weight. -/
theorem point2_rhs (adj : S8192x4096.Idx → EReal) (rhs : S8192x128.Idx → EReal) (w : S128x128.Idx → EReal)
    (x0 : Vec Ideal S512x4096 .bf16) (x1 : Vec Ideal S4096x128 .bf16) (x2 : Vec Ideal S128x128 .f32)
    (y : S512x128.Idx) (b : Fin 2) (i : Fin 4096)
    (h0 : ∀ q : Fin 4096, x0 (ix2 (y 0) q) = adj (ix2 (stackedRow b i) q))
    (h1 : ∀ (q : Fin 4096) (k : Fin 128), x1 (ix2 q k) = rhs (ix2 (stackedRow b q) k))
    (h2 : x2 = w) :
    k2_pay2 (k2_pay3 x0 x1) x2 y = times (normalize (prop (rowsOf adj b) (rowsOf rhs b))) (mat w) i (y 1) := by
  obtain ⟨p, j, rfl⟩ : ∃ (p : Fin 512) (j : Fin 128), y = ix2 p j := ⟨y 0, y 1, eq_ix2 y⟩
  subst h2
  rw [rhs2_apply]
  simp only [norm2_apply, h0, h1]
  rfl

/-- With the head's parameter blocks the parameter arrays and the incoming entry branch `b`'s incoming score of row
    `i`, the stored score is that incoming score plus the head's score of row `i` of the normalized clamped product. -/
theorem point2_s (adj : S8192x4096.Idx → EReal) (rhs : S8192x128.Idx → EReal) (l1w : S128x256.Idx → EReal) (l1b : S1x256.Idx → EReal)
    (l2w : S256x256.Idx → EReal) (l2b : S1x256.Idx → EReal) (l3r : S1x256.Idx → EReal) (l3b : S1x1.Idx → EReal) (sin : S8192x1.Idx → EReal)
    (x0 : Vec Ideal S512x4096 .bf16) (x1 : Vec Ideal S4096x128 .bf16) (x3 : Vec Ideal S128x256 .f32) (x4 : Vec Ideal S1x256 .f32)
    (x5 : Vec Ideal S256x256 .f32) (x6 : Vec Ideal S1x256 .f32) (x7 : Vec Ideal S1x256 .f32) (x8 : Vec Ideal S1x1 .f32) (x9 : Vec Ideal S512x1 .f32)
    (y : S512x1.Idx) (b : Fin 2) (i : Fin 4096)
    (h0 : ∀ q : Fin 4096, x0 (ix2 (y 0) q) = adj (ix2 (stackedRow b i) q))
    (h1 : ∀ (q : Fin 4096) (k : Fin 128), x1 (ix2 q k) = rhs (ix2 (stackedRow b q) k))
    (h3 : x3 = l1w) (h4 : x4 = l1b) (h5 : x5 = l2w) (h6 : x6 = l2b) (h7 : x7 = l3r) (h8 : x8 = l3b)
    (h9 : x9 y = sin (ix2 (stackedRow b i) 0)) :
    k2_pay1 (k2_pay4 x9) (k2_pay5 x0 x1 x3 x4 x5 x6) (k2_pay6 (F := Ideal)) x7 x8 y
      = colOf sin b i + score (headRows l1w l1b l2w l2b l3r l3b) (normalize (prop (rowsOf adj b) (rowsOf rhs b))) i := by
  obtain ⟨p, z, rfl⟩ : ∃ (p : Fin 512) (z : Fin 1), y = ix2 p z := ⟨y 0, y 1, eq_ix2 y⟩
  obtain rfl : z = 0 := Subsingleton.elim _ _
  subst h3 h4 h5 h6 h7 h8
  rw [score2_apply, sIn2_apply, h9]
  simp only [hid2_apply, zero2_apply, norm2_apply, h0, h1]
  rfl

/-! ## From the blocks to the arrays -/

/-- The index maps over the grid of sixteen points: at point t the adjacency, the incoming scores and the two outputs
    are at block t; the right-hand side is at block t / 8, the branch; every parameter window is at its one block. -/
theorem blockIdx2 : ∀ t : Fin cfg2.N, win2_0.index t (0 : Fin 2) = t.val
    ∧ win2_0.index t (1 : Fin 2) = 0
    ∧ win2_1.index t (0 : Fin 2) = t.val / 8
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0
    ∧ win2_10.index t (0 : Fin 2) = t.val
    ∧ win2_10.index t (1 : Fin 2) = 0
    ∧ win2_11.index t (0 : Fin 2) = t.val
    ∧ win2_11.index t (1 : Fin 2) = 0 :=
  (by decide +kernel : ∀ t : Fin grid2.N, _)

/-- What point t writes back to the next right-hand side is block t of the stacked normalized rows times the weight. -/
theorem flushed2_rhs_eq (c : Dev nD) (t : Fin cfg2.N) :
    (dat2 (F := Ideal) V c).flushed 10 t = ((cfg2.win 10).blk t).view.read (Elt Ideal)
      (stack (fun b => times (normalize (prop (rowsOf (V c main_v5_0) b) (rowsOf (V c main_v5_1) b))) (mat (V c main_arg4)))) := by
  show (cfg2.win 10).cut (grid2.coords t) ((dat2 (F := Ideal) V c).after 10 t) = _
  rw [after2_10]
  unfold out2_10
  rw [View.canon_unit_zero zeroOff]
  simp only [View.ld_unit_zero (S := S512x1) zeroOff, View.ld_unit_zero (S := S512x4096) zeroOff, View.ld_unit_zero (S := S4096x128) zeroOff,
    View.ld_unit_zero (S := S128x128) zeroOff, View.ld_unit_zero (S := S128x256) zeroOff, View.ld_unit_zero (S := S1x256) zeroOff,
    View.ld_unit_zero (S := S256x256) zeroOff, View.ld_unit_zero (S := S1x1) zeroOff]
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx2 t
  have hN : cfg2.N = 16 := N_2
  have ht : t.val < 16 := hN ▸ t.isLt
  have e2 : iblk2 V c 2 t = (V c main_arg4 : S128x128.Idx → EReal) := funext fun u => by
    show (V c main_arg4 : S128x128.Idx → EReal) (((cfg2.win 2).blk t).view.emb u) = (V c main_arg4 : S128x128.Idx → EReal) u
    refine readAt (V c main_arg4 : S128x128.Idx → EReal) _ _ fun a => ?_
    match a with
    | ⟨0, _⟩ => show win2_2.index t (0 : Fin 2) * 128 + 1 * (u 0).val = (u 0).val; omega
    | ⟨1, _⟩ => show win2_2.index t (1 : Fin 2) * 128 + 1 * (u 1).val = (u 1).val; omega
  funext y
  have hy0 : (y 0).val < 512 := (y 0).isLt
  have hy1 : (y 1).val < 128 := (y 1).isLt
  obtain ⟨r, hr⟩ : ∃ r : Fin 8192, r.val = t.val * 512 + (y 0).val := ⟨⟨t.val * 512 + (y 0).val, by omega⟩, rfl⟩
  have hemb : (((cfg2.win 10).blk t).view.emb y) 0 = r := Fin.ext (by
    show win2_10.index t (0 : Fin 2) * 512 + 1 * (y 0).val = r.val; omega)
  have hb : (branchOf r).val = t.val / 8 := by show r.val / 4096 = t.val / 8; omega
  have hemb1 : (((cfg2.win 10).blk t).view.emb y) 1 = y 1 := Fin.ext (by
    show win2_10.index t (1 : Fin 2) * 128 + 1 * (y 1).val = (y 1).val; omega)
  show k2_pay2 (k2_pay3 (iblk2 V c 0 t) (iblk2 V c 1 t)) (iblk2 V c 2 t) y
    = times (normalize (prop (rowsOf (V c main_v5_0) (branchOf ((((cfg2.win 10).blk t).view.emb y) 0))) (rowsOf (V c main_v5_1) (branchOf ((((cfg2.win 10).blk t).view.emb y) 0)))))
        (mat (V c main_arg4)) (rowIn ((((cfg2.win 10).blk t).view.emb y) 0)) ((((cfg2.win 10).blk t).view.emb y) 1)
  rw [hemb, hemb1]
  refine point2_rhs (V c main_v5_0) (V c main_v5_1) (V c main_arg4) (iblk2 V c 0 t) (iblk2 V c 1 t) (iblk2 V c 2 t)
    y (branchOf r) (rowIn r) (fun q => ?_) (fun q k => ?_) e2
  · rw [Cert.Spec.stackedRow_branchOf_rowIn]
    show (V c main_v5_0 : S8192x4096.Idx → EReal) (((cfg2.win 0).blk t).view.emb (ix2 (y 0) q)) = (V c main_v5_0 : S8192x4096.Idx → EReal) (ix2 r q)
    refine readAt (V c main_v5_0 : S8192x4096.Idx → EReal) _ _ fun a => ?_
    match a with
    | ⟨0, _⟩ => show win2_0.index t (0 : Fin 2) * 512 + 1 * (y 0).val = r.val; omega
    | ⟨1, _⟩ => show win2_0.index t (1 : Fin 2) * 4096 + 1 * q.val = q.val; omega
  · show (V c main_v5_1 : S8192x128.Idx → EReal) (((cfg2.win 1).blk t).view.emb (ix2 q k)) = (V c main_v5_1 : S8192x128.Idx → EReal) (ix2 (stackedRow (branchOf r) q) k)
    refine readAt (V c main_v5_1 : S8192x128.Idx → EReal) _ _ fun a => ?_
    match a with
    | ⟨0, _⟩ => show win2_1.index t (0 : Fin 2) * 4096 + 1 * q.val = (branchOf r).val * 4096 + q.val; omega
    | ⟨1, _⟩ => show win2_1.index t (1 : Fin 2) * 128 + 1 * k.val = k.val; omega

/-- What point t writes back to the score column is block t of the column of updated scores. -/
theorem flushed2_s_eq (c : Dev nD) (t : Fin cfg2.N) :
    (dat2 (F := Ideal) V c).flushed 11 t = ((cfg2.win 11).blk t).view.read (Elt Ideal)
      (stackCol (fun b i => colOf (V c main_v5_2) b i + score (headRows (V c main_arg6) (V c main_v0) (V c main_arg8) (V c main_v1) (V c main_v2) (V c main_v3))
        (normalize (prop (rowsOf (V c main_v5_0) b) (rowsOf (V c main_v5_1) b))) i)) := by
  show (cfg2.win 11).cut (grid2.coords t) ((dat2 (F := Ideal) V c).after 11 t) = _
  rw [after2_11]
  unfold out2_11
  rw [View.canon_unit_zero zeroOff]
  simp only [View.ld_unit_zero (S := S512x1) zeroOff, View.ld_unit_zero (S := S512x4096) zeroOff, View.ld_unit_zero (S := S4096x128) zeroOff,
    View.ld_unit_zero (S := S128x128) zeroOff, View.ld_unit_zero (S := S128x256) zeroOff, View.ld_unit_zero (S := S1x256) zeroOff,
    View.ld_unit_zero (S := S256x256) zeroOff, View.ld_unit_zero (S := S1x1) zeroOff]
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx2 t
  have hN : cfg2.N = 16 := N_2
  have ht : t.val < 16 := hN ▸ t.isLt
  have e3 : iblk2 V c 3 t = (V c main_arg6 : S128x256.Idx → EReal) := funext fun u => by
    show (V c main_arg6 : S128x256.Idx → EReal) (((cfg2.win 3).blk t).view.emb u) = (V c main_arg6 : S128x256.Idx → EReal) u
    refine readAt (V c main_arg6 : S128x256.Idx → EReal) _ _ fun a => ?_
    match a with
    | ⟨0, _⟩ => show win2_3.index t (0 : Fin 2) * 128 + 1 * (u 0).val = (u 0).val; omega
    | ⟨1, _⟩ => show win2_3.index t (1 : Fin 2) * 256 + 1 * (u 1).val = (u 1).val; omega
  have e4 : iblk2 V c 4 t = (V c main_v0 : S1x256.Idx → EReal) := funext fun u => by
    show (V c main_v0 : S1x256.Idx → EReal) (((cfg2.win 4).blk t).view.emb u) = (V c main_v0 : S1x256.Idx → EReal) u
    refine readAt (V c main_v0 : S1x256.Idx → EReal) _ _ fun a => ?_
    match a with
    | ⟨0, _⟩ => show win2_4.index t (0 : Fin 2) * 1 + 1 * (u 0).val = (u 0).val; omega
    | ⟨1, _⟩ => show win2_4.index t (1 : Fin 2) * 256 + 1 * (u 1).val = (u 1).val; omega
  have e5 : iblk2 V c 5 t = (V c main_arg8 : S256x256.Idx → EReal) := funext fun u => by
    show (V c main_arg8 : S256x256.Idx → EReal) (((cfg2.win 5).blk t).view.emb u) = (V c main_arg8 : S256x256.Idx → EReal) u
    refine readAt (V c main_arg8 : S256x256.Idx → EReal) _ _ fun a => ?_
    match a with
    | ⟨0, _⟩ => show win2_5.index t (0 : Fin 2) * 256 + 1 * (u 0).val = (u 0).val; omega
    | ⟨1, _⟩ => show win2_5.index t (1 : Fin 2) * 256 + 1 * (u 1).val = (u 1).val; omega
  have e6 : iblk2 V c 6 t = (V c main_v1 : S1x256.Idx → EReal) := funext fun u => by
    show (V c main_v1 : S1x256.Idx → EReal) (((cfg2.win 6).blk t).view.emb u) = (V c main_v1 : S1x256.Idx → EReal) u
    refine readAt (V c main_v1 : S1x256.Idx → EReal) _ _ fun a => ?_
    match a with
    | ⟨0, _⟩ => show win2_6.index t (0 : Fin 2) * 1 + 1 * (u 0).val = (u 0).val; omega
    | ⟨1, _⟩ => show win2_6.index t (1 : Fin 2) * 256 + 1 * (u 1).val = (u 1).val; omega
  have e7 : iblk2 V c 7 t = (V c main_v2 : S1x256.Idx → EReal) := funext fun u => by
    show (V c main_v2 : S1x256.Idx → EReal) (((cfg2.win 7).blk t).view.emb u) = (V c main_v2 : S1x256.Idx → EReal) u
    refine readAt (V c main_v2 : S1x256.Idx → EReal) _ _ fun a => ?_
    match a with
    | ⟨0, _⟩ => show win2_7.index t (0 : Fin 2) * 1 + 1 * (u 0).val = (u 0).val; omega
    | ⟨1, _⟩ => show win2_7.index t (1 : Fin 2) * 256 + 1 * (u 1).val = (u 1).val; omega
  have e8 : iblk2 V c 8 t = (V c main_v3 : S1x1.Idx → EReal) := funext fun u => by
    show (V c main_v3 : S1x1.Idx → EReal) (((cfg2.win 8).blk t).view.emb u) = (V c main_v3 : S1x1.Idx → EReal) u
    refine readAt (V c main_v3 : S1x1.Idx → EReal) _ _ fun a => ?_
    match a with
    | ⟨0, _⟩ => show win2_8.index t (0 : Fin 2) * 1 + 1 * (u 0).val = (u 0).val; omega
    | ⟨1, _⟩ => show win2_8.index t (1 : Fin 2) * 1 + 1 * (u 1).val = (u 1).val; omega
  funext y
  have hy0 : (y 0).val < 512 := (y 0).isLt
  have hy1 : (y 1).val < 1 := (y 1).isLt
  obtain ⟨r, hr⟩ : ∃ r : Fin 8192, r.val = t.val * 512 + (y 0).val := ⟨⟨t.val * 512 + (y 0).val, by omega⟩, rfl⟩
  have hemb : (((cfg2.win 11).blk t).view.emb y) 0 = r := Fin.ext (by
    show win2_11.index t (0 : Fin 2) * 512 + 1 * (y 0).val = r.val; omega)
  have hb : (branchOf r).val = t.val / 8 := by show r.val / 4096 = t.val / 8; omega
  show k2_pay1 (k2_pay4 (iblk2 V c 9 t)) (k2_pay5 (iblk2 V c 0 t) (iblk2 V c 1 t) (iblk2 V c 3 t) (iblk2 V c 4 t) (iblk2 V c 5 t) (iblk2 V c 6 t)) (k2_pay6 (F := Ideal)) (iblk2 V c 7 t) (iblk2 V c 8 t) y
    = colOf (V c main_v5_2) (branchOf ((((cfg2.win 11).blk t).view.emb y) 0)) (rowIn ((((cfg2.win 11).blk t).view.emb y) 0))
      + score (headRows (V c main_arg6) (V c main_v0) (V c main_arg8) (V c main_v1) (V c main_v2) (V c main_v3))
        (normalize (prop (rowsOf (V c main_v5_0) (branchOf ((((cfg2.win 11).blk t).view.emb y) 0))) (rowsOf (V c main_v5_1) (branchOf ((((cfg2.win 11).blk t).view.emb y) 0)))))
        (rowIn ((((cfg2.win 11).blk t).view.emb y) 0))
  rw [hemb]
  refine point2_s (V c main_v5_0) (V c main_v5_1) (V c main_arg6) (V c main_v0) (V c main_arg8) (V c main_v1) (V c main_v2) (V c main_v3) (V c main_v5_2)
    (iblk2 V c 0 t) (iblk2 V c 1 t) (iblk2 V c 3 t) (iblk2 V c 4 t) (iblk2 V c 5 t) (iblk2 V c 6 t) (iblk2 V c 7 t) (iblk2 V c 8 t) (iblk2 V c 9 t)
    y (branchOf r) (rowIn r) (fun q => ?_) (fun q k => ?_) e3 e4 e5 e6 e7 e8 ?_
  · rw [Cert.Spec.stackedRow_branchOf_rowIn]
    show (V c main_v5_0 : S8192x4096.Idx → EReal) (((cfg2.win 0).blk t).view.emb (ix2 (y 0) q)) = (V c main_v5_0 : S8192x4096.Idx → EReal) (ix2 r q)
    refine readAt (V c main_v5_0 : S8192x4096.Idx → EReal) _ _ fun a => ?_
    match a with
    | ⟨0, _⟩ => show win2_0.index t (0 : Fin 2) * 512 + 1 * (y 0).val = r.val; omega
    | ⟨1, _⟩ => show win2_0.index t (1 : Fin 2) * 4096 + 1 * q.val = q.val; omega
  · show (V c main_v5_1 : S8192x128.Idx → EReal) (((cfg2.win 1).blk t).view.emb (ix2 q k)) = (V c main_v5_1 : S8192x128.Idx → EReal) (ix2 (stackedRow (branchOf r) q) k)
    refine readAt (V c main_v5_1 : S8192x128.Idx → EReal) _ _ fun a => ?_
    match a with
    | ⟨0, _⟩ => show win2_1.index t (0 : Fin 2) * 4096 + 1 * q.val = (branchOf r).val * 4096 + q.val; omega
    | ⟨1, _⟩ => show win2_1.index t (1 : Fin 2) * 128 + 1 * k.val = k.val; omega
  · rw [Cert.Spec.stackedRow_branchOf_rowIn]
    show (V c main_v5_2 : S8192x1.Idx → EReal) (((cfg2.win 9).blk t).view.emb y) = (V c main_v5_2 : S8192x1.Idx → EReal) (ix2 r 0)
    refine readAt (V c main_v5_2 : S8192x1.Idx → EReal) _ _ fun a => ?_
    match a with
    | ⟨0, _⟩ => show win2_9.index t (0 : Fin 2) * 512 + 1 * (y 0).val = r.val; omega
    | ⟨1, _⟩ => show win2_9.index t (1 : Fin 2) * 1 + 1 * (y 1).val = 0; omega

/-- An index of the array of output window 10 is in point t's block iff each coordinate is in the block's range. -/
theorem mem_blk2_10 (t : Fin cfg2.N) (i : S8192x128.Idx) :
    i ∈ ((cfg2.win 10).blk t).view.set ↔ ∀ a : Fin 2, win2_10.index t a * S512x128.size a ≤ (i a).val ∧ (i a).val < win2_10.index t a * S512x128.size a + S512x128.size a := by
  show i ∈ ((View.whole main_v6_0).slice (win2_10.rect t)).set ↔ _
  rw [View.set_slice_whole, Rect.mem_set_unit]
  exact Iff.rfl

/-- Row r of that array is in the block of point r / 512. -/
theorem cover2_10 (i : S8192x128.Idx) : ∃ t : Fin cfg2.N, (cfg2.win 10).flush t = true ∧ i ∈ ((cfg2.win 10).blk t).view.set := by
  have hi0 : (i 0).val < 8192 := (i 0).isLt
  have hi1 : (i 1).val < 128 := (i 1).isLt
  have hN : cfg2.N = 16 := N_2
  obtain ⟨t, ht⟩ : ∃ t : Fin cfg2.N, t.val = (i 0).val / 512 := ⟨⟨(i 0).val / 512, by rw [hN]; omega⟩, rfl⟩
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx2 t
  refine ⟨t, flush2_10 t, ?_⟩
  rw [mem_blk2_10]
  intro a
  match a with
  | ⟨0, _⟩ => show win2_10.index t (0 : Fin 2) * 512 ≤ (i 0).val ∧ (i 0).val < win2_10.index t (0 : Fin 2) * 512 + 512; omega
  | ⟨1, _⟩ => show win2_10.index t (1 : Fin 2) * 128 ≤ (i 1).val ∧ (i 1).val < win2_10.index t (1 : Fin 2) * 128 + 128; omega

/-- An index of the array of output window 11 is in point t's block iff each coordinate is in the block's range. -/
theorem mem_blk2_11 (t : Fin cfg2.N) (i : S8192x1.Idx) :
    i ∈ ((cfg2.win 11).blk t).view.set ↔ ∀ a : Fin 2, win2_11.index t a * S512x1.size a ≤ (i a).val ∧ (i a).val < win2_11.index t a * S512x1.size a + S512x1.size a := by
  show i ∈ ((View.whole main_v6_1).slice (win2_11.rect t)).set ↔ _
  rw [View.set_slice_whole, Rect.mem_set_unit]
  exact Iff.rfl

/-- Row r of that array is in the block of point r / 512. -/
theorem cover2_11 (i : S8192x1.Idx) : ∃ t : Fin cfg2.N, (cfg2.win 11).flush t = true ∧ i ∈ ((cfg2.win 11).blk t).view.set := by
  have hi0 : (i 0).val < 8192 := (i 0).isLt
  have hi1 : (i 1).val < 1 := (i 1).isLt
  have hN : cfg2.N = 16 := N_2
  obtain ⟨t, ht⟩ : ∃ t : Fin cfg2.N, t.val = (i 0).val / 512 := ⟨⟨(i 0).val / 512, by rw [hN]; omega⟩, rfl⟩
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx2 t
  refine ⟨t, flush2_11 t, ?_⟩
  rw [mem_blk2_11]
  intro a
  match a with
  | ⟨0, _⟩ => show win2_11.index t (0 : Fin 2) * 512 ≤ (i 0).val ∧ (i 0).val < win2_11.index t (0 : Fin 2) * 512 + 512; omega
  | ⟨1, _⟩ => show win2_11.index t (1 : Fin 2) * 1 ≤ (i 1).val ∧ (i 1).val < win2_11.index t (1 : Fin 2) * 1 + 1; omega

/-- The next right-hand side after the launch: each branch's normalized clamped product times the layer weight. -/
theorem final2_rhs (c : Dev nD) : (Cert.KernelIdeal.Hand.dat2 (F := Ideal) V c).arrAt 10 cfg2.N = Cert.Spec.stack (fun b => Cert.Spec.times (Cert.Spec.normalize (Cert.Spec.prop (Cert.Spec.rowsOf (V c main_v5_0) b) (Cert.Spec.rowsOf (V c main_v5_1) b))) (Cert.Spec.mat (V c main_arg4))) :=
  (dat2 (F := Ideal) V c).arrAt_eq_of_cover 10 _ (fun t _ => flushed2_rhs_eq V c t) cover2_10

/-- The score column after the launch: each branch's incoming scores plus the head's scores of its normalized clamped
    product. -/
theorem final2_s (c : Dev nD) : (Cert.KernelIdeal.Hand.dat2 (F := Ideal) V c).arrAt 11 cfg2.N = Cert.Spec.stackCol (fun b i => Cert.Spec.colOf (V c main_v5_2) b i + Cert.Spec.score (Cert.Spec.headRows (V c main_arg6) (V c main_v0) (V c main_arg8) (V c main_v1) (V c main_v2) (V c main_v3)) (Cert.Spec.normalize (Cert.Spec.prop (Cert.Spec.rowsOf (V c main_v5_0) b) (Cert.Spec.rowsOf (V c main_v5_1) b))) i) :=
  (dat2 (F := Ideal) V c).arrAt_eq_of_cover 11 _ (fun t _ => flushed2_s_eq V c t) cover2_11

end Cert.KernelIdeal.HandValue

end
-- ==== Proof.KernelIdeal.Value3.lean ====
/-
  What the second middle graph-convolution launch leaves in its two output arrays, both of 8192 rows (the first
  branch's 4096 rows stacked on the second's). Grid point t handles rows 512·t … 512·t + 511, all of branch b = t / 8:
  it multiplies those rows of the stacked adjacency by the branch's 4096 × 128 right-hand side, clamps at zero, and
  divides each row by the larger of its Euclidean norm and a small constant. To the one output it writes those
  normalized rows times the next layer's 128 × 128 weight; to the other the incoming scores of those rows plus the
  three-layer scoring head of the normalized rows. Each stored entry depends only on its own row of the adjacency, so
  the sixteen points' blocks are the blocks of one array defined row by row.
-/
import proofs.«132566_g10127532884217_week1_w1_345_7_alg».proof.Proof.KernelIdeal.Region3
import proofs.«132566_g10127532884217_week1_w1_345_7_alg».proof.Proof.KernelIdeal.ValueLib
import proofs.«132566_g10127532884217_week1_w1_345_7_alg».proof.Proof.SpecStack

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec (stackedRow branchOf rowIn rowsOf colOf stack stackCol headRows score prop normalize times mat)

variable (V : (c : Dev nD) → (b : Ref sig .tc) → Buf (Elt Ideal) ((c : Thread nD τ).loc b))

/-! ## The stored values at an index -/

/-- Entry (p, j) of the normalized rows: the clamped product entry over the larger of the row's norm and the constant. -/
theorem norm3_apply (x0 : Vec Ideal S512x4096 .bf16) (x1 : Vec Ideal S4096x128 .bf16) (p : Fin 512) (j : Fin 128) :
    k3_pay3 x0 x1 (ix2 p j)
      = Ideal.div (max (∑ q : Fin 4096, x0 (ix2 p q) * x1 (ix2 q j)) 0)
          (max (Ideal.sqrt (∑ l : Fin 128, max (∑ q : Fin 4096, x0 (ix2 p q) * x1 (ix2 q l)) 0 * max (∑ q : Fin 4096, x0 (ix2 p q) * x1 (ix2 q l)) 0))
            (Ideal.ofBits .f32 0x2B8CBCCC#32)) := by
  unfold k3_pay3
  simp only [shapeCast_self, divf_apply, colBcast_apply, maximumf_apply, sqrt_apply, colCast_apply, laneSum_apply (a := 512) (b := 128), mulf_apply,
    broadcast_apply, mmAdj_apply, zeroWord, Ideal.ofBits_def, Ideal.ofBits_zero_f32]

/-- Entry (p, j) of the next right-hand side: row p of the features times column j of the layer weight. -/
theorem rhs3_apply (v14 : FVec Ideal S512x128 .f32) (v50 : Vec Ideal S128x128 .f32) (p : Fin 512) (j : Fin 128) :
    k3_pay2 v14 v50 (ix2 p j) = ∑ k : Fin 128, v14 (ix2 p k) * v50 (ix2 k j) := by
  unfold k3_pay2
  simp only [truncf_apply, mmW_apply]

/-- The incoming score block passes through unchanged. -/
theorem sIn3_apply (x9 : Vec Ideal S512x1 .f32) (y : S512x1.Idx) : k3_pay4 x9 y = x9 y := by
  unfold k3_pay4
  exact congrFun (shapeCast_self x9 _) y

/-- The zero block the head's second hidden layer is clamped against. -/
theorem zero3_apply (y : S512x256.Idx) : k3_pay6 (F := Ideal) y = 0 := by
  unfold k3_pay6
  simp only [broadcast_apply, zeroWord]

/-- Entry (p, k) of the head's second hidden layer before its clamp, over the features `k3_pay3 x0 x1`. -/
theorem hid3_apply (x0 : Vec Ideal S512x4096 .bf16) (x1 : Vec Ideal S4096x128 .bf16) (x3 : Vec Ideal S128x256 .f32) (x4 : Vec Ideal S1x256 .f32)
    (x5 : Vec Ideal S256x256 .f32) (x6 : Vec Ideal S1x256 .f32) (p : Fin 512) (k : Fin 256) :
    k3_pay5 x0 x1 x3 x4 x5 x6 (ix2 p k)
      = (∑ k2 : Fin 256, max ((∑ k1 : Fin 128, k3_pay3 x0 x1 (ix2 p k1) * x3 (ix2 k1 k2)) + x4 (ix2 0 k2)) 0 * x5 (ix2 k2 k)) + x6 (ix2 0 k) := by
  unfold k3_pay5
  simp only [shapeCast_self, mulf_apply, maximumf_apply, addf_apply, truncf_apply, broadcast_apply, broadcastTo_1b_ab_apply, mmL1_apply, mmL2_apply,
    zeroWord]

/-- The stored score of row p: the incoming score plus the head's last layer plus the last bias. -/
theorem score3_apply (v16 : FVec Ideal S512x1 .f32) (v34 v35 : FVec Ideal S512x256 .f32) (v37 : Vec Ideal S1x256 .f32) (v43 : Vec Ideal S1x1 .f32)
    (p : Fin 512) (z : Fin 1) :
    k3_pay1 v16 v34 v35 v37 v43 (ix2 p z)
      = v16 (ix2 p z) + ((∑ k : Fin 256, max (v34 (ix2 p k)) (v35 (ix2 p k)) * v37 (ix2 0 k)) + v43 (ix2 0 z)) := by
  unfold k3_pay1
  simp only [shapeCast_self, colCast_apply, laneSum_apply (a := 512) (b := 256), mulf_apply, maximumf_apply, addf_apply, broadcastTo_1b_ab_apply]

/-! ## One stored entry of each output, over variables -/

/-- When row `y 0` of the adjacency block is row `i` of branch `b` of the stacked adjacency, the right-hand-side block
    is branch `b`'s rows of the stacked right-hand side and the weight block is the weight array, the entry stored to
    the next right-hand side is entry (i, y 1) of the normalized clamped product times the weight. -/
theorem point3_rhs (adj : S8192x4096.Idx → EReal) (rhs : S8192x128.Idx → EReal) (w : S128x128.Idx → EReal)
    (x0 : Vec Ideal S512x4096 .bf16) (x1 : Vec Ideal S4096x128 .bf16) (x2 : Vec Ideal S128x128 .f32)
    (y : S512x128.Idx) (b : Fin 2) (i : Fin 4096)
    (h0 : ∀ q : Fin 4096, x0 (ix2 (y 0) q) = adj (ix2 (stackedRow b i) q))
    (h1 : ∀ (q : Fin 4096) (k : Fin 128), x1 (ix2 q k) = rhs (ix2 (stackedRow b q) k))
    (h2 : x2 = w) :
    k3_pay2 (k3_pay3 x0 x1) x2 y = times (normalize (prop (rowsOf adj b) (rowsOf rhs b))) (mat w) i (y 1) := by
  obtain ⟨p, j, rfl⟩ : ∃ (p : Fin 512) (j : Fin 128), y = ix2 p j := ⟨y 0, y 1, eq_ix2 y⟩
  subst h2
  rw [rhs3_apply]
  simp only [norm3_apply, h0, h1]
  rfl

/-- With the head's parameter blocks the parameter arrays and the incoming entry branch `b`'s incoming score of row
    `i`, the stored score is that incoming score plus the head's score of row `i` of the normalized clamped product. -/
theorem point3_s (adj : S8192x4096.Idx → EReal) (rhs : S8192x128.Idx → EReal) (l1w : S128x256.Idx → EReal) (l1b : S1x256.Idx → EReal)
    (l2w : S256x256.Idx → EReal) (l2b : S1x256.Idx → EReal) (l3r : S1x256.Idx → EReal) (l3b : S1x1.Idx → EReal) (sin : S8192x1.Idx → EReal)
    (x0 : Vec Ideal S512x4096 .bf16) (x1 : Vec Ideal S4096x128 .bf16) (x3 : Vec Ideal S128x256 .f32) (x4 : Vec Ideal S1x256 .f32)
    (x5 : Vec Ideal S256x256 .f32) (x6 : Vec Ideal S1x256 .f32) (x7 : Vec Ideal S1x256 .f32) (x8 : Vec Ideal S1x1 .f32) (x9 : Vec Ideal S512x1 .f32)
    (y : S512x1.Idx) (b : Fin 2) (i : Fin 4096)
    (h0 : ∀ q : Fin 4096, x0 (ix2 (y 0) q) = adj (ix2 (stackedRow b i) q))
    (h1 : ∀ (q : Fin 4096) (k : Fin 128), x1 (ix2 q k) = rhs (ix2 (stackedRow b q) k))
    (h3 : x3 = l1w) (h4 : x4 = l1b) (h5 : x5 = l2w) (h6 : x6 = l2b) (h7 : x7 = l3r) (h8 : x8 = l3b)
    (h9 : x9 y = sin (ix2 (stackedRow b i) 0)) :
    k3_pay1 (k3_pay4 x9) (k3_pay5 x0 x1 x3 x4 x5 x6) (k3_pay6 (F := Ideal)) x7 x8 y
      = colOf sin b i + score (headRows l1w l1b l2w l2b l3r l3b) (normalize (prop (rowsOf adj b) (rowsOf rhs b))) i := by
  obtain ⟨p, z, rfl⟩ : ∃ (p : Fin 512) (z : Fin 1), y = ix2 p z := ⟨y 0, y 1, eq_ix2 y⟩
  obtain rfl : z = 0 := Subsingleton.elim _ _
  subst h3 h4 h5 h6 h7 h8
  rw [score3_apply, sIn3_apply, h9]
  simp only [hid3_apply, zero3_apply, norm3_apply, h0, h1]
  rfl

/-! ## From the blocks to the arrays -/

/-- The index maps over the grid of sixteen points: at point t the adjacency, the incoming scores and the two outputs
    are at block t; the right-hand side is at block t / 8, the branch; every parameter window is at its one block. -/
theorem blockIdx3 : ∀ t : Fin cfg3.N, win3_0.index t (0 : Fin 2) = t.val
    ∧ win3_0.index t (1 : Fin 2) = 0
    ∧ win3_1.index t (0 : Fin 2) = t.val / 8
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0
    ∧ win3_10.index t (0 : Fin 2) = t.val
    ∧ win3_10.index t (1 : Fin 2) = 0
    ∧ win3_11.index t (0 : Fin 2) = t.val
    ∧ win3_11.index t (1 : Fin 2) = 0 :=
  (by decide +kernel : ∀ t : Fin grid3.N, _)

/-- What point t writes back to the next right-hand side is block t of the stacked normalized rows times the weight. -/
theorem flushed3_rhs_eq (c : Dev nD) (t : Fin cfg3.N) :
    (dat3 (F := Ideal) V c).flushed 10 t = ((cfg3.win 10).blk t).view.read (Elt Ideal)
      (stack (fun b => times (normalize (prop (rowsOf (V c main_v5_0) b) (rowsOf (V c main_v6_0) b))) (mat (V c main_arg5)))) := by
  show (cfg3.win 10).cut (grid3.coords t) ((dat3 (F := Ideal) V c).after 10 t) = _
  rw [after3_10]
  unfold out3_10
  rw [View.canon_unit_zero zeroOff]
  simp only [View.ld_unit_zero (S := S512x1) zeroOff, View.ld_unit_zero (S := S512x4096) zeroOff, View.ld_unit_zero (S := S4096x128) zeroOff,
    View.ld_unit_zero (S := S128x128) zeroOff, View.ld_unit_zero (S := S128x256) zeroOff, View.ld_unit_zero (S := S1x256) zeroOff,
    View.ld_unit_zero (S := S256x256) zeroOff, View.ld_unit_zero (S := S1x1) zeroOff]
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx3 t
  have hN : cfg3.N = 16 := N_3
  have ht : t.val < 16 := hN ▸ t.isLt
  have e2 : iblk3 V c 2 t = (V c main_arg5 : S128x128.Idx → EReal) := funext fun u => by
    show (V c main_arg5 : S128x128.Idx → EReal) (((cfg3.win 2).blk t).view.emb u) = (V c main_arg5 : S128x128.Idx → EReal) u
    refine readAt (V c main_arg5 : S128x128.Idx → EReal) _ _ fun a => ?_
    match a with
    | ⟨0, _⟩ => show win3_2.index t (0 : Fin 2) * 128 + 1 * (u 0).val = (u 0).val; omega
    | ⟨1, _⟩ => show win3_2.index t (1 : Fin 2) * 128 + 1 * (u 1).val = (u 1).val; omega
  funext y
  have hy0 : (y 0).val < 512 := (y 0).isLt
  have hy1 : (y 1).val < 128 := (y 1).isLt
  obtain ⟨r, hr⟩ : ∃ r : Fin 8192, r.val = t.val * 512 + (y 0).val := ⟨⟨t.val * 512 + (y 0).val, by omega⟩, rfl⟩
  have hemb : (((cfg3.win 10).blk t).view.emb y) 0 = r := Fin.ext (by
    show win3_10.index t (0 : Fin 2) * 512 + 1 * (y 0).val = r.val; omega)
  have hb : (branchOf r).val = t.val / 8 := by show r.val / 4096 = t.val / 8; omega
  have hemb1 : (((cfg3.win 10).blk t).view.emb y) 1 = y 1 := Fin.ext (by
    show win3_10.index t (1 : Fin 2) * 128 + 1 * (y 1).val = (y 1).val; omega)
  show k3_pay2 (k3_pay3 (iblk3 V c 0 t) (iblk3 V c 1 t)) (iblk3 V c 2 t) y
    = times (normalize (prop (rowsOf (V c main_v5_0) (branchOf ((((cfg3.win 10).blk t).view.emb y) 0))) (rowsOf (V c main_v6_0) (branchOf ((((cfg3.win 10).blk t).view.emb y) 0)))))
        (mat (V c main_arg5)) (rowIn ((((cfg3.win 10).blk t).view.emb y) 0)) ((((cfg3.win 10).blk t).view.emb y) 1)
  rw [hemb, hemb1]
  refine point3_rhs (V c main_v5_0) (V c main_v6_0) (V c main_arg5) (iblk3 V c 0 t) (iblk3 V c 1 t) (iblk3 V c 2 t)
    y (branchOf r) (rowIn r) (fun q => ?_) (fun q k => ?_) e2
  · rw [Cert.Spec.stackedRow_branchOf_rowIn]
    show (V c main_v5_0 : S8192x4096.Idx → EReal) (((cfg3.win 0).blk t).view.emb (ix2 (y 0) q)) = (V c main_v5_0 : S8192x4096.Idx → EReal) (ix2 r q)
    refine readAt (V c main_v5_0 : S8192x4096.Idx → EReal) _ _ fun a => ?_
    match a with
    | ⟨0, _⟩ => show win3_0.index t (0 : Fin 2) * 512 + 1 * (y 0).val = r.val; omega
    | ⟨1, _⟩ => show win3_0.index t (1 : Fin 2) * 4096 + 1 * q.val = q.val; omega
  · show (V c main_v6_0 : S8192x128.Idx → EReal) (((cfg3.win 1).blk t).view.emb (ix2 q k)) = (V c main_v6_0 : S8192x128.Idx → EReal) (ix2 (stackedRow (branchOf r) q) k)
    refine readAt (V c main_v6_0 : S8192x128.Idx → EReal) _ _ fun a => ?_
    match a with
    | ⟨0, _⟩ => show win3_1.index t (0 : Fin 2) * 4096 + 1 * q.val = (branchOf r).val * 4096 + q.val; omega
    | ⟨1, _⟩ => show win3_1.index t (1 : Fin 2) * 128 + 1 * k.val = k.val; omega

/-- What point t writes back to the score column is block t of the column of updated scores. -/
theorem flushed3_s_eq (c : Dev nD) (t : Fin cfg3.N) :
    (dat3 (F := Ideal) V c).flushed 11 t = ((cfg3.win 11).blk t).view.read (Elt Ideal)
      (stackCol (fun b i => colOf (V c main_v6_1) b i + score (headRows (V c main_arg6) (V c main_v0) (V c main_arg8) (V c main_v1) (V c main_v2) (V c main_v3))
        (normalize (prop (rowsOf (V c main_v5_0) b) (rowsOf (V c main_v6_0) b))) i)) := by
  show (cfg3.win 11).cut (grid3.coords t) ((dat3 (F := Ideal) V c).after 11 t) = _
  rw [after3_11]
  unfold out3_11
  rw [View.canon_unit_zero zeroOff]
  simp only [View.ld_unit_zero (S := S512x1) zeroOff, View.ld_unit_zero (S := S512x4096) zeroOff, View.ld_unit_zero (S := S4096x128) zeroOff,
    View.ld_unit_zero (S := S128x128) zeroOff, View.ld_unit_zero (S := S128x256) zeroOff, View.ld_unit_zero (S := S1x256) zeroOff,
    View.ld_unit_zero (S := S256x256) zeroOff, View.ld_unit_zero (S := S1x1) zeroOff]
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx3 t
  have hN : cfg3.N = 16 := N_3
  have ht : t.val < 16 := hN ▸ t.isLt
  have e3 : iblk3 V c 3 t = (V c main_arg6 : S128x256.Idx → EReal) := funext fun u => by
    show (V c main_arg6 : S128x256.Idx → EReal) (((cfg3.win 3).blk t).view.emb u) = (V c main_arg6 : S128x256.Idx → EReal) u
    refine readAt (V c main_arg6 : S128x256.Idx → EReal) _ _ fun a => ?_
    match a with
    | ⟨0, _⟩ => show win3_3.index t (0 : Fin 2) * 128 + 1 * (u 0).val = (u 0).val; omega
    | ⟨1, _⟩ => show win3_3.index t (1 : Fin 2) * 256 + 1 * (u 1).val = (u 1).val; omega
  have e4 : iblk3 V c 4 t = (V c main_v0 : S1x256.Idx → EReal) := funext fun u => by
    show (V c main_v0 : S1x256.Idx → EReal) (((cfg3.win 4).blk t).view.emb u) = (V c main_v0 : S1x256.Idx → EReal) u
    refine readAt (V c main_v0 : S1x256.Idx → EReal) _ _ fun a => ?_
    match a with
    | ⟨0, _⟩ => show win3_4.index t (0 : Fin 2) * 1 + 1 * (u 0).val = (u 0).val; omega
    | ⟨1, _⟩ => show win3_4.index t (1 : Fin 2) * 256 + 1 * (u 1).val = (u 1).val; omega
  have e5 : iblk3 V c 5 t = (V c main_arg8 : S256x256.Idx → EReal) := funext fun u => by
    show (V c main_arg8 : S256x256.Idx → EReal) (((cfg3.win 5).blk t).view.emb u) = (V c main_arg8 : S256x256.Idx → EReal) u
    refine readAt (V c main_arg8 : S256x256.Idx → EReal) _ _ fun a => ?_
    match a with
    | ⟨0, _⟩ => show win3_5.index t (0 : Fin 2) * 256 + 1 * (u 0).val = (u 0).val; omega
    | ⟨1, _⟩ => show win3_5.index t (1 : Fin 2) * 256 + 1 * (u 1).val = (u 1).val; omega
  have e6 : iblk3 V c 6 t = (V c main_v1 : S1x256.Idx → EReal) := funext fun u => by
    show (V c main_v1 : S1x256.Idx → EReal) (((cfg3.win 6).blk t).view.emb u) = (V c main_v1 : S1x256.Idx → EReal) u
    refine readAt (V c main_v1 : S1x256.Idx → EReal) _ _ fun a => ?_
    match a with
    | ⟨0, _⟩ => show win3_6.index t (0 : Fin 2) * 1 + 1 * (u 0).val = (u 0).val; omega
    | ⟨1, _⟩ => show win3_6.index t (1 : Fin 2) * 256 + 1 * (u 1).val = (u 1).val; omega
  have e7 : iblk3 V c 7 t = (V c main_v2 : S1x256.Idx → EReal) := funext fun u => by
    show (V c main_v2 : S1x256.Idx → EReal) (((cfg3.win 7).blk t).view.emb u) = (V c main_v2 : S1x256.Idx → EReal) u
    refine readAt (V c main_v2 : S1x256.Idx → EReal) _ _ fun a => ?_
    match a with
    | ⟨0, _⟩ => show win3_7.index t (0 : Fin 2) * 1 + 1 * (u 0).val = (u 0).val; omega
    | ⟨1, _⟩ => show win3_7.index t (1 : Fin 2) * 256 + 1 * (u 1).val = (u 1).val; omega
  have e8 : iblk3 V c 8 t = (V c main_v3 : S1x1.Idx → EReal) := funext fun u => by
    show (V c main_v3 : S1x1.Idx → EReal) (((cfg3.win 8).blk t).view.emb u) = (V c main_v3 : S1x1.Idx → EReal) u
    refine readAt (V c main_v3 : S1x1.Idx → EReal) _ _ fun a => ?_
    match a with
    | ⟨0, _⟩ => show win3_8.index t (0 : Fin 2) * 1 + 1 * (u 0).val = (u 0).val; omega
    | ⟨1, _⟩ => show win3_8.index t (1 : Fin 2) * 1 + 1 * (u 1).val = (u 1).val; omega
  funext y
  have hy0 : (y 0).val < 512 := (y 0).isLt
  have hy1 : (y 1).val < 1 := (y 1).isLt
  obtain ⟨r, hr⟩ : ∃ r : Fin 8192, r.val = t.val * 512 + (y 0).val := ⟨⟨t.val * 512 + (y 0).val, by omega⟩, rfl⟩
  have hemb : (((cfg3.win 11).blk t).view.emb y) 0 = r := Fin.ext (by
    show win3_11.index t (0 : Fin 2) * 512 + 1 * (y 0).val = r.val; omega)
  have hb : (branchOf r).val = t.val / 8 := by show r.val / 4096 = t.val / 8; omega
  show k3_pay1 (k3_pay4 (iblk3 V c 9 t)) (k3_pay5 (iblk3 V c 0 t) (iblk3 V c 1 t) (iblk3 V c 3 t) (iblk3 V c 4 t) (iblk3 V c 5 t) (iblk3 V c 6 t)) (k3_pay6 (F := Ideal)) (iblk3 V c 7 t) (iblk3 V c 8 t) y
    = colOf (V c main_v6_1) (branchOf ((((cfg3.win 11).blk t).view.emb y) 0)) (rowIn ((((cfg3.win 11).blk t).view.emb y) 0))
      + score (headRows (V c main_arg6) (V c main_v0) (V c main_arg8) (V c main_v1) (V c main_v2) (V c main_v3))
        (normalize (prop (rowsOf (V c main_v5_0) (branchOf ((((cfg3.win 11).blk t).view.emb y) 0))) (rowsOf (V c main_v6_0) (branchOf ((((cfg3.win 11).blk t).view.emb y) 0)))))
        (rowIn ((((cfg3.win 11).blk t).view.emb y) 0))
  rw [hemb]
  refine point3_s (V c main_v5_0) (V c main_v6_0) (V c main_arg6) (V c main_v0) (V c main_arg8) (V c main_v1) (V c main_v2) (V c main_v3) (V c main_v6_1)
    (iblk3 V c 0 t) (iblk3 V c 1 t) (iblk3 V c 3 t) (iblk3 V c 4 t) (iblk3 V c 5 t) (iblk3 V c 6 t) (iblk3 V c 7 t) (iblk3 V c 8 t) (iblk3 V c 9 t)
    y (branchOf r) (rowIn r) (fun q => ?_) (fun q k => ?_) e3 e4 e5 e6 e7 e8 ?_
  · rw [Cert.Spec.stackedRow_branchOf_rowIn]
    show (V c main_v5_0 : S8192x4096.Idx → EReal) (((cfg3.win 0).blk t).view.emb (ix2 (y 0) q)) = (V c main_v5_0 : S8192x4096.Idx → EReal) (ix2 r q)
    refine readAt (V c main_v5_0 : S8192x4096.Idx → EReal) _ _ fun a => ?_
    match a with
    | ⟨0, _⟩ => show win3_0.index t (0 : Fin 2) * 512 + 1 * (y 0).val = r.val; omega
    | ⟨1, _⟩ => show win3_0.index t (1 : Fin 2) * 4096 + 1 * q.val = q.val; omega
  · show (V c main_v6_0 : S8192x128.Idx → EReal) (((cfg3.win 1).blk t).view.emb (ix2 q k)) = (V c main_v6_0 : S8192x128.Idx → EReal) (ix2 (stackedRow (branchOf r) q) k)
    refine readAt (V c main_v6_0 : S8192x128.Idx → EReal) _ _ fun a => ?_
    match a with
    | ⟨0, _⟩ => show win3_1.index t (0 : Fin 2) * 4096 + 1 * q.val = (branchOf r).val * 4096 + q.val; omega
    | ⟨1, _⟩ => show win3_1.index t (1 : Fin 2) * 128 + 1 * k.val = k.val; omega
  · rw [Cert.Spec.stackedRow_branchOf_rowIn]
    show (V c main_v6_1 : S8192x1.Idx → EReal) (((cfg3.win 9).blk t).view.emb y) = (V c main_v6_1 : S8192x1.Idx → EReal) (ix2 r 0)
    refine readAt (V c main_v6_1 : S8192x1.Idx → EReal) _ _ fun a => ?_
    match a with
    | ⟨0, _⟩ => show win3_9.index t (0 : Fin 2) * 512 + 1 * (y 0).val = r.val; omega
    | ⟨1, _⟩ => show win3_9.index t (1 : Fin 2) * 1 + 1 * (y 1).val = 0; omega

/-- An index of the array of output window 10 is in point t's block iff each coordinate is in the block's range. -/
theorem mem_blk3_10 (t : Fin cfg3.N) (i : S8192x128.Idx) :
    i ∈ ((cfg3.win 10).blk t).view.set ↔ ∀ a : Fin 2, win3_10.index t a * S512x128.size a ≤ (i a).val ∧ (i a).val < win3_10.index t a * S512x128.size a + S512x128.size a := by
  show i ∈ ((View.whole main_v7_0).slice (win3_10.rect t)).set ↔ _
  rw [View.set_slice_whole, Rect.mem_set_unit]
  exact Iff.rfl

/-- Row r of that array is in the block of point r / 512. -/
theorem cover3_10 (i : S8192x128.Idx) : ∃ t : Fin cfg3.N, (cfg3.win 10).flush t = true ∧ i ∈ ((cfg3.win 10).blk t).view.set := by
  have hi0 : (i 0).val < 8192 := (i 0).isLt
  have hi1 : (i 1).val < 128 := (i 1).isLt
  have hN : cfg3.N = 16 := N_3
  obtain ⟨t, ht⟩ : ∃ t : Fin cfg3.N, t.val = (i 0).val / 512 := ⟨⟨(i 0).val / 512, by rw [hN]; omega⟩, rfl⟩
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx3 t
  refine ⟨t, flush3_10 t, ?_⟩
  rw [mem_blk3_10]
  intro a
  match a with
  | ⟨0, _⟩ => show win3_10.index t (0 : Fin 2) * 512 ≤ (i 0).val ∧ (i 0).val < win3_10.index t (0 : Fin 2) * 512 + 512; omega
  | ⟨1, _⟩ => show win3_10.index t (1 : Fin 2) * 128 ≤ (i 1).val ∧ (i 1).val < win3_10.index t (1 : Fin 2) * 128 + 128; omega

/-- An index of the array of output window 11 is in point t's block iff each coordinate is in the block's range. -/
theorem mem_blk3_11 (t : Fin cfg3.N) (i : S8192x1.Idx) :
    i ∈ ((cfg3.win 11).blk t).view.set ↔ ∀ a : Fin 2, win3_11.index t a * S512x1.size a ≤ (i a).val ∧ (i a).val < win3_11.index t a * S512x1.size a + S512x1.size a := by
  show i ∈ ((View.whole main_v7_1).slice (win3_11.rect t)).set ↔ _
  rw [View.set_slice_whole, Rect.mem_set_unit]
  exact Iff.rfl

/-- Row r of that array is in the block of point r / 512. -/
theorem cover3_11 (i : S8192x1.Idx) : ∃ t : Fin cfg3.N, (cfg3.win 11).flush t = true ∧ i ∈ ((cfg3.win 11).blk t).view.set := by
  have hi0 : (i 0).val < 8192 := (i 0).isLt
  have hi1 : (i 1).val < 1 := (i 1).isLt
  have hN : cfg3.N = 16 := N_3
  obtain ⟨t, ht⟩ : ∃ t : Fin cfg3.N, t.val = (i 0).val / 512 := ⟨⟨(i 0).val / 512, by rw [hN]; omega⟩, rfl⟩
  obtain ⟨i0_0, i0_1, i1_0, i1_1, i2_0, i2_1, i3_0, i3_1, i4_0, i4_1, i5_0, i5_1, i6_0, i6_1, i7_0, i7_1, i8_0, i8_1, i9_0, i9_1, i10_0, i10_1, i11_0, i11_1⟩ := blockIdx3 t
  refine ⟨t, flush3_11 t, ?_⟩
  rw [mem_blk3_11]
  intro a
  match a with
  | ⟨0, _⟩ => show win3_11.index t (0 : Fin 2) * 512 ≤ (i 0).val ∧ (i 0).val < win3_11.index t (0 : Fin 2) * 512 + 512; omega
  | ⟨1, _⟩ => show win3_11.index t (1 : Fin 2) * 1 ≤ (i 1).val ∧ (i 1).val < win3_11.index t (1 : Fin 2) * 1 + 1; omega

/-- The next right-hand side after the launch: each branch's normalized clamped product times the layer weight. -/
theorem final3_rhs (c : Dev nD) : (Cert.KernelIdeal.Hand.dat3 (F := Ideal) V c).arrAt 10 cfg3.N = Cert.Spec.stack (fun b => Cert.Spec.times (Cert.Spec.normalize (Cert.Spec.prop (Cert.Spec.rowsOf (V c main_v5_0) b) (Cert.Spec.rowsOf (V c main_v6_0) b))) (Cert.Spec.mat (V c main_arg5))) :=
  (dat3 (F := Ideal) V c).arrAt_eq_of_cover 10 _ (fun t _ => flushed3_rhs_eq V c t) cover3_10

/-- The score column after the launch: each branch's incoming scores plus the head's scores of its normalized clamped
    product. -/
theorem final3_s (c : Dev nD) : (Cert.KernelIdeal.Hand.dat3 (F := Ideal) V c).arrAt 11 cfg3.N = Cert.Spec.stackCol (fun b i => Cert.Spec.colOf (V c main_v6_1) b i + Cert.Spec.score (Cert.Spec.headRows (V c main_arg6) (V c main_v0) (V c main_arg8) (V c main_v1) (V c main_v2) (V c main_v3)) (Cert.Spec.normalize (Cert.Spec.prop (Cert.Spec.rowsOf (V c main_v5_0) b) (Cert.Spec.rowsOf (V c main_v6_0) b))) i) :=
  (dat3 (F := Ideal) V c).arrAt_eq_of_cover 11 _ (fun t _ => flushed3_s_eq V c t) cover3_11

end Cert.KernelIdeal.HandValue

end
-- ==== Proof.KernelIdeal.Value4.lean ====
/-
  What the last graph-convolution launch leaves in its output array, the 8192 × 1 column of running scores (the first
  branch's 4096 rows stacked on the second's). Grid point t handles rows 512·t … 512·t + 511, all of one branch b = t / 8:
  it multiplies those rows of the stacked adjacency by the branch's 4096 × 128 right-hand side, clamps at zero, applies
  the three-layer scoring head row by row, and adds the result to the incoming scores of those rows. Each stored entry
  depends only on its own row of the adjacency, so the sixteen points' blocks are the blocks of one column defined row
  by row.
-/
import proofs.«132566_g10127532884217_week1_w1_345_7_alg».proof.Proof.KernelIdeal.Region4
import proofs.«132566_g10127532884217_week1_w1_345_7_alg».proof.Proof.KernelIdeal.ValueLib
import proofs.«132566_g10127532884217_week1_w1_345_7_alg».proof.Proof.SpecStack

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec (stackedRow branchOf rowIn rowsOf colOf stackCol headRows score prop)

variable (V : (c : Dev nD) → (b : Ref sig .tc) → Buf (Elt Ideal) ((c : Thread nD τ).loc b))

/-- The incoming score block passes through unchanged. -/
theorem sIn4_apply (x8 : Vec Ideal S512x1 .f32) (y : S512x1.Idx) : k4_pay2 x8 y = x8 y := by
  unfold k4_pay2
  exact congrFun (shapeCast_self x8 _) y

/-- The stored entry of row p: the incoming score plus the head's sum plus the last bias. -/
theorem sum4_apply (v8 v34 : FVec Ideal S512x1 .f32) (v35 : Vec Ideal S1x1 .f32) (p : Fin 512) (z : Fin 1) :
    k4_pay1 v8 v34 v35 (ix2 p z) = v8 (ix2 p z) + (v34 (ix2 p z) + v35 (ix2 0 z)) := by
  unfold k4_pay1
  simp only [shapeCast_self, addf_apply, broadcastTo_1b_ab_apply]

/-- The head's sum at row p of the block, written out: three nested sums over the clamped product row. -/
theorem head4_apply (x0 : Vec Ideal S512x4096 .bf16) (x1 : Vec Ideal S4096x128 .bf16) (x2 : Vec Ideal S128x256 .f32) (x3 : Vec Ideal S1x256 .f32)
    (x4 : Vec Ideal S256x256 .f32) (x5 : Vec Ideal S1x256 .f32) (x6 : Vec Ideal S1x256 .f32) (p : Fin 512) (z : Fin 1) :
    k4_pay3 x0 x1 x2 x3 x4 x5 x6 (ix2 p z)
      = ∑ k : Fin 256, max ((∑ k2 : Fin 256, max ((∑ k1 : Fin 128, max (∑ q : Fin 4096, x0 (ix2 p q) * x1 (ix2 q k1)) 0 * x2 (ix2 k1 k2)) + x3 (ix2 0 k2)) 0 * x4 (ix2 k2 k)) + x5 (ix2 0 k)) 0 * x6 (ix2 0 k) := by
  unfold k4_pay3
  simp only [shapeCast_self, colCast_apply, laneSum_apply (a := 512) (b := 256), mulf_apply, maximumf_apply, addf_apply, truncf_apply, broadcast_apply,
    broadcastTo_1b_ab_apply, mmAdj_apply, mmL1_apply, mmL2_apply, zeroWord]

/-- One stored entry, over variables. When row `y 0` of the adjacency block is row `i` of branch `b` of the stacked
    adjacency, the right-hand-side block is branch `b`'s rows of the stacked right-hand side, the head's parameter
    blocks are the parameter arrays, and the incoming entry is branch `b`'s incoming score of row `i`, the stored
    entry is that incoming score plus the head's score of row `i` of the clamped product. -/
theorem point4 (adj : S8192x4096.Idx → EReal) (rhs : S8192x128.Idx → EReal) (l1w : S128x256.Idx → EReal) (l1b : S1x256.Idx → EReal)
    (l2w : S256x256.Idx → EReal) (l2b : S1x256.Idx → EReal) (l3r : S1x256.Idx → EReal) (l3b : S1x1.Idx → EReal) (sin : S8192x1.Idx → EReal)
    (x0 : Vec Ideal S512x4096 .bf16) (x1 : Vec Ideal S4096x128 .bf16) (x2 : Vec Ideal S128x256 .f32) (x3 : Vec Ideal S1x256 .f32)
    (x4 : Vec Ideal S256x256 .f32) (x5 : Vec Ideal S1x256 .f32) (x6 : Vec Ideal S1x256 .f32) (x7 : Vec Ideal S1x1 .f32) (x8 : Vec Ideal S512x1 .f32)
    (y : S512x1.Idx) (b : Fin 2) (i : Fin 4096)
    (h0 : ∀ q : Fin 4096, x0 (ix2 (y 0) q) = adj (ix2 (stackedRow b i) q))
    (h1 : ∀ (q : Fin 4096) (k : Fin 128), x1 (ix2 q k) = rhs (ix2 (stackedRow b q) k))
    (h2 : x2 = l1w) (h3 : x3 = l1b) (h4 : x4 = l2w) (h5 : x5 = l2b) (h6 : x6 = l3r) (h7 : x7 = l3b)
    (h8 : x8 y = sin (ix2 (stackedRow b i) 0)) :
    k4_pay1 (k4_pay2 x8) (k4_pay3 x0 x1 x2 x3 x4 x5 x6) x7 y
      = colOf sin b i + score (headRows l1w l1b l2w l2b l3r l3b) (prop (rowsOf adj b) (rowsOf rhs b)) i := by
  obtain ⟨p, z, rfl⟩ : ∃ (p : Fin 512) (z : Fin 1), y = ix2 p z := ⟨y 0, y 1, eq_ix2 y⟩
  obtain rfl : z = 0 := Subsingleton.elim _ _
  subst h2 h3 h4 h5 h6 h7
  rw [sum4_apply, sIn4_apply, head4_apply, h8]
  simp only [h0, h1]
  rfl

/-- The index maps over the grid of sixteen points: at point t the adjacency, the incoming scores and the output are at
    block t; the right-hand side is at block t / 8, the branch; every parameter window is at its one block. -/
theorem blockIdx4 : ∀ t : Fin cfg4.N, win4_0.index t (0 : Fin 2) = t.val
    ∧ win4_0.index t (1 : Fin 2) = 0
    ∧ win4_1.index t (0 : Fin 2) = t.val / 8
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0
    ∧ win4_9.index t (0 : Fin 2) = t.val
    ∧ win4_9.index t (1 : Fin 2) = 0 :=
  (by decide +kernel : ∀ t : Fin grid4.N, _)

/-- What point t writes back is block t of the column of updated scores. -/
theorem flushed4_eq (c : Dev nD) (t : Fin cfg4.N) :
    (dat4 (F := Ideal) V c).flushed 9 t = ((cfg4.win 9).blk t).view.read (Elt Ideal)
      (stackCol (fun b i => colOf (V c main_v7_1) b i + score (headRows (V c main_arg6) (V c main_v0) (V c main_arg8) (V c main_v1) (V c main_v2) (V c main_v3))
        (prop (rowsOf (V c main_v5_0) b) (rowsOf (V c main_v7_0) b)) i)) := by
  show (cfg4.win 9).cut (grid4.coords t) ((dat4 (F := Ideal) V c).after 9 t) = _
  rw [after4_9]
  unfold out4_9
  rw [View.canon_unit_zero zeroOff]
  simp only [View.ld_unit_zero (S := S512x1) zeroOff, View.ld_unit_zero (S := S512x4096) zeroOff, View.ld_unit_zero (S := S4096x128) zeroOff,
    View.ld_unit_zero (S := S128x256) zeroOff, View.ld_unit_zero (S := S1x256) zeroOff, View.ld_unit_zero (S := S256x256) zeroOff,
    View.ld_unit_zero (S := S1x1) zeroOff]
  obtain ⟨i0_0, i0_1, i1_0, i1_1, i2_0, i2_1, i3_0, i3_1, i4_0, i4_1, i5_0, i5_1, i6_0, i6_1, i7_0, i7_1, i8_0, i8_1, i9_0, i9_1⟩ := blockIdx4 t
  have hN : cfg4.N = 16 := N_4
  have ht : t.val < 16 := hN ▸ t.isLt
  have e2 : iblk4 V c 2 t = (V c main_arg6 : S128x256.Idx → EReal) := funext fun u => by
    show (V c main_arg6 : S128x256.Idx → EReal) (((cfg4.win 2).blk t).view.emb u) = (V c main_arg6 : S128x256.Idx → EReal) u
    refine readAt (V c main_arg6 : S128x256.Idx → EReal) _ _ fun a => ?_
    match a with
    | ⟨0, _⟩ => show win4_2.index t (0 : Fin 2) * 128 + 1 * (u 0).val = (u 0).val; omega
    | ⟨1, _⟩ => show win4_2.index t (1 : Fin 2) * 256 + 1 * (u 1).val = (u 1).val; omega
  have e3 : iblk4 V c 3 t = (V c main_v0 : S1x256.Idx → EReal) := funext fun u => by
    show (V c main_v0 : S1x256.Idx → EReal) (((cfg4.win 3).blk t).view.emb u) = (V c main_v0 : S1x256.Idx → EReal) u
    refine readAt (V c main_v0 : S1x256.Idx → EReal) _ _ fun a => ?_
    match a with
    | ⟨0, _⟩ => show win4_3.index t (0 : Fin 2) * 1 + 1 * (u 0).val = (u 0).val; omega
    | ⟨1, _⟩ => show win4_3.index t (1 : Fin 2) * 256 + 1 * (u 1).val = (u 1).val; omega
  have e4 : iblk4 V c 4 t = (V c main_arg8 : S256x256.Idx → EReal) := funext fun u => by
    show (V c main_arg8 : S256x256.Idx → EReal) (((cfg4.win 4).blk t).view.emb u) = (V c main_arg8 : S256x256.Idx → EReal) u
    refine readAt (V c main_arg8 : S256x256.Idx → EReal) _ _ fun a => ?_
    match a with
    | ⟨0, _⟩ => show win4_4.index t (0 : Fin 2) * 256 + 1 * (u 0).val = (u 0).val; omega
    | ⟨1, _⟩ => show win4_4.index t (1 : Fin 2) * 256 + 1 * (u 1).val = (u 1).val; omega
  have e5 : iblk4 V c 5 t = (V c main_v1 : S1x256.Idx → EReal) := funext fun u => by
    show (V c main_v1 : S1x256.Idx → EReal) (((cfg4.win 5).blk t).view.emb u) = (V c main_v1 : S1x256.Idx → EReal) u
    refine readAt (V c main_v1 : S1x256.Idx → EReal) _ _ fun a => ?_
    match a with
    | ⟨0, _⟩ => show win4_5.index t (0 : Fin 2) * 1 + 1 * (u 0).val = (u 0).val; omega
    | ⟨1, _⟩ => show win4_5.index t (1 : Fin 2) * 256 + 1 * (u 1).val = (u 1).val; omega
  have e6 : iblk4 V c 6 t = (V c main_v2 : S1x256.Idx → EReal) := funext fun u => by
    show (V c main_v2 : S1x256.Idx → EReal) (((cfg4.win 6).blk t).view.emb u) = (V c main_v2 : S1x256.Idx → EReal) u
    refine readAt (V c main_v2 : S1x256.Idx → EReal) _ _ fun a => ?_
    match a with
    | ⟨0, _⟩ => show win4_6.index t (0 : Fin 2) * 1 + 1 * (u 0).val = (u 0).val; omega
    | ⟨1, _⟩ => show win4_6.index t (1 : Fin 2) * 256 + 1 * (u 1).val = (u 1).val; omega
  have e7 : iblk4 V c 7 t = (V c main_v3 : S1x1.Idx → EReal) := funext fun u => by
    show (V c main_v3 : S1x1.Idx → EReal) (((cfg4.win 7).blk t).view.emb u) = (V c main_v3 : S1x1.Idx → EReal) u
    refine readAt (V c main_v3 : S1x1.Idx → EReal) _ _ fun a => ?_
    match a with
    | ⟨0, _⟩ => show win4_7.index t (0 : Fin 2) * 1 + 1 * (u 0).val = (u 0).val; omega
    | ⟨1, _⟩ => show win4_7.index t (1 : Fin 2) * 1 + 1 * (u 1).val = (u 1).val; omega
  funext y
  have hy0 : (y 0).val < 512 := (y 0).isLt
  have hy1 : (y 1).val < 1 := (y 1).isLt
  obtain ⟨r, hr⟩ : ∃ r : Fin 8192, r.val = t.val * 512 + (y 0).val := ⟨⟨t.val * 512 + (y 0).val, by omega⟩, rfl⟩
  have hemb : (((cfg4.win 9).blk t).view.emb y) 0 = r := Fin.ext (by
    show win4_9.index t (0 : Fin 2) * 512 + 1 * (y 0).val = r.val; omega)
  have hb : (branchOf r).val = t.val / 8 := by show r.val / 4096 = t.val / 8; omega
  show k4_pay1 (k4_pay2 (iblk4 V c 8 t)) (k4_pay3 (iblk4 V c 0 t) (iblk4 V c 1 t) (iblk4 V c 2 t) (iblk4 V c 3 t) (iblk4 V c 4 t) (iblk4 V c 5 t) (iblk4 V c 6 t)) (iblk4 V c 7 t) y
    = colOf (V c main_v7_1) (branchOf ((((cfg4.win 9).blk t).view.emb y) 0)) (rowIn ((((cfg4.win 9).blk t).view.emb y) 0))
      + score (headRows (V c main_arg6) (V c main_v0) (V c main_arg8) (V c main_v1) (V c main_v2) (V c main_v3))
        (prop (rowsOf (V c main_v5_0) (branchOf ((((cfg4.win 9).blk t).view.emb y) 0))) (rowsOf (V c main_v7_0) (branchOf ((((cfg4.win 9).blk t).view.emb y) 0))))
        (rowIn ((((cfg4.win 9).blk t).view.emb y) 0))
  rw [hemb]
  refine point4 (V c main_v5_0) (V c main_v7_0) (V c main_arg6) (V c main_v0) (V c main_arg8) (V c main_v1) (V c main_v2) (V c main_v3) (V c main_v7_1)
    (iblk4 V c 0 t) (iblk4 V c 1 t) (iblk4 V c 2 t) (iblk4 V c 3 t) (iblk4 V c 4 t) (iblk4 V c 5 t) (iblk4 V c 6 t) (iblk4 V c 7 t) (iblk4 V c 8 t)
    y (branchOf r) (rowIn r) (fun q => ?_) (fun q k => ?_) e2 e3 e4 e5 e6 e7 ?_
  · rw [Cert.Spec.stackedRow_branchOf_rowIn]
    show (V c main_v5_0 : S8192x4096.Idx → EReal) (((cfg4.win 0).blk t).view.emb (ix2 (y 0) q)) = (V c main_v5_0 : S8192x4096.Idx → EReal) (ix2 r q)
    refine readAt (V c main_v5_0 : S8192x4096.Idx → EReal) _ _ fun a => ?_
    match a with
    | ⟨0, _⟩ => show win4_0.index t (0 : Fin 2) * 512 + 1 * (y 0).val = r.val; omega
    | ⟨1, _⟩ => show win4_0.index t (1 : Fin 2) * 4096 + 1 * q.val = q.val; omega
  · show (V c main_v7_0 : S8192x128.Idx → EReal) (((cfg4.win 1).blk t).view.emb (ix2 q k)) = (V c main_v7_0 : S8192x128.Idx → EReal) (ix2 (stackedRow (branchOf r) q) k)
    refine readAt (V c main_v7_0 : S8192x128.Idx → EReal) _ _ fun a => ?_
    match a with
    | ⟨0, _⟩ => show win4_1.index t (0 : Fin 2) * 4096 + 1 * q.val = (branchOf r).val * 4096 + q.val; omega
    | ⟨1, _⟩ => show win4_1.index t (1 : Fin 2) * 128 + 1 * k.val = k.val; omega
  · rw [Cert.Spec.stackedRow_branchOf_rowIn]
    show (V c main_v7_1 : S8192x1.Idx → EReal) (((cfg4.win 8).blk t).view.emb y) = (V c main_v7_1 : S8192x1.Idx → EReal) (ix2 r 0)
    refine readAt (V c main_v7_1 : S8192x1.Idx → EReal) _ _ fun a => ?_
    match a with
    | ⟨0, _⟩ => show win4_8.index t (0 : Fin 2) * 512 + 1 * (y 0).val = r.val; omega
    | ⟨1, _⟩ => show win4_8.index t (1 : Fin 2) * 1 + 1 * (y 1).val = 0; omega

/-- An index of the output column is in point t's block iff each coordinate is in the block's range on its axis. -/
theorem mem_blk4 (t : Fin cfg4.N) (i : S8192x1.Idx) :
    i ∈ ((cfg4.win 9).blk t).view.set ↔ ∀ a : Fin 2, win4_9.index t a * S512x1.size a ≤ (i a).val ∧ (i a).val < win4_9.index t a * S512x1.size a + S512x1.size a := by
  show i ∈ ((View.whole main_v8).slice (win4_9.rect t)).set ↔ _
  rw [View.set_slice_whole, Rect.mem_set_unit]
  exact Iff.rfl

/-- Row r of the output column is in the block of point r / 512. -/
theorem cover4 (i : S8192x1.Idx) : ∃ t : Fin cfg4.N, (cfg4.win 9).flush t = true ∧ i ∈ ((cfg4.win 9).blk t).view.set := by
  have hi0 : (i 0).val < 8192 := (i 0).isLt
  have hi1 : (i 1).val < 1 := (i 1).isLt
  have hN : cfg4.N = 16 := N_4
  obtain ⟨t, ht⟩ : ∃ t : Fin cfg4.N, t.val = (i 0).val / 512 := ⟨⟨(i 0).val / 512, by rw [hN]; omega⟩, rfl⟩
  obtain ⟨i0_0, i0_1, i1_0, i1_1, i2_0, i2_1, i3_0, i3_1, i4_0, i4_1, i5_0, i5_1, i6_0, i6_1, i7_0, i7_1, i8_0, i8_1, i9_0, i9_1⟩ := blockIdx4 t
  refine ⟨t, flush4_9 t, ?_⟩
  rw [mem_blk4]
  intro a
  match a with
  | ⟨0, _⟩ => show win4_9.index t (0 : Fin 2) * 512 ≤ (i 0).val ∧ (i 0).val < win4_9.index t (0 : Fin 2) * 512 + 512; omega
  | ⟨1, _⟩ => show win4_9.index t (1 : Fin 2) * 1 ≤ (i 1).val ∧ (i 1).val < win4_9.index t (1 : Fin 2) * 1 + 1; omega

/-- The score column after the launch: each branch's incoming scores plus the head's scores of the clamped product of
    the branch's adjacency rows by its right-hand side. -/
theorem final4 (c : Dev nD) : (Cert.KernelIdeal.Hand.dat4 (F := Ideal) V c).arrAt 9 cfg4.N = Cert.Spec.stackCol (fun b i => Cert.Spec.colOf (V c main_v7_1) b i + Cert.Spec.score (Cert.Spec.headRows (V c main_arg6) (V c main_v0) (V c main_arg8) (V c main_v1) (V c main_v2) (V c main_v3)) (Cert.Spec.prop (Cert.Spec.rowsOf (V c main_v5_0) b) (Cert.Spec.rowsOf (V c main_v7_0) b)) i) :=
  (dat4 (F := Ideal) V c).arrAt_eq_of_cover 9 _ (fun t _ => flushed4_eq V c t) cover4

end Cert.KernelIdeal.HandValue

end
-- ==== Proof.KernelIdeal.Value5.lean ====
/-
  What the last launch leaves in its output array. The launch finds one 8192 × 1 score column, the first branch's
  4096 scores stacked on the second's; at grid point t it multiplies rows 512·t … 512·t + 511 of the first half by the
  same rows of the second half, element by element, and writes the 512 products to rows 512·t … 512·t + 511 of the
  4096 × 1 result. The eight points' blocks tile the result, so row i of the result is the product of rows i and
  4096 + i of the column.
-/
import proofs.«132566_g10127532884217_week1_w1_345_7_alg».proof.Proof.KernelIdeal.Region5
import proofs.«132566_g10127532884217_week1_w1_345_7_alg».proof.Proof.SpecStack
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The body's stored value at a row: the product of the two loaded columns' entries at that row. -/
theorem prod_apply5 (x0 x1 : Vec Ideal S512x1 .f32) (y : S512x1.Idx) : k5_pay1 x0 x1 y = x0 y * x1 y := by
  unfold k5_pay1
  simp only [shapeCast_self]
  rfl

/-- One entry of what a point stores, over variables: when the two loaded entries are entries `i0`, `i1` of a column
    `s`, and those are row `r` of the first and of the second branch, the stored entry is the product of the two
    branches' entries of row `r`. -/
theorem point5 (s : S8192x1.Idx → EReal) (x0 x1 : Vec Ideal S512x1 .f32) (y : S512x1.Idx) (i0 i1 : S8192x1.Idx) (r : Fin 4096)
    (h0 : x0 y = s i0) (h1 : x1 y = s i1) (hi0 : i0 = ix2 (Cert.Spec.stackedRow 0 r) 0) (hi1 : i1 = ix2 (Cert.Spec.stackedRow 1 r) 0) :
    k5_pay1 x0 x1 y = Cert.Spec.colOf s 0 r * Cert.Spec.colOf s 1 r := by
  subst hi0 hi1
  rw [prod_apply5, h0, h1]
  rfl

/-- The three index maps over the grid: at point t the first input window is at block t of the column, the second at
    block t + 8, the output window at block t of the result. -/
theorem blockIdx5 : ∀ t : Fin cfg5.N, win5_0.index t (0 : Fin 2) = t.val ∧ win5_0.index t (1 : Fin 2) = 0
    ∧ win5_1.index t (0 : Fin 2) = t.val + 8 ∧ win5_1.index t (1 : Fin 2) = 0
    ∧ win5_2.index t (0 : Fin 2) = t.val ∧ win5_2.index t (1 : Fin 2) = 0 :=
  (by decide +kernel : ∀ t : Fin grid5.N, _)

/-- What point t writes back is block t of the product column. -/
theorem flushed5_eq (c : Dev nD) (t : Fin cfg5.N) :
    (dat5 (F := Ideal) V c).flushed 2 t = ((cfg5.win 2).blk t).view.read (Elt Ideal)
      (fun j => Cert.Spec.colOf (V c main_v8) 0 (j 0) * Cert.Spec.colOf (V c main_v8) 1 (j 0)) := by
  show (cfg5.win 2).cut (grid5.coords t) ((dat5 (F := Ideal) V c).after 2 t) = _
  rw [after5_2]
  unfold out5_2
  rw [View.canon_unit_zero zeroOff5]
  simp only [View.ld_unit_zero (S := S512x1) zeroOff5]
  obtain ⟨e0, e1, e2, e3, e4, e5⟩ := blockIdx5 t
  funext y
  show k5_pay1 (iblk5 V c 0 t) (iblk5 V c 1 t) y
    = Cert.Spec.colOf (V c main_v8) 0 ((((cfg5.win 2).blk t).view.emb y) 0) * Cert.Spec.colOf (V c main_v8) 1 ((((cfg5.win 2).blk t).view.emb y) 0)
  have hy1 : (y 1).val < 1 := (y 1).isLt
  refine point5 (V c main_v8) (iblk5 V c 0 t) (iblk5 V c 1 t) y (((cfg5.win 0).blk t).view.emb y) (((cfg5.win 1).blk t).view.emb y)
    ((((cfg5.win 2).blk t).view.emb y) 0) rfl rfl ?_ ?_
  · funext a; apply Fin.ext
    match a with
    | ⟨0, _⟩ => show win5_0.index t (0 : Fin 2) * 512 + 1 * (y 0).val = 0 * 4096 + (win5_2.index t (0 : Fin 2) * 512 + 1 * (y 0).val); omega
    | ⟨1, _⟩ => show win5_0.index t (1 : Fin 2) * 1 + 1 * (y 1).val = 0; omega
  · funext a; apply Fin.ext
    match a with
    | ⟨0, _⟩ => show win5_1.index t (0 : Fin 2) * 512 + 1 * (y 0).val = 1 * 4096 + (win5_2.index t (0 : Fin 2) * 512 + 1 * (y 0).val); omega
    | ⟨1, _⟩ => show win5_1.index t (1 : Fin 2) * 1 + 1 * (y 1).val = 0; omega

/-- An index of the result is in point t's block iff each coordinate is in the block's range on its axis. -/
theorem mem_blk5 (t : Fin cfg5.N) (i : S4096x1.Idx) :
    i ∈ ((cfg5.win 2).blk t).view.set ↔ ∀ a : Fin 2, win5_2.index t a * S512x1.size a ≤ (i a).val ∧ (i a).val < win5_2.index t a * S512x1.size a + S512x1.size a := by
  show i ∈ ((View.whole main_v9).slice (win5_2.rect t)).set ↔ _
  rw [View.set_slice_whole, Rect.mem_set_unit]
  exact Iff.rfl

/-- Row i of the result is in the block of point i / 512. -/
theorem cover5 (i : S4096x1.Idx) : ∃ t : Fin cfg5.N, (cfg5.win 2).flush t = true ∧ i ∈ ((cfg5.win 2).blk t).view.set := by
  have hi0 : (i 0).val < 4096 := (i 0).isLt
  have hi1 : (i 1).val < 1 := (i 1).isLt
  have hN : cfg5.N = 8 := N_5
  obtain ⟨t, ht⟩ : ∃ t : Fin cfg5.N, t.val = (i 0).val / 512 := ⟨⟨(i 0).val / 512, by rw [hN]; omega⟩, rfl⟩
  obtain ⟨e0, e1, e2, e3, e4, e5⟩ := blockIdx5 t
  refine ⟨t, flush5_2 t, ?_⟩
  rw [mem_blk5]
  intro a
  match a with
  | ⟨0, _⟩ => show win5_2.index t (0 : Fin 2) * 512 ≤ (i 0).val ∧ (i 0).val < win5_2.index t (0 : Fin 2) * 512 + 512; omega
  | ⟨1, _⟩ => show win5_2.index t (1 : Fin 2) * 1 ≤ (i 1).val ∧ (i 1).val < win5_2.index t (1 : Fin 2) * 1 + 1; omega

/-- The result array after the launch: row i is the product of the two branches' scores of row i. -/
theorem final5 (c : Dev nD) : (Cert.KernelIdeal.Hand.dat5 (F := Ideal) V c).arrAt 2 cfg5.N = fun j => Cert.Spec.colOf (V c main_v8) 0 (j 0) * Cert.Spec.colOf (V c main_v8) 1 (j 0) :=
  (dat5 (F := Ideal) V c).arrAt_eq_of_cover 2 _ (fun t _ => flushed5_eq V c t) (cover5)

end Cert.KernelIdeal.HandValue

end
-- ==== Proof.KernelIdeal.Compose.lean ====
/-
  The idealized kernel program's result as a function of its arguments, over the extended reals. Launch by launch:
  the cast first weight is the first weight; layer 1 leaves the two adjacencies stacked in one array of 8192 rows, the
  two branches' right-hand sides for layer 2 stacked likewise, and the two first score columns stacked; each middle
  layer reads the stacked adjacency and right-hand side branch by branch and leaves the next right-hand sides and the
  running scores; the last layer leaves the final running scores; the last launch multiplies the first branch's column
  by the second's. The scoring head's parameters reach every launch through the host reshapes as row-shaped copies of
  the same numbers. Read through the stacking, the chain is the specification's `result`.
-/
import proofs.«132566_g10127532884217_week1_w1_345_7_alg».proof.Proof.KernelIdeal.Frame
import proofs.«132566_g10127532884217_week1_w1_345_7_alg».proof.Proof.KernelIdeal.Value0
import proofs.«132566_g10127532884217_week1_w1_345_7_alg».proof.Proof.KernelIdeal.Value1
import proofs.«132566_g10127532884217_week1_w1_345_7_alg».proof.Proof.KernelIdeal.Value2
import proofs.«132566_g10127532884217_week1_w1_345_7_alg».proof.Proof.KernelIdeal.Value3
import proofs.«132566_g10127532884217_week1_w1_345_7_alg».proof.Proof.KernelIdeal.Value4
import proofs.«132566_g10127532884217_week1_w1_345_7_alg».proof.Proof.KernelIdeal.Value5
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.Spec
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg) (c : Dev nD)

/-! ## The arguments and the specification's objects -/

/-- The twelve argument arrays on core `c`. -/
abbrev a0 : S4096x4096.Idx → EReal := m ((c : Thread nD τ).loc main_arg0)
abbrev a1 : S4096x4096.Idx → EReal := m ((c : Thread nD τ).loc main_arg1)
abbrev a2 : S4096x128.Idx → EReal := m ((c : Thread nD τ).loc main_arg2)
abbrev a3 : S128x128.Idx → EReal := m ((c : Thread nD τ).loc main_arg3)
abbrev a4 : S128x128.Idx → EReal := m ((c : Thread nD τ).loc main_arg4)
abbrev a5 : S128x128.Idx → EReal := m ((c : Thread nD τ).loc main_arg5)
abbrev a6 : S128x256.Idx → EReal := m ((c : Thread nD τ).loc main_arg6)
abbrev a7 : S256.Idx → EReal := m ((c : Thread nD τ).loc main_arg7)
abbrev a8 : S256x256.Idx → EReal := m ((c : Thread nD τ).loc main_arg8)
abbrev a9 : S256.Idx → EReal := m ((c : Thread nD τ).loc main_arg9)
abbrev a10 : S256x1.Idx → EReal := m ((c : Thread nD τ).loc main_arg10)
abbrev a11 : S1.Idx → EReal := m ((c : Thread nD τ).loc main_arg11)

/-- The adjacency of branch `b`. -/
def adj (b : Fin 2) : Mat 4096 4096 := if b = 0 then mat (a0 m c) else mat (a1 m c)
/-- The scoring head's parameters. -/
def hd : Head := head (a6 m c) (a7 m c) (a8 m c) (a9 m c) (a10 m c) (a11 m c)

/-! ## Buffers no launch so far has written hold what the host reshapes left -/

theorem V2_V1 (b : Ref sig .tc) (h0 : ∀ w, (cfg0.win w).isOut = true → Pipeline.arrRef spec0 w ≠ b) :
    V2 m ρ c b = V1 m ρ c b := W2_keep m ρ c b h0
theorem V3_V1 (b : Ref sig .tc) (h0 : ∀ w, (cfg0.win w).isOut = true → Pipeline.arrRef spec0 w ≠ b)
    (h1 : ∀ w, (cfg1.win w).isOut = true → Pipeline.arrRef spec1 w ≠ b) : V3 m ρ c b = V1 m ρ c b :=
  (W3_keep m ρ c b h1).trans (V2_V1 m ρ c b h0)
theorem V4_V1 (b : Ref sig .tc) (h0 : ∀ w, (cfg0.win w).isOut = true → Pipeline.arrRef spec0 w ≠ b)
    (h1 : ∀ w, (cfg1.win w).isOut = true → Pipeline.arrRef spec1 w ≠ b)
    (h2 : ∀ w, (cfg2.win w).isOut = true → Pipeline.arrRef spec2 w ≠ b) : V4 m ρ c b = V1 m ρ c b :=
  (W4_keep m ρ c b h2).trans (V3_V1 m ρ c b h0 h1)
theorem V5_V1 (b : Ref sig .tc) (h0 : ∀ w, (cfg0.win w).isOut = true → Pipeline.arrRef spec0 w ≠ b)
    (h1 : ∀ w, (cfg1.win w).isOut = true → Pipeline.arrRef spec1 w ≠ b)
    (h2 : ∀ w, (cfg2.win w).isOut = true → Pipeline.arrRef spec2 w ≠ b)
    (h3 : ∀ w, (cfg3.win w).isOut = true → Pipeline.arrRef spec3 w ≠ b) : V5 m ρ c b = V1 m ρ c b :=
  (W5_keep m ρ c b h3).trans (V4_V1 m ρ c b h0 h1 h2)

/-- An argument array after the host reshapes is as launched. -/
theorem V1_arg (b : Ref sig .tc) (h : b ∉ hostOps0_W) : V1 m ρ c b = m ((c : Thread nD τ).loc b) :=
  (W1_keep m ρ c b h).trans rfl

/-! ## The host reshapes read at an index -/

theorem V1_v0 : (V1 m ρ c main_v0 : S1x256.Idx → EReal) = shapeCast S1x256 (a7 m c) shapeCasts_S256_S1x256 := by
  dsimp only [Hand.V1, Hand.W1, hostOps0]; after_results; rfl
theorem V1_v1 : (V1 m ρ c main_v1 : S1x256.Idx → EReal) = shapeCast S1x256 (a9 m c) shapeCasts_S256_S1x256 := by
  dsimp only [Hand.V1, Hand.W1, hostOps0]; after_results; rfl
theorem V1_v2 : (V1 m ρ c main_v2 : S1x256.Idx → EReal) = shapeCast S1x256 (a10 m c) shapeCasts_S256x1_S1x256 := by
  dsimp only [Hand.V1, Hand.W1, hostOps0]; after_results; rfl
theorem V1_v3 : (V1 m ρ c main_v3 : S1x1.Idx → EReal) = shapeCast S1x1 (a11 m c) shapeCasts_S1_S1x1 := by
  dsimp only [Hand.V1, Hand.W1, hostOps0]; after_results; rfl

/-- The head's parameters as the launches take them (the row-shaped copies) are the head's parameters. -/
theorem headRows_V1 :
    headRows (V1 m ρ c main_arg6) (V1 m ρ c main_v0) (V1 m ρ c main_arg8) (V1 m ρ c main_v1) (V1 m ρ c main_v2) (V1 m ρ c main_v3) = hd m c := by
  rw [V1_v0, V1_v1, V1_v2, V1_v3, V1_arg m ρ c main_arg6 (by decide), V1_arg m ρ c main_arg8 (by decide)]
  unfold headRows hd head
  congr 1
  · funext k
    exact shapeCast_apply _ _ _ (ValueIdx.ix1 k) (by rw [Shape.rowMajor_val_one, Shape.rowMajor_val_two]; show k.val = 0 * 256 + k.val; omega)
  · funext k
    exact shapeCast_apply _ _ _ (ValueIdx.ix1 k) (by rw [Shape.rowMajor_val_one, Shape.rowMajor_val_two]; show k.val = 0 * 256 + k.val; omega)
  · funext k
    exact shapeCast_apply _ _ _ (ValueIdx.ix2 k 0) (by rw [Shape.rowMajor_val_two, Shape.rowMajor_val_two]; show k.val * 1 + 0 = 0 * 256 + k.val; omega)
  · exact shapeCast_apply _ _ _ (ValueIdx.ix1 0) (by rw [Shape.rowMajor_val_one, Shape.rowMajor_val_two]; rfl)

/-! ## The head's parameters at each launch's entry -/

theorem headRows_V2 :
    headRows (V2 m ρ c main_arg6) (V2 m ρ c main_v0) (V2 m ρ c main_arg8) (V2 m ρ c main_v1) (V2 m ρ c main_v2) (V2 m ρ c main_v3) = hd m c := by
  rw [V2_V1 m ρ c main_arg6 (by decide), V2_V1 m ρ c main_v0 (by decide), V2_V1 m ρ c main_arg8 (by decide), V2_V1 m ρ c main_v1 (by decide),
    V2_V1 m ρ c main_v2 (by decide), V2_V1 m ρ c main_v3 (by decide), headRows_V1]
theorem headRows_V3 :
    headRows (V3 m ρ c main_arg6) (V3 m ρ c main_v0) (V3 m ρ c main_arg8) (V3 m ρ c main_v1) (V3 m ρ c main_v2) (V3 m ρ c main_v3) = hd m c := by
  rw [V3_V1 m ρ c main_arg6 (by decide) (by decide), V3_V1 m ρ c main_v0 (by decide) (by decide), V3_V1 m ρ c main_arg8 (by decide) (by decide),
    V3_V1 m ρ c main_v1 (by decide) (by decide), V3_V1 m ρ c main_v2 (by decide) (by decide), V3_V1 m ρ c main_v3 (by decide) (by decide), headRows_V1]
theorem headRows_V4 :
    headRows (V4 m ρ c main_arg6) (V4 m ρ c main_v0) (V4 m ρ c main_arg8) (V4 m ρ c main_v1) (V4 m ρ c main_v2) (V4 m ρ c main_v3) = hd m c := by
  rw [V4_V1 m ρ c main_arg6 (by decide) (by decide) (by decide), V4_V1 m ρ c main_v0 (by decide) (by decide) (by decide),
    V4_V1 m ρ c main_arg8 (by decide) (by decide) (by decide), V4_V1 m ρ c main_v1 (by decide) (by decide) (by decide),
    V4_V1 m ρ c main_v2 (by decide) (by decide) (by decide), V4_V1 m ρ c main_v3 (by decide) (by decide) (by decide), headRows_V1]
theorem headRows_V5 :
    headRows (V5 m ρ c main_arg6) (V5 m ρ c main_v0) (V5 m ρ c main_arg8) (V5 m ρ c main_v1) (V5 m ρ c main_v2) (V5 m ρ c main_v3) = hd m c := by
  rw [V5_V1 m ρ c main_arg6 (by decide) (by decide) (by decide) (by decide), V5_V1 m ρ c main_v0 (by decide) (by decide) (by decide) (by decide),
    V5_V1 m ρ c main_arg8 (by decide) (by decide) (by decide) (by decide), V5_V1 m ρ c main_v1 (by decide) (by decide) (by decide) (by decide),
    V5_V1 m ρ c main_v2 (by decide) (by decide) (by decide) (by decide), V5_V1 m ρ c main_v3 (by decide) (by decide) (by decide) (by decide), headRows_V1]

/-! ## What each launch leaves, in the specification's terms -/

/-- The cast first weight is the first weight. -/
theorem E_v4 : (V2 m ρ c main_v4 : S4096x128.Idx → EReal) = a2 m c :=
  ((hF0 m ρ c 1).symm.trans (final0 (V1 m ρ) c)).trans (V1_arg m ρ c main_arg2 (by decide))

theorem V2_arg0 : (V2 m ρ c main_arg0 : S4096x4096.Idx → EReal) = a0 m c :=
  (V2_V1 m ρ c main_arg0 (by decide)).trans (V1_arg m ρ c main_arg0 (by decide))
theorem V2_arg1 : (V2 m ρ c main_arg1 : S4096x4096.Idx → EReal) = a1 m c :=
  (V2_V1 m ρ c main_arg1 (by decide)).trans (V1_arg m ρ c main_arg1 (by decide))
theorem V2_arg3 : (V2 m ρ c main_arg3 : S128x128.Idx → EReal) = a3 m c :=
  (V2_V1 m ρ c main_arg3 (by decide)).trans (V1_arg m ρ c main_arg3 (by decide))
theorem V3_arg4 : (V3 m ρ c main_arg4 : S128x128.Idx → EReal) = a4 m c :=
  (V3_V1 m ρ c main_arg4 (by decide) (by decide)).trans (V1_arg m ρ c main_arg4 (by decide))
theorem V4_arg5 : (V4 m ρ c main_arg5 : S128x128.Idx → EReal) = a5 m c :=
  (V4_V1 m ρ c main_arg5 (by decide) (by decide) (by decide)).trans (V1_arg m ρ c main_arg5 (by decide))

/-- After layer 1: the stacked adjacencies, the stacked right-hand sides of layer 2, the stacked first scores. -/
theorem E_adjb : (V3 m ρ c main_v5_0 : S8192x4096.Idx → EReal) = stack (adj m c) := by
  refine ((hF1 m ρ c 10).symm.trans (final1_adjb (V2 m ρ) c)).trans ?_
  rw [V2_arg0, V2_arg1]; rfl
theorem E_r1 : (V3 m ρ c main_v5_1 : S8192x128.Idx → EReal)
    = stack (fun b => times (x1 (adj m c b) (mat (a2 m c))) (mat (a3 m c))) := by
  refine ((hF1 m ρ c 11).symm.trans (final1_rhs (V2 m ρ) c)).trans ?_
  rw [V2_arg0, V2_arg1, V2_arg3, E_v4]; rfl
theorem E_s1 : (V3 m ρ c main_v5_2 : S8192x1.Idx → EReal) = stackCol (fun b => s1 (hd m c) (adj m c b) (mat (a2 m c))) := by
  refine ((hF1 m ρ c 12).symm.trans (final1_s (V2 m ρ) c)).trans ?_
  rw [V2_arg0, V2_arg1, E_v4, headRows_V2]; rfl

/-- After layer 2. -/
theorem E_r2 : (V4 m ρ c main_v6_0 : S8192x128.Idx → EReal)
    = stack (fun b => times (x2 (adj m c b) (mat (a2 m c)) (mat (a3 m c))) (mat (a4 m c))) := by
  refine ((hF2 m ρ c 10).symm.trans (final2_rhs (V3 m ρ) c)).trans ?_
  rw [E_adjb, E_r1, V3_arg4]; simp only [rowsOf_stack]; rfl
theorem E_s2 : (V4 m ρ c main_v6_1 : S8192x1.Idx → EReal)
    = stackCol (fun b => s2 (hd m c) (adj m c b) (mat (a2 m c)) (mat (a3 m c))) := by
  refine ((hF2 m ρ c 11).symm.trans (final2_s (V3 m ρ) c)).trans ?_
  rw [E_adjb, E_r1, E_s1, headRows_V3]; simp only [rowsOf_stack, colOf_stackCol]; rfl

theorem V4_adjb : (V4 m ρ c main_v5_0 : S8192x4096.Idx → EReal) = stack (adj m c) :=
  (W4_keep m ρ c main_v5_0 (by decide)).trans (E_adjb m ρ c)
theorem V5_adjb : (V5 m ρ c main_v5_0 : S8192x4096.Idx → EReal) = stack (adj m c) :=
  (W5_keep m ρ c main_v5_0 (by decide)).trans (V4_adjb m ρ c)

/-- After layer 3. -/
theorem E_r3 : (V5 m ρ c main_v7_0 : S8192x128.Idx → EReal)
    = stack (fun b => times (x3 (adj m c b) (mat (a2 m c)) (mat (a3 m c)) (mat (a4 m c))) (mat (a5 m c))) := by
  refine ((hF3 m ρ c 10).symm.trans (final3_rhs (V4 m ρ) c)).trans ?_
  rw [V4_adjb, E_r2, V4_arg5]; simp only [rowsOf_stack]; rfl
theorem E_s3 : (V5 m ρ c main_v7_1 : S8192x1.Idx → EReal)
    = stackCol (fun b => s3 (hd m c) (adj m c b) (mat (a2 m c)) (mat (a3 m c)) (mat (a4 m c))) := by
  refine ((hF3 m ρ c 11).symm.trans (final3_s (V4 m ρ) c)).trans ?_
  rw [V4_adjb, E_r2, E_s2, headRows_V4]; simp only [rowsOf_stack, colOf_stackCol]; rfl

/-- After the last layer: the stacked branch scores. -/
theorem E_s4 : (V6 m ρ c main_v8 : S8192x1.Idx → EReal)
    = stackCol (fun b => s4 (hd m c) (adj m c b) (mat (a2 m c)) (mat (a3 m c)) (mat (a4 m c)) (mat (a5 m c))) := by
  refine ((hF4 m ρ c 9).symm.trans (final4 (V5 m ρ) c)).trans ?_
  rw [V5_adjb, E_r3, E_s3, headRows_V5]; simp only [rowsOf_stack, colOf_stackCol]; rfl

/-- THE KERNEL'S VALUE: at the end of the run the result array holds the specification's function of the arguments. -/
theorem kernel_value : (W7 m ρ c (Proc.devRef .tc main_v9) : S4096x1.Idx → EReal)
    = outArr (a0 m c) (a1 m c) (a2 m c) (a3 m c) (a4 m c) (a5 m c) (a6 m c) (a7 m c) (a8 m c) (a9 m c) (a10 m c) (a11 m c) := by
  refine ((W7_out m ρ c).trans (final5 (V6 m ρ) c)).trans ?_
  rw [E_s4]; simp only [colOf_stackCol]
  funext j
  show s4 (hd m c) (adj m c 0) _ _ _ _ (j 0) * s4 (hd m c) (adj m c 1) _ _ _ _ (j 0) = _
  rw [show adj m c 0 = mat (a0 m c) from if_pos rfl, show adj m c 1 = mat (a1 m c) from if_neg (by decide)]
  rfl

end Cert.KernelIdeal.HandValue

end
-- ==== Proof.lean ====
/-
  The certificate's five claims. The three frames: the kernel program — the cast of the first weight, the fused first
  graph-convolution layer, two middle layers, the last layer and the product of the two branches' score columns, six
  launches behind four host reshapes — runs to the end without a fault and leaves its twelve argument arrays as
  launched, read at the word level and over the extended reals (one proof, stated at any float instance); the
  reference's run is its operations' composed term. The idealization rewrote nothing. Over the extended reals both
  programs end with the product of the two branches' score columns, the same function of the arguments.
-/
import proofs.«132566_g10127532884217_week1_w1_345_7_alg».proof.Defs
import proofs.«132566_g10127532884217_week1_w1_345_7_alg».proof.Proof.Gen.Kernel
import proofs.«132566_g10127532884217_week1_w1_345_7_alg».proof.Proof.Gen.KernelIdeal
import proofs.«132566_g10127532884217_week1_w1_345_7_alg».proof.Proof.Gen.ReferenceIdeal
import proofs.«132566_g10127532884217_week1_w1_345_7_alg».proof.Proof.Gen.Pre_finite_inputs
import proofs.«132566_g10127532884217_week1_w1_345_7_alg».proof.Proof.Gen.ReferenceIdeal.Run
import proofs.«132566_g10127532884217_week1_w1_345_7_alg».proof.Proof.Gen.ReferenceIdeal.Read
import proofs.«132566_g10127532884217_week1_w1_345_7_alg».proof.Proof.Kernel.Frame
import proofs.«132566_g10127532884217_week1_w1_345_7_alg».proof.Proof.KernelIdeal.Frame
import proofs.«132566_g10127532884217_week1_w1_345_7_alg».proof.Proof.RefValue
import proofs.«132566_g10127532884217_week1_w1_345_7_alg».proof.Proof.KernelIdeal.Compose
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Hand.frame (F := Bits) m ρ

/-- The idealized kernel program runs and leaves its arguments as launched. -/
theorem frame_ki : Cert.frame_KernelIdeal := fun m ρ _ => Cert.KernelIdeal.Hand.frame (F := Ideal) m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the idealized kernel program and the reference, run from memories that agree on the twelve
    arguments, both end with the result array at the specification's function of the arguments, and leave the
    arguments as launched. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, ?_, ?_, ?_, ?_, ?_, ?_, ?_, ?_, ?_, ?_, ?_, ?_⟩) (Cert.KernelIdeal.Hand.run_all (F := Ideal) m ρ)
    · exact (h c _ (Cert.KernelIdeal.Hand.mem_uc Cert.KernelIdeal.main_v9 (by decide))).trans (Cert.KernelIdeal.HandValue.kernel_value m ρ c)
    · exact (h c _ (Cert.KernelIdeal.Hand.mem_uc Cert.KernelIdeal.main_arg0 (by decide))).trans (Cert.KernelIdeal.Hand.W7_arg m ρ c Cert.KernelIdeal.main_arg0 (by decide) (by decide) (by decide) (by decide) (by decide) (by decide) (by decide))
    · exact (h c _ (Cert.KernelIdeal.Hand.mem_uc Cert.KernelIdeal.main_arg1 (by decide))).trans (Cert.KernelIdeal.Hand.W7_arg m ρ c Cert.KernelIdeal.main_arg1 (by decide) (by decide) (by decide) (by decide) (by decide) (by decide) (by decide))
    · exact (h c _ (Cert.KernelIdeal.Hand.mem_uc Cert.KernelIdeal.main_arg2 (by decide))).trans (Cert.KernelIdeal.Hand.W7_arg m ρ c Cert.KernelIdeal.main_arg2 (by decide) (by decide) (by decide) (by decide) (by decide) (by decide) (by decide))
    · exact (h c _ (Cert.KernelIdeal.Hand.mem_uc Cert.KernelIdeal.main_arg3 (by decide))).trans (Cert.KernelIdeal.Hand.W7_arg m ρ c Cert.KernelIdeal.main_arg3 (by decide) (by decide) (by decide) (by decide) (by decide) (by decide) (by decide))
    · exact (h c _ (Cert.KernelIdeal.Hand.mem_uc Cert.KernelIdeal.main_arg4 (by decide))).trans (Cert.KernelIdeal.Hand.W7_arg m ρ c Cert.KernelIdeal.main_arg4 (by decide) (by decide) (by decide) (by decide) (by decide) (by decide) (by decide))
    · exact (h c _ (Cert.KernelIdeal.Hand.mem_uc Cert.KernelIdeal.main_arg5 (by decide))).trans (Cert.KernelIdeal.Hand.W7_arg m ρ c Cert.KernelIdeal.main_arg5 (by decide) (by decide) (by decide) (by decide) (by decide) (by decide) (by decide))
    · exact (h c _ (Cert.KernelIdeal.Hand.mem_uc Cert.KernelIdeal.main_arg6 (by decide))).trans (Cert.KernelIdeal.Hand.W7_arg m ρ c Cert.KernelIdeal.main_arg6 (by decide) (by decide) (by decide) (by decide) (by decide) (by decide) (by decide))
    · exact (h c _ (Cert.KernelIdeal.Hand.mem_uc Cert.KernelIdeal.main_arg7 (by decide))).trans (Cert.KernelIdeal.Hand.W7_arg m ρ c Cert.KernelIdeal.main_arg7 (by decide) (by decide) (by decide) (by decide) (by decide) (by decide) (by decide))
    · exact (h c _ (Cert.KernelIdeal.Hand.mem_uc Cert.KernelIdeal.main_arg8 (by decide))).trans (Cert.KernelIdeal.Hand.W7_arg m ρ c Cert.KernelIdeal.main_arg8 (by decide) (by decide) (by decide) (by decide) (by decide) (by decide) (by decide))
    · exact (h c _ (Cert.KernelIdeal.Hand.mem_uc Cert.KernelIdeal.main_arg9 (by decide))).trans (Cert.KernelIdeal.Hand.W7_arg m ρ c Cert.KernelIdeal.main_arg9 (by decide) (by decide) (by decide) (by decide) (by decide) (by decide) (by decide))
    · exact (h c _ (Cert.KernelIdeal.Hand.mem_uc Cert.KernelIdeal.main_arg10 (by decide))).trans (Cert.KernelIdeal.Hand.W7_arg m ρ c Cert.KernelIdeal.main_arg10 (by decide) (by decide) (by decide) (by decide) (by decide) (by decide) (by decide))
    · exact (h c _ (Cert.KernelIdeal.Hand.mem_uc Cert.KernelIdeal.main_arg11 (by decide))).trans (Cert.KernelIdeal.Hand.W7_arg m ρ c Cert.KernelIdeal.main_arg11 (by decide) (by decide) (by decide) (by decide) (by decide) (by decide) (by decide))
  · refine (θ_run Cert.ReferenceIdeal.defs _ _).mono (fun _ h c => ⟨?_, (h c).2⟩) (Cert.ReferenceIdeal.Value.run (F := Ideal) m' ρ')
    rw [(h c).1, Cert.ReferenceIdeal.Read.val_main_v188_eq, Cert.RefSide.ref_is_spec]
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
